-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S4096x1056 : Shape := ⟨2, ![4096, 1056]⟩
abbrev S512x16 : Shape := ⟨2, ![512, 16]⟩
abbrev S16 : Shape := ⟨1, ![16]⟩
abbrev S16x32 : Shape := ⟨2, ![16, 32]⟩
abbrev S32 : Shape := ⟨1, ![32]⟩
abbrev S1056x64 : Shape := ⟨2, ![1056, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S4096x1056 : S_.BroadcastsInDim S4096x1056 (![] : Fin 0 → Fin S4096x1056.rank)
  reducesTo_S4096x1056_S_d0_1 : S4096x1056.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S1056x64 : S_.BroadcastsInDim S1056x64 (![] : Fin 0 → Fin S1056x64.rank)
  reducesTo_S1056x64_S_d0_1 : S1056x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64 .f32) (main_arg9 : FVec F S64x16 .f32) (main_arg10 : FVec F S16 .f32) (main_arg11 : FVec F S16x1 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg11
  let main_cst_18 : FVec F S_ .f32 := constant S_ .f32 0x7F800000#32
  let main_v50 : FVec F S16x1 .f32 := broadcastInDim S16x1 ![] bcast_S_S16x1 main_cst_18
  fn_part3 (F := F) main_arg12 main_v48 main_v49 main_v50

def fn_part1 {F : FTy → Type} [FloatOps F] (main_arg5 : FVec F S16x32 .f32) (main_arg6 : FVec F S32 .f32) (main_arg7 : FVec F S1056x64 .f32) (main_arg8 : FVec F S64 .f32) (main_arg9 : FVec F S64x16 .f32) (main_arg10 : FVec F S16 .f32) (main_arg11 : FVec F S16x1 .f32) (main_arg12 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1056x64 .f32 := Host.absf main_arg7
  let main_cst_10 : FVec F S_ .f32 := constant S_ .f32 0x7F800000#32
  let main_v30 : FVec F S1056x64 .f32 := broadcastInDim S1056x64 ![] bcast_S_S1056x64 main_cst_10
  let main_v31 : IVec S1056x64 1 := cmpf .olt main_v29 main_v30
  let main_c_11 : IVec S_ 1 := constantI S_ 1 1#1
  let main_v32 : IVec S_ 1 := (fun x v => Host.reduce IntOp.andi x v reducesTo_S1056x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x512 .f32) (main_arg1 : IVec S2x3200000 32) (main_arg2 : FVec F S4096x1056 .f32) (main_arg3 : FVec F S512x16 .f32) (main_arg4 : FVec F S16 .f32) (main_arg5 : FVec F S16x32 .f32) (main_arg6 : FVec F S32 .f32) (main_arg7 : FVec F S1056x64 .f32) (main_arg8 : FVec F S64 .f32) (main_arg9 : FVec F S64x16 .f32) (main_arg10 : FVec F S16 .f32) (main_arg11 : FVec F S16x1 .f32) (main_arg12 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S4096x1056 .f32 := Host.absf main_arg2
  let main_cst_0 : FVec F S_ .f32 := constant S_ .f32 0x7F800000#32
  let main_v5 : FVec F S4096x1056 .f32 := broadcastInDim S4096x1056 ![] bcast_S_S4096x1056 main_cst_0
  let main_v6 : IVec S4096x1056 1 := cmpf .olt main_v4 main_v5
  let main_c_1 : IVec S_ 1 := constantI S_ 1 1#1
  let main_v7 : IVec S_ 1 := (fun x v => Host.reduce IntOp.andi x v reducesTo_S4096x1056_S_d0_1 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_v13 main_v16
-- ==== Kernel.lean ====
abbrev S100000x512 : Shape := ⟨2, ![100000, 512]⟩
abbrev S2x3200000 : Shape := ⟨2, ![2, 3200000]⟩
abbrev S4096x1056 : Shape := ⟨2, ![4096, 1056]⟩
abbrev S512x16 : Shape := ⟨2, ![512, 16]⟩
abbrev S16 : Shape := ⟨1, ![16]⟩
abbrev S16x32 : Shape := ⟨2, ![16, 32]⟩
abbrev S32 : Shape := ⟨1, ![32]⟩
abbrev S1056x64 : Shape := ⟨2, ![1056, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S10000x512 : Shape := ⟨2, ![10000, 512]⟩
abbrev S10000x16 : Shape := ⟨2, ![10000, 16]⟩
abbrev S3200000x16 : Shape := ⟨2, ![3200000, 16]⟩
abbrev S100000x1 : Shape := ⟨2, ![100000, 1]⟩
abbrev S1x16 : Shape := ⟨2, ![1, 16]⟩
abbrev S1x32 : Shape := ⟨2, ![1, 32]⟩
abbrev S100000x32 : Shape := ⟨2, ![100000, 32]⟩
abbrev S10000x32 : Shape := ⟨2, ![10000, 32]⟩
abbrev S1x64 : Shape := ⟨2, ![1, 64]⟩
abbrev S1x1 : Shape := ⟨2, ![1, 1]⟩
abbrev S4096x1 : Shape := ⟨2, ![4096, 1]⟩
abbrev S1024x1056 : Shape := ⟨2, ![1024, 1056]⟩
abbrev S1024x1 : Shape := ⟨2, ![1024, 1]⟩
abbrev S1024x64 : Shape := ⟨2, ![1024, 64]⟩
abbrev S1024x16 : Shape := ⟨2, ![1024, 16]⟩

abbrev nBuf : Space → Nat
  | .hbm => 116
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S4096x1056, .f32⟩
  | .hbm, ⟨3, _⟩ => ⟨S512x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S1056x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S3200000, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x16, .f32⟩
  | .hbm, ⟨56, _⟩ => ⟨S3200000x1, .f32⟩
  | .hbm, ⟨57, _⟩ => ⟨S3200000x16, .f32⟩
  | .hbm, ⟨58, _⟩ => ⟨S3200000x16, .f32⟩
  | .hbm, ⟨59, _⟩ => ⟨S_, .f32⟩
  | .hbm, ⟨60, _⟩ => ⟨S100000x16, .f32⟩
  | .hbm, ⟨61, _⟩ => ⟨S3200000x1, .i32⟩
  | .hbm, ⟨62, _⟩ => ⟨S100000x16, .f32⟩
  | .hbm, ⟨63, _⟩ => ⟨S100000, .f32⟩
  | .hbm, ⟨64, _⟩ => ⟨S100000x1, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000, .f32⟩
  | .hbm, ⟨88, _⟩ => ⟨S3200000, .f32⟩
  | .hbm, ⟨89, _⟩ => ⟨S_, .i32⟩
  | .hbm, ⟨90, _⟩ => ⟨S3200000, .i32⟩
  | .hbm, ⟨91, _⟩ => ⟨S3200000, .i1⟩
  | .hbm, ⟨92, _⟩ => ⟨S_, .i32⟩
  | .hbm, ⟨93, _⟩ => ⟨S3200000, .i32⟩
  | .hbm, ⟨94, _⟩ => ⟨S3200000, .i32⟩
  | .hbm, ⟨95, _⟩ => ⟨S3200000, .i32⟩
  | .hbm, ⟨96, _⟩ => ⟨S3200000x1, .i32⟩
  | .hbm, ⟨97, _⟩ => ⟨S3200000x16, .f32⟩
  | .hbm, ⟨98, _⟩ => ⟨S3200000x1, .f32⟩
  | .hbm, ⟨99, _⟩ => ⟨S3200000x16, .f32⟩
  | .hbm, ⟨100, _⟩ => ⟨S3200000x16, .f32⟩
  | .hbm, ⟨101, _⟩ => ⟨S_, .f32⟩
  | .hbm, ⟨102, _⟩ => ⟨S100000x16, .f32⟩
  | .hbm, ⟨103, _⟩ => ⟨S3200000x1, .i32⟩
  | .hbm, ⟨104, _⟩ => ⟨S100000x16, .f32⟩
  | .hbm, ⟨105, _⟩ => ⟨S100000, .f32⟩
  | .hbm, ⟨106, _⟩ => ⟨S100000x1, .f32⟩
  | .hbm, ⟨107, _⟩ => ⟨S100000x16, .f32⟩
  | .hbm, ⟨108, _⟩ => ⟨S100000x16, .f32⟩
  | .hbm, ⟨109, _⟩ => ⟨S100000x16, .f32⟩
  | .hbm, ⟨110, _⟩ => ⟨S1x32, .f32⟩
  | .hbm, ⟨111, _⟩ => ⟨S100000x32, .f32⟩
  | .hbm, ⟨112, _⟩ => ⟨S1x64, .f32⟩
  | .hbm, ⟨113, _⟩ => ⟨S1x16, .f32⟩
  | .hbm, ⟨114, _⟩ => ⟨S1x1, .f32⟩
  | .hbm, ⟨115, _⟩ => ⟨S4096x1, .f32⟩
  | .local _ .vmem, ⟨0, _⟩ => ⟨S10000x512, .f32⟩
  | .local _ .vmem, ⟨1, _⟩ => ⟨S10000x512, .f32⟩
  | .local _ .vmem, ⟨2, _⟩ => ⟨S512x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S1024x1056, .f32⟩
  | .local _ .vmem, ⟨17, _⟩ => ⟨S1024x1056, .f32⟩
  | .local _ .vmem, ⟨18, _⟩ => ⟨S1056x64, .f32⟩
  | .local _ .vmem, ⟨19, _⟩ => ⟨S1x64, .f32⟩
  | .local _ .vmem, ⟨20, _⟩ => ⟨S64x16, .f32⟩
  | .local _ .vmem, ⟨21, _⟩ => ⟨S1x16, .f32⟩
  | .local _ .vmem, ⟨22, _⟩ => ⟨S16x1, .f32⟩
  | .local _ .vmem, ⟨23, _⟩ => ⟨S1x1, .f32⟩
  | .local _ .vmem, ⟨24, _⟩ => ⟨S1024x1, .f32⟩
  | .local _ .vmem, ⟨25, _⟩ => ⟨S1024x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1056 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1056x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x512_S10000x512_0_0 : ∀ a, (![0, 0] : Fin 2 → Nat) a + S10000x512.size a ≤ S10000x512.size a
  h_S10000x512 : 0 < S10000x512.numel
  inb_S512x16_S512x16_0_0 : ∀ a, (![0, 0] : Fin 2 → Nat) a + S512x16.size a ≤ S512x16.size a
  h_S512x16 : 0 < S512x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S32_S1x32 : S32.ShapeCasts S1x32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S64_S1x64 : S64.ShapeCasts S1x64
  shapeCasts_S1_S1x1 : S1.ShapeCasts S1x1
  inb_S1024x1056_S1024x1056_0_0 : ∀ a, (![0, 0] : Fin 2 → Nat) a + S1024x1056.size a ≤ S1024x1056.size a
  h_S1024x1056 : 0 < S1024x1056.numel
  inb_S1056x64_S1056x64_0_0 : ∀ a, (![0, 0] : Fin 2 → Nat) a + S1056x64.size a ≤ S1056x64.size a
  h_S1056x64 : 0 < S1056x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x16_S64x16_0_0 : ∀ a, (![0, 0] : Fin 2 → Nat) a + S64x16.size a ≤ S64x16.size a
  h_S64x16 : 0 < S64x16.numel
  broadcasts_S1x16_S1024x16 : S1x16.Broadcasts S1024x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S3200000x1_S3200000_n_0_0_1_wf : ScatterDims.WF S100000 S3200000x1 S3200000 [] [0] [0] 1
  dot_S10000x512_S512x16_S10000x16_1_0_0_1_n_n_wf : DotDims.WF S10000x512 S512x16 S10000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x32_S10000x32_1_0_0_1_n_n_wf : DotDims.WF S10000x16 S16x32 S10000x32 [1] [0] [0] [1] [] []
  dot_S1024x1056_S1056x64_S1024x64_1_0_0_1_n_n_wf : DotDims.WF S1024x1056 S1056x64 S1024x64 [1] [0] [0] [1] [] []
  dot_S1024x64_S64x16_S1024x16_1_0_0_1_n_n_wf : DotDims.WF S1024x64 S64x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .f32 = 32 ∨ (Rect.block (s := S100000x512) S10000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1056.size a ≤ S4096x1056.size a
  hwx3_0 : ∀ i : grid3.Coords, EltTy.bits .f32 = 32 ∨ (Rect.block (s := S4096x1056) S1024x1056.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1056x64.size a ≤ S1056x64.size a
  hwx3_1 : ∀ i : grid3.Coords, EltTy.bits .f32 = 32 ∨ (Rect.block (s := S1056x64) S1056x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .f32 = 32 ∨ (Rect.block (s := S64x16) S64x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x1.size a ≤ S16x1.size a
  hwx3_5 : ∀ i : grid3.Coords, EltTy.bits .f32 = 32 ∨ (Rect.block (s := S16x1) S16x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S4096x1.size a
  hwx3_7 : ∀ i : grid3.Coords, EltTy.bits .f32 = 32 ∨ (Rect.block (s := S4096x1) S1024x1.size (cc3_transform_7 i) (hinb3_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S1024x1056_S1056x64_S1024x64_1_0_0_1_n_n : DotDims S1024x1056 S1056x64 S1024x64 where
  lhsContracting := [1]
  rhsContracting := [0]
  lhsNonContracting := [0]
  rhsNonContracting := [1]
  lhsBatch := []
  rhsBatch := []
  wf := dot_S1024x1056_S1056x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_arg0) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S1024x1056.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1056x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S16x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v85) S1024x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S4096x1056 : Shape := ⟨2, ![4096, 1056]⟩
abbrev S512x16 : Shape := ⟨2, ![512, 16]⟩
abbrev S16 : Shape := ⟨1, ![16]⟩
abbrev S16x32 : Shape := ⟨2, ![16, 32]⟩
abbrev S32 : Shape := ⟨1, ![32]⟩
abbrev S1056x64 : Shape := ⟨2, ![1056, 64]⟩
abbrev S64 : Shape := ⟨1, ![64]⟩
abbrev S64x16 : Shape := ⟨2, ![64, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x32 : Shape := ⟨2, ![100000, 32]⟩
abbrev S3200000x32 : Shape := ⟨2, ![3200000, 32]⟩
abbrev S1x32 : Shape := ⟨2, ![1, 32]⟩
abbrev S4096x64 : Shape := ⟨2, ![4096, 64]⟩
abbrev S1x64 : Shape := ⟨2, ![1, 64]⟩
abbrev S4096x16 : Shape := ⟨2, ![4096, 16]⟩
abbrev S4096x1 : Shape := ⟨2, ![4096, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000x512, .f32⟩
  | 1 => ⟨S2x3200000, .i32⟩
  | 2 => ⟨S4096x1056, .f32⟩
  | 3 => ⟨S512x16, .f32⟩
  | 4 => ⟨S16, .f32⟩
  | 5 => ⟨S16x32, .f32⟩
  | 6 => ⟨S32, .f32⟩
  | 7 => ⟨S1056x64, .f32⟩
  | 8 => ⟨S64, .f32⟩
  | 9 => ⟨S64x16, .f32⟩
  | 10 => ⟨S16, .f32⟩
  | 11 => ⟨S16x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S100000x16, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x16, .f32⟩
  | 56 => ⟨S3200000x1, .f32⟩
  | 57 => ⟨S3200000x16, .f32⟩
  | 58 => ⟨S3200000x16, .f32⟩
  | 59 => ⟨S_, .f32⟩
  | 60 => ⟨S100000x16, .f32⟩
  | 61 => ⟨S3200000x1, .i32⟩
  | 62 => ⟨S100000x16, .f32⟩
  | 63 => ⟨S100000, .f32⟩
  | 64 => ⟨S100000x1, .f32⟩
  | 65 => ⟨S100000x16, .f32⟩
  | 66 => ⟨S100000x16, .f32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x32, .f32⟩
  | 75 => ⟨S_, .f32⟩
  | 76 => ⟨S3200000, .f32⟩
  | 77 => ⟨S_, .f32⟩
  | 78 => ⟨S100000, .f32⟩
  | 79 => ⟨S3200000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x32, .f32⟩
  | 113 => ⟨S3200000x1, .f32⟩
  | 114 => ⟨S3200000x32, .f32⟩
  | 115 => ⟨S3200000x32, .f32⟩
  | 116 => ⟨S_, .f32⟩
  | 117 => ⟨S100000x32, .f32⟩
  | 118 => ⟨S3200000x1, .i32⟩
  | 119 => ⟨S100000x32, .f32⟩
  | 120 => ⟨S100000, .f32⟩
  | 121 => ⟨S100000x1, .f32⟩
  | 122 => ⟨S100000x32, .f32⟩
  | 123 => ⟨S100000x32, .f32⟩
  | 124 => ⟨S100000x32, .f32⟩
  | 125 => ⟨S1x32, .f32⟩
  | 126 => ⟨S100000x32, .f32⟩
  | 127 => ⟨S100000x32, .f32⟩
  | _ => ⟨S100000x512, .f32⟩

abbrev hbmTy0_1 (i : Nat) : BufTy := match i % 128 with
  | 0 => ⟨S_, .f32⟩
  | 1 => ⟨S100000x32, .f32⟩
  | 2 => ⟨S100000x32, .f32⟩
  | 3 => ⟨S4096x64, .f32⟩
  | 4 => ⟨S1x64, .f32⟩
  | 5 => ⟨S4096x64, .f32⟩
  | 6 => ⟨S4096x64, .f32⟩
  | 7 => ⟨S_, .f32⟩
  | 8 => ⟨S4096x64, .f32⟩
  | 9 => ⟨S4096x64, .f32⟩
  | 10 => ⟨S4096x16, .f32⟩
  | 11 => ⟨S1x16, .f32⟩
  | 12 => ⟨S4096x16, .f32⟩
  | 13 => ⟨S4096x16, .f32⟩
  | 14 => ⟨S_, .f32⟩
  | 15 => ⟨S4096x16, .f32⟩
  | 16 => ⟨S4096x16, .f32⟩
  | 17 => ⟨S4096x1, .f32⟩
  | 18 => ⟨S1x1, .f32⟩
  | 19 => ⟨S4096x1, .f32⟩
  | 20 => ⟨S4096x1, .f32⟩
  | 21 => ⟨S_, .f32⟩
  | 22 => ⟨S4096x1, .f32⟩
  | 23 => ⟨S4096x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call2_cst : Ref sig .tc := ⟨.hbm, 135, rfl⟩
abbrev main_call2_v0 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call3_cst : Ref sig .tc := ⟨.hbm, 142, rfl⟩
abbrev main_call3_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call4_cst : Ref sig .tc := ⟨.hbm, 149, rfl⟩
abbrev main_call4_v0 : Ref sig .tc := ⟨.hbm, 150, rfl⟩
abbrev main_v108 : Ref sig .tc := ⟨.hbm, 151, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  dot_S100000x512_S512x16_S100000x16_1_0_0_1_n_n_wf : DotDims.WF S100000x512 S512x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4096x1056_S1056x64_S4096x64_1_0_0_1_n_n_wf : DotDims.WF S4096x1056 S1056x64 S4096x64 [1] [0] [0] [1] [] []
  dot_S4096x64_S64x16_S4096x16_1_0_0_1_n_n_wf : DotDims.WF S4096x64 S64x16 S4096x16 [1] [0] [0] [1] [] []
  dot_S4096x16_S16x1_S4096x1_1_0_0_1_n_n_wf : DotDims.WF S4096x16 S16x1 S4096x1 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4096x1056_S1056x64_S4096x64_1_0_0_1_n_n : DotDims S4096x1056 S1056x64 S4096x64 where
  lhsContracting := [1]
  rhsContracting := [0]
  lhsNonContracting := [0]
  rhsNonContracting := [1]
  lhsBatch := []
  rhsBatch := []
  wf := dot_S4096x1056_S1056x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

class Facts : Prop extends Facts₀ where

variable [Facts]
-- ==== Proof.KRunValues.lean ====
/-
  The kernel program's run with its two results named. The program is four kernel regions among stretches of host
  operations; the contents of every buffer at each boundary between them are a fold from the launch memory, and at the
  end every buffer that outlives the run holds the last boundary's contents. Here that is read at the two result
  buffers as well as at the thirteen argument buffers (which end as launched: no operation and no region writes one).
-/
import proofs.«125731_j33835752358234_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates without a fault, and in
    the final state the two result buffers hold the last boundary's contents and the arguments are as launched. -/
theorem run_values : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_v85) = W8 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       h c _ (mem_uc main_v85 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.Gcn.KRun

end
-- ==== Proof.Spec.lean ====
/-
  The mathematics of the two programs, index by index, over the extended reals.

  A graph-convolution layer with self loops and symmetric normalisation: every node `n` has the degree
  `deg n = 1 + #{e | dst e = n}` and the weight `dinv n = (deg n)^(-1/2)`; an edge `e` carries the weight
  `dinv (src e) * dinv (dst e)`; aggregating a feature matrix adds to every node the weighted rows of the sources of
  its incoming edges and its own row weighted by `dinv n * dinv n`. The edge list enters through three functions:
  `sgn e`, the destination as a signed integer (an edge whose destination is no node number contributes nowhere),
  and `sR e`, `dR e`, the source's and destination's rows as they are looked up (wrapped and clamped into range).
  A dense layer is a matrix product followed by a bias and a rectifier.
-/
import Idealize.ShloMosaic.PureOps.Ideal
import Idealize.ShloMosaic.Lib.ValueIdx

noncomputable section

open scoped BigOperators

namespace Cert.Gcn

open Idealize.ShloMosaic Idealize.ShloMosaic.ValueIdx

/-- A float array of shape `s` at the exact instance: a function from the indices to the extended reals. -/
abbrev FArr (s : Shape) := FVec Ideal s .f32
/-- A 32-bit integer array of shape `s`. -/
abbrev IArr (s : Shape) := IVec s 32

/-- An extended real that is a real number (neither infinity). -/
def IsReal (x : EReal) : Prop := ∃ r : ℝ, x = (r : EReal)

/-- A rank-2 array as a function of its two coordinates. -/
def curry2 {α : Type} {n m : ℕ} (a : (⟨2, ![n, m]⟩ : Shape).Idx → α) : Fin n → Fin m → α := fun p q => a (ix2 p q)
/-- A rank-1 array as a function of its coordinate. -/
def curry1 {α : Type} {n : ℕ} (a : (⟨1, ![n]⟩ : Shape).Idx → α) : Fin n → α := fun p => a (ix1 p)
/-- The one row of a `[1, m]` array. -/
def row0 {α : Type} {m : ℕ} (a : (⟨2, ![1, m]⟩ : Shape).Idx → α) : Fin m → α := fun q => a (ix2 (0 : Fin 1) q)

/-- The matrix product: entry `(p, q)` is the sum over `j` of `A p j * W j q`. -/
def lin {n k m : ℕ} (A : Fin n → Fin k → EReal) (W : Fin k → Fin m → EReal) : Fin n → Fin m → EReal :=
  fun p q => ∑ j : Fin k, A p j * W j q

/-- Bias and rectifier: `max (A p q + b q) 0`. -/
def brelu {n d : ℕ} (A : Fin n → Fin d → EReal) (b : Fin d → EReal) : Fin n → Fin d → EReal :=
  fun p q => max (A p q + b q) 0

section Graph

variable {N E : ℕ} (sgn : Fin E → ℤ) (sR dR : Fin E → Fin N)

/-- `(deg n)^(-1/2)`, the degree counting the incoming edges and the self loop. -/
def dinv (n : Fin N) : EReal :=
  Ideal.rsqrt ((0 + ∑ _e ∈ Finset.univ.filter (fun e : Fin E => sgn e = (n.val : ℤ)), (1 : EReal)) + 1)

/-- An edge's weight. -/
def nrm (e : Fin E) : EReal := dinv sgn (sR e) * dinv sgn (dR e)

/-- Aggregation over the incoming edges and the self loop. -/
def agg {D : ℕ} (feat : Fin N → Fin D → EReal) : Fin N → Fin D → EReal :=
  fun n k => (0 + ∑ e ∈ Finset.univ.filter (fun e : Fin E => sgn e = (n.val : ℤ)), feat (sR e) k * nrm sgn sR dR e)
    + feat n k * (dinv sgn n * dinv sgn n)

end Graph

end Cert.Gcn

end
-- ==== Proof.HostTerms.lean ====
/-
  The host operations that both programs apply around their dense layers, as named terms: the two rows of the edge
  list, the wrap of a negative node number, `dinv`, the edges' weights, and the aggregation at feature widths 16
  and 32. Each is the composition of the printed operations, in the printed order, so that the contents a host stretch
  leaves in a buffer is one of these terms applied to the contents of the buffers the stretch read.
-/
import proofs.«125731_j33835752358234_2_alg».proof.Proof.Gen.KernelIdeal
import proofs.«125731_j33835752358234_2_alg».proof.Proof.Gen.ReferenceIdeal
import proofs.«125731_j33835752358234_2_alg».proof.Proof.Spec

noncomputable section

namespace Cert.Gcn

open Idealize.ShloMosaic

section W16

open Cert.KernelIdeal Cert.KernelIdeal.Facts₀

/-- Row 0 of the edge list: the sources. -/
def srcT (a1 : IArr S2x3200000) : IArr S3200000 :=
  shapeCast _ (extractStridedSlice S1x3200000 ![0, 0] a1 slices_S2x3200000_S1x3200000_0_0) shapeCasts_S1x3200000_S3200000

/-- Row 1 of the edge list: the destinations. -/
def dstT (a1 : IArr S2x3200000) : IArr S3200000 :=
  shapeCast _ (extractStridedSlice S1x3200000 ![1, 0] a1 slices_S2x3200000_S1x3200000_1_0) shapeCasts_S1x3200000_S3200000

/-- `(1 + number of incoming edges)^(-1/2)` per node. -/
def dinvT (dst : IArr S3200000) : FArr S100000 :=
  Host.rsqrt (F := Ideal) (addf (F := Ideal)
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 dst)
      (broadcastInDim S3200000 ![] bcast_S_S3200000 (constant (F := Ideal) S_ .f32 0x3F800000#32)))
    (broadcastInDim S100000 ![] bcast_S_S100000 (constant (F := Ideal) S_ .f32 0x3F800000#32)))

/-- A negative node number wrapped by the node count. -/
def normT (v : IArr S3200000) : IArr S3200000 :=
  select (cmpi .slt v (broadcastInDim S3200000 ![] bcast_S_S3200000 (constantI S_ 32 0#32)))
    (addi v (broadcastInDim S3200000 ![] bcast_S_S3200000 (constantI S_ 32 100000#32))) v

/-- The edges' weights `dinv[src] * dinv[dst]`. -/
def nrmT (src dst : IArr S3200000) (dinv : FArr S100000) : FArr S3200000 :=
  mulf (F := Ideal)
    (Host.gather gather_S100000_S3200000x1_S3200000_n_0_n_n_0_1_1 dinv
      (broadcastInDim S3200000x1 ![0] bcast_S3200000_S3200000x1_0 (normT src)))
    (Host.gather gather_S100000_S3200000x1_S3200000_n_0_n_n_0_1_1 dinv
      (broadcastInDim S3200000x1 ![0] bcast_S3200000_S3200000x1_0 (normT dst)))

/-- Aggregation of a `[100000, 16]` feature matrix. -/
def agg16T (feat : FArr S100000x16) (src dst : IArr S3200000) (dinv : FArr S100000) : FArr S100000x16 :=
  addf (F := Ideal)
    (Host.scatterAdd (F := Ideal) scatter_S100000x16_S3200000x1_S3200000x16_1_0_0_1
      (broadcastInDim S100000x16 ![] bcast_S_S100000x16 (constant (F := Ideal) S_ .f32 0x00000000#32))
      (broadcastInDim S3200000x1 ![0] bcast_S3200000_S3200000x1_0 dst)
      (mulf (F := Ideal)
        (Host.gather gather_S100000x16_S3200000x1_S3200000x16_1_0_n_n_0_1_116 feat
          (broadcastInDim S3200000x1 ![0] bcast_S3200000_S3200000x1_0 (normT src)))
        (broadcastInDim S3200000x16 ![0, 1] bcast_S3200000x1_S3200000x16_0_1
          (broadcastInDim S3200000x1 ![0] bcast_S3200000_S3200000x1_0 (nrmT src dst dinv)))))
    (mulf (F := Ideal) feat
      (broadcastInDim S100000x16 ![0, 1] bcast_S100000x1_S100000x16_0_1
        (broadcastInDim S100000x1 ![0] bcast_S100000_S100000x1_0 (mulf (F := Ideal) dinv dinv))))

end W16

section W32

open Cert.ReferenceIdeal Cert.ReferenceIdeal.Facts₀

/-- Aggregation of a `[100000, 32]` feature matrix. -/
def agg32T (feat : FArr S100000x32) (src dst : IArr S3200000) (dinv : FArr S100000) : FArr S100000x32 :=
  addf (F := Ideal)
    (Host.scatterAdd (F := Ideal) scatter_S100000x32_S3200000x1_S3200000x32_1_0_0_1
      (broadcastInDim S100000x32 ![] bcast_S_S100000x32 (constant (F := Ideal) S_ .f32 0x00000000#32))
      (broadcastInDim S3200000x1 ![0] bcast_S3200000_S3200000x1_0 dst)
      (mulf (F := Ideal)
        (Host.gather gather_S100000x32_S3200000x1_S3200000x32_1_0_n_n_0_1_132 feat
          (broadcastInDim S3200000x1 ![0] bcast_S3200000_S3200000x1_0 (normT src)))
        (broadcastInDim S3200000x32 ![0, 1] bcast_S3200000x1_S3200000x32_0_1
          (broadcastInDim S3200000x1 ![0] bcast_S3200000_S3200000x1_0 (nrmT src dst dinv)))))
    (mulf (F := Ideal) feat
      (broadcastInDim S100000x32 ![0, 1] bcast_S100000x1_S100000x32_0_1
        (broadcastInDim S100000x1 ![0] bcast_S100000_S100000x1_0 (mulf (F := Ideal) dinv dinv))))

/-- The first layer's matrix product on the host, `x @ W1`. -/
def h1RefT (a0 : FArr S100000x512) (a3 : FArr S512x16) : FArr S100000x16 :=
  Host.dotGeneral (F := Ideal) dot_S100000x512_S512x16_S100000x16_1_0_0_1_n_n none a0 a3

/-- The second layer's matrix product on the host, `p @ W2`. -/
def h2RefT (p : FArr S100000x16) (a5 : FArr S16x32) : FArr S100000x32 :=
  Host.dotGeneral (F := Ideal) dot_S100000x16_S16x32_S100000x32_1_0_0_1_n_n none p a5

/-- Bias and rectifier on the host at width 16: `max (a + b) 0`, the bias broadcast along the rows. -/
def brelu16RefT (a : FArr S100000x16) (b : FArr S16) : FArr S100000x16 :=
  maximumf (F := Ideal) (addf (F := Ideal) a
      (broadcastInDim S100000x16 ![0, 1] bcast_S1x16_S100000x16_0_1 (broadcastInDim S1x16 ![1] bcast_S16_S1x16_1 b)))
    (broadcastInDim S100000x16 ![] bcast_S_S100000x16 (constant (F := Ideal) S_ .f32 0x00000000#32))

/-- Bias and rectifier on the host at width 32. -/
def brelu32RefT (a : FArr S100000x32) (b : FArr S32) : FArr S100000x32 :=
  maximumf (F := Ideal) (addf (F := Ideal) a
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

/-- The reference's three dense layers on the 4096-row batch, each a matrix product, a bias broadcast along the rows
    and a rectifier. -/
def ddiRefT (a2 : FArr S4096x1056) (a7 : FArr S1056x64) (a8 : FArr S64) (a9 : FArr S64x16) (a10 : FArr S16)
    (a11 : FArr S16x1) (a12 : FArr S1) : FArr S4096x1 :=
  maximumf (F := Ideal) (addf (F := Ideal) (Host.dotGeneral (F := Ideal) dot_S4096x16_S16x1_S4096x1_1_0_0_1_n_n none (maximumf (F := Ideal) (addf (F := Ideal) (Host.dotGeneral (F := Ideal) dot_S4096x64_S64x16_S4096x16_1_0_0_1_n_n none (maximumf (F := Ideal) (addf (F := Ideal) (Host.dotGeneral (F := Ideal) dot_S4096x1056_S1056x64_S4096x64_1_0_0_1_n_n none a2 a7) (broadcastInDim S4096x64 ![0, 1] bcast_S1x64_S4096x64_0_1 (broadcastInDim S1x64 ![1] bcast_S64_S1x64_1 a8))) (broadcastInDim S4096x64 ![] bcast_S_S4096x64 (constant (F := Ideal) S_ .f32 0x00000000#32))) a9) (broadcastInDim S4096x16 ![0, 1] bcast_S1x16_S4096x16_0_1 (broadcastInDim S1x16 ![1] bcast_S16_S1x16_1 a10))) (broadcastInDim S4096x16 ![] bcast_S_S4096x16 (constant (F := Ideal) S_ .f32 0x00000000#32))) a11) (broadcastInDim S4096x1 ![0, 1] bcast_S1x1_S4096x1_0_1 (broadcastInDim S1x1 ![1] bcast_S1_S1x1_1 a12))) (broadcastInDim S4096x1 ![] bcast_S_S4096x1 (constant (F := Ideal) S_ .f32 0x00000000#32))

end W32

end Cert.Gcn

end
-- ==== Proof.KFold.lean ====
/-
  The kernel program's host stretches, read back: what each stretch of host operations leaves in the buffers the next
  kernel region reads, as the named host terms (the edge list's rows, the degree weights, the aggregation) applied to
  the contents of the buffers the stretch read; and which buffers a stretch or a region leaves alone.
-/
import proofs.«125731_j33835752358234_2_alg».proof.Proof.Gen.KernelIdeal.Frame
import proofs.«125731_j33835752358234_2_alg».proof.Proof.HostTerms

set_option maxRecDepth 16384

noncomputable section

namespace Cert.Gcn.KFold

open Cert.KernelIdeal Cert.KernelIdeal.Gen Cert.KernelIdeal.Facts₀ Cert.Gcn
open Idealize.ShloMosaic Idealize.ShloMosaic.TcCoe Idealize.SL.Sem

variable (m : (ℓ : Loc nD τ sig) → Buf (Elt Ideal) ℓ) (ρ : Dev nD → PrngReg)

/-- A buffer that no operation of a literal stretch writes holds after the stretch what it held before: the
    operations' result buffers are read off one by one and each differs from the buffer in question. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first stretch: the edge list's rows and the degree weights -/

theorem W1_src (c : Dev nD) :
    W1 m ρ c (Proc.devRef .tc main_v1) = srcT (m ((c : Thread nD τ).loc main_arg1)) := by
  show StableHlo.after hostOps0 (W0 m ρ c) (Proc.devRef .tc main_v1) = _
  after_results
  rfl

theorem W1_dst (c : Dev nD) :
    W1 m ρ c (Proc.devRef .tc main_v3) = dstT (m ((c : Thread nD τ).loc main_arg1)) := by
  show StableHlo.after hostOps0 (W0 m ρ c) (Proc.devRef .tc main_v3) = _
  after_results
  rfl

theorem W1_dinv (c : Dev nD) :
    W1 m ρ c (Proc.devRef .tc main_v10) = dinvT (dstT (m ((c : Thread nD τ).loc main_arg1))) := by
  show StableHlo.after hostOps0 (W0 m ρ c) (Proc.devRef .tc main_v10) = _
  after_results
  rfl

/-- The first stretch writes no argument buffer. -/
theorem W1_arg0 (c : Dev nD) : W1 m ρ c (Proc.devRef .tc main_arg0) = m ((c : Thread nD τ).loc main_arg0) := by
  show StableHlo.after hostOps0 (W0 m ρ c) (Proc.devRef .tc main_arg0) = _
  refine Eq.trans ?_ (rfl : W0 m ρ c (Proc.devRef .tc main_arg0) = _)
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = _
  refine Eq.trans ?_ (rfl : W0 m ρ c (Proc.devRef .tc main_arg3) = _)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = _
  refine Eq.trans ?_ (rfl : W0 m ρ c (Proc.devRef .tc main_arg4) = _)
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = _
  refine Eq.trans ?_ (rfl : W0 m ρ c (Proc.devRef .tc main_arg6) = _)
  host_keeps hostOps0

/-! ## Region 0's exit and the second stretch: the first aggregation and the first bias as a row -/

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_v10 (c : Dev nD) : W2 m ρ c (Proc.devRef .tc main_v10) = W1 m ρ c (Proc.devRef .tc main_v10) :=
  W2_of_ne m ρ c main_v10 (by decide)
theorem W2_arg4 (c : Dev nD) : W2 m ρ c (Proc.devRef .tc main_arg4) = W1 m ρ c (Proc.devRef .tc main_arg4) :=
  W2_of_ne m ρ c main_arg4 (by decide)
theorem W2_arg6 (c : Dev nD) : W2 m ρ c (Proc.devRef .tc main_arg6) = W1 m ρ c (Proc.devRef .tc main_arg6) :=
  W2_of_ne m ρ c main_arg6 (by decide)

theorem W3_agg (c : Dev nD) :
    W3 m ρ c (Proc.devRef .tc main_v44)
      = agg16T (W2 m ρ c (Proc.devRef .tc main_v11)) (W2 m ρ c (Proc.devRef .tc main_v1)) (W2 m ρ c (Proc.devRef .tc main_v3)) (W2 m ρ c (Proc.devRef .tc main_v10)) := by
  show StableHlo.after hostOps1 (W2 m ρ c) (Proc.devRef .tc main_v44) = _
  after_results_simp
  rfl

theorem W3_bias (c : Dev nD) :
    W3 m ρ c (Proc.devRef .tc main_v45) = shapeCast S1x16 (W2 m ρ c (Proc.devRef .tc main_arg4)) Facts₀.shapeCasts_S16_S1x16 := by
  show StableHlo.after hostOps1 (W2 m ρ c) (Proc.devRef .tc main_v45) = _
  after_results_simp
  rfl

theorem W3_v1 (c : Dev nD) : W3 m ρ c (Proc.devRef .tc main_v1) = W2 m ρ c (Proc.devRef .tc main_v1) := by
  show StableHlo.after hostOps1 (W2 m ρ c) (Proc.devRef .tc main_v1) = _
  host_keeps hostOps1
theorem W3_v3 (c : Dev nD) : W3 m ρ c (Proc.devRef .tc main_v3) = W2 m ρ c (Proc.devRef .tc main_v3) := by
  show StableHlo.after hostOps1 (W2 m ρ c) (Proc.devRef .tc main_v3) = _
  host_keeps hostOps1
theorem W3_v10 (c : Dev nD) : W3 m ρ c (Proc.devRef .tc main_v10) = W2 m ρ c (Proc.devRef .tc main_v10) := by
  show StableHlo.after hostOps1 (W2 m ρ c) (Proc.devRef .tc main_v10) = _
  host_keeps hostOps1
theorem W3_arg6 (c : Dev nD) : W3 m ρ c (Proc.devRef .tc main_arg6) = W2 m ρ c (Proc.devRef .tc main_arg6) := by
  show StableHlo.after hostOps1 (W2 m ρ c) (Proc.devRef .tc main_arg6) = _
  host_keeps hostOps1

/-! ## Region 1's exit and the third stretch: the second aggregation and the second bias as a row -/

theorem W4_v1 (c : Dev nD) : W4 m ρ c (Proc.devRef .tc main_v1) = W3 m ρ c (Proc.devRef .tc main_v1) :=
  W4_of_ne m ρ c main_v1 (by decide)
theorem W4_v3 (c : Dev nD) : W4 m ρ c (Proc.devRef .tc main_v3) = W3 m ρ c (Proc.devRef .tc main_v3) :=
  W4_of_ne m ρ c main_v3 (by decide)
theorem W4_v10 (c : Dev nD) : W4 m ρ c (Proc.devRef .tc main_v10) = W3 m ρ c (Proc.devRef .tc main_v10) :=
  W4_of_ne m ρ c main_v10 (by decide)
theorem W4_arg6 (c : Dev nD) : W4 m ρ c (Proc.devRef .tc main_arg6) = W3 m ρ c (Proc.devRef .tc main_arg6) :=
  W4_of_ne m ρ c main_arg6 (by decide)

theorem W5_agg (c : Dev nD) :
    W5 m ρ c (Proc.devRef .tc main_v79)
      = agg16T (W4 m ρ c (Proc.devRef .tc main_v46)) (W4 m ρ c (Proc.devRef .tc main_v1)) (W4 m ρ c (Proc.devRef .tc main_v3)) (W4 m ρ c (Proc.devRef .tc main_v10)) := by
  show StableHlo.after hostOps2 (W4 m ρ c) (Proc.devRef .tc main_v79) = _
  after_results_simp
  rfl

theorem W5_bias (c : Dev nD) :
    W5 m ρ c (Proc.devRef .tc main_v80) = shapeCast S1x32 (W4 m ρ c (Proc.devRef .tc main_arg6)) Facts₀.shapeCasts_S32_S1x32 := by
  show StableHlo.after hostOps2 (W4 m ρ c) (Proc.devRef .tc main_v80) = _
  after_results_simp
  rfl

/-! ## The last stretch: the three biases of the dense network as rows; and the first result, left alone after region 2 -/

theorem W7_b1 (c : Dev nD) :
    W7 m ρ c (Proc.devRef .tc main_v82) = shapeCast S1x64 (W6 m ρ c (Proc.devRef .tc main_arg8)) Facts₀.shapeCasts_S64_S1x64 := by
  show StableHlo.after hostOps3 (W6 m ρ c) (Proc.devRef .tc main_v82) = _
  after_results
  rfl
theorem W7_b2 (c : Dev nD) :
    W7 m ρ c (Proc.devRef .tc main_v83) = shapeCast S1x16 (W6 m ρ c (Proc.devRef .tc main_arg10)) Facts₀.shapeCasts_S16_S1x16 := by
  show StableHlo.after hostOps3 (W6 m ρ c) (Proc.devRef .tc main_v83) = _
  after_results
  rfl
theorem W7_b3 (c : Dev nD) :
    W7 m ρ c (Proc.devRef .tc main_v84) = shapeCast S1x1 (W6 m ρ c (Proc.devRef .tc main_arg12)) Facts₀.shapeCasts_S1_S1x1 := by
  show StableHlo.after hostOps3 (W6 m ρ c) (Proc.devRef .tc main_v84) = _
  after_results
  rfl

theorem W7_v81 (c : Dev nD) : W7 m ρ c (Proc.devRef .tc main_v81) = W6 m ρ c (Proc.devRef .tc main_v81) := by
  show StableHlo.after hostOps3 (W6 m ρ c) (Proc.devRef .tc main_v81) = _
  host_keeps hostOps3
theorem W8_v81 (c : Dev nD) : W8 m ρ c (Proc.devRef .tc main_v81) = W7 m ρ c (Proc.devRef .tc main_v81) :=
  W8_of_ne m ρ c main_v81 (by decide)

/-! ## The argument buffers at the boundaries where a region or a stretch reads them, walked back from the end -/

theorem W7_arg2 (c : Dev nD) : W7 m ρ c (Proc.devRef .tc main_arg2) = m ((c : Thread nD τ).loc main_arg2) :=
  ((W8_arr m ρ c 0).trans (((dat3 (V7 m ρ) c).arrAt_in 0 rfl _).trans (A_eq3 (V7 m ρ) c 0))).symm.trans (W8_main_arg2 m ρ c)
theorem W7_arg7 (c : Dev nD) : W7 m ρ c (Proc.devRef .tc main_arg7) = m ((c : Thread nD τ).loc main_arg7) :=
  ((W8_arr m ρ c 1).trans (((dat3 (V7 m ρ) c).arrAt_in 1 rfl _).trans (A_eq3 (V7 m ρ) c 1))).symm.trans (W8_main_arg7 m ρ c)
theorem W7_arg9 (c : Dev nD) : W7 m ρ c (Proc.devRef .tc main_arg9) = m ((c : Thread nD τ).loc main_arg9) :=
  ((W8_arr m ρ c 3).trans (((dat3 (V7 m ρ) c).arrAt_in 3 rfl _).trans (A_eq3 (V7 m ρ) c 3))).symm.trans (W8_main_arg9 m ρ c)
theorem W7_arg11 (c : Dev nD) : W7 m ρ c (Proc.devRef .tc main_arg11) = m ((c : Thread nD τ).loc main_arg11) :=
  ((W8_arr m ρ c 5).trans (((dat3 (V7 m ρ) c).arrAt_in 5 rfl _).trans (A_eq3 (V7 m ρ) c 5))).symm.trans (W8_main_arg11 m ρ c)
theorem W7_arg8 (c : Dev nD) : W7 m ρ c (Proc.devRef .tc main_arg8) = m ((c : Thread nD τ).loc main_arg8) :=
  (W8_of_ne m ρ c main_arg8 (by decide)).symm.trans (W8_main_arg8 m ρ c)
theorem W7_arg10 (c : Dev nD) : W7 m ρ c (Proc.devRef .tc main_arg10) = m ((c : Thread nD τ).loc main_arg10) :=
  (W8_of_ne m ρ c main_arg10 (by decide)).symm.trans (W8_main_arg10 m ρ c)
theorem W7_arg12 (c : Dev nD) : W7 m ρ c (Proc.devRef .tc main_arg12) = m ((c : Thread nD τ).loc main_arg12) :=
  (W8_of_ne m ρ c main_arg12 (by decide)).symm.trans (W8_main_arg12 m ρ c)
theorem W7_arg5 (c : Dev nD) : W7 m ρ c (Proc.devRef .tc main_arg5) = m ((c : Thread nD τ).loc main_arg5) :=
  (W8_of_ne m ρ c main_arg5 (by decide)).symm.trans (W8_main_arg5 m ρ c)

theorem W6_arg8 (c : Dev nD) : W6 m ρ c (Proc.devRef .tc main_arg8) = m ((c : Thread nD τ).loc main_arg8) := by
  refine Eq.trans (Eq.symm ?_) (W7_arg8 m ρ c)
  show StableHlo.after hostOps3 (W6 m ρ c) (Proc.devRef .tc main_arg8) = _
  host_keeps hostOps3
theorem W6_arg10 (c : Dev nD) : W6 m ρ c (Proc.devRef .tc main_arg10) = m ((c : Thread nD τ).loc main_arg10) := by
  refine Eq.trans (Eq.symm ?_) (W7_arg10 m ρ c)
  show StableHlo.after hostOps3 (W6 m ρ c) (Proc.devRef .tc main_arg10) = _
  host_keeps hostOps3
theorem W6_arg12 (c : Dev nD) : W6 m ρ c (Proc.devRef .tc main_arg12) = m ((c : Thread nD τ).loc main_arg12) := by
  refine Eq.trans (Eq.symm ?_) (W7_arg12 m ρ c)
  show StableHlo.after hostOps3 (W6 m ρ c) (Proc.devRef .tc main_arg12) = _
  host_keeps hostOps3
theorem W6_arg5 (c : Dev nD) : W6 m ρ c (Proc.devRef .tc main_arg5) = m ((c : Thread nD τ).loc main_arg5) := by
  refine Eq.trans (Eq.symm ?_) (W7_arg5 m ρ c)
  show StableHlo.after hostOps3 (W6 m ρ c) (Proc.devRef .tc main_arg5) = _
  host_keeps hostOps3

/-- Region 2 reads the second layer's weights through an input window and leaves them as it found them. -/
theorem W5_arg5 (c : Dev nD) : W5 m ρ c (Proc.devRef .tc main_arg5) = m ((c : Thread nD τ).loc main_arg5) :=
  ((W6_arr m ρ c 1).trans (((dat2 (V5 m ρ) c).arrAt_in 1 rfl _).trans (A_eq2 (V5 m ρ) c 1))).symm.trans (W6_arg5 m ρ c)

end Cert.Gcn.KFold

end
-- ==== Proof.K0Value.lean ====
/-
  The value of the matrix-product region as one function of its two input arrays.

  The region walks the 100000 rows of the left matrix in 10 blocks of 10000 rows. At every block it reads the block of
  the left matrix and the whole right matrix, multiplies them into a zero accumulator, and writes the block of the
  product back. So the output array, entry by entry, is `∑ j, x p j * w j q`.
-/
import proofs.«125731_j33835752358234_2_alg».proof.Proof.Gen.KernelIdeal.Frame
import proofs.«125731_j33835752358234_2_alg».proof.Proof.Spec
import Idealize.ShloMosaic.Lib.Pipeline.Value
import Idealize.ShloMosaic.Lib.ValueIdx
import Idealize.ShloMosaic.PureOps.Ideal.Laws

noncomputable section

open scoped BigOperators

namespace Cert.Gcn.K0

open Idealize.ShloMosaic Idealize.ShloMosaic.TcCoe Idealize.ShloMosaic.ValueIdx Idealize.SL.Sem Cert.KernelIdeal Cert.KernelIdeal.Gen Cert.Gcn
open Idealize.ShloMosaic.Pipeline (Dat)

/-- The matrix product of whole arrays: entry `(p, q)` is `∑ j, x p j * w j q`. -/
def G0 (x : FArr S100000x512) (w : FArr S512x16) : FArr S100000x16 := fun i => lin (curry2 x) (curry2 w) (i 0) (i 1)

theorem G0_apply (x : FArr S100000x512) (w : FArr S512x16) (p : Fin 100000) (q : Fin 16) :
    G0 x w (ix2 p q) = lin (curry2 x) (curry2 w) p q := rfl

/-- `G0` at any index. -/
theorem G0_at (x : FArr S100000x512) (w : FArr S512x16) (i : S100000x16.Idx) :
    G0 x w i = ∑ k : Fin 512, x (ix2 (i 0) k) * w (ix2 k (i 1)) := rfl

/-- The zero offsets of a rank-2 block. -/
theorem off_zero : (![0, 0] : Fin 2 → Nat) = fun _ => 0 := funext fun a => by fin_cases a <;> rfl

/-- The block product's dimension numbers: contract the left operand's columns with the right operand's rows. -/
abbrev dims : DotDims S10000x512 S512x16 S10000x16 := dot_S10000x512_S512x16_S10000x16_1_0_0_1_n_n

/-- The left operand is read at the output's row … -/
theorem lhs_row (i : S10000x16.Idx) (k : dims.contr.Idx) : (dims.lhsIdx i k 0).val = (i 0).val := by
  unfold DotDims.lhsIdx
  rw [dif_neg (show ¬(0 : Fin S10000x512.rank) ∈ dims.lhsBatch by decide),
    dif_pos (show (0 : Fin S10000x512.rank) ∈ dims.lhsNonContracting by decide)]
  rfl
/-- … and the contraction's position, -/
theorem lhs_col (i : S10000x16.Idx) (k : dims.contr.Idx) : (dims.lhsIdx i k 1).val = (k ⟨0, by decide⟩).val :=
  dims.lhsIdx_val_of_single rfl i k
/-- the right operand at the contraction's position … -/
theorem rhs_row (i : S10000x16.Idx) (k : dims.contr.Idx) : (dims.rhsIdx i k 0).val = (k ⟨0, by decide⟩).val :=
  dims.rhsIdx_val_of_single rfl i k
/-- … and the output's column. -/
theorem rhs_col (i : S10000x16.Idx) (k : dims.contr.Idx) : (dims.rhsIdx i k 1).val = (i 1).val := by
  unfold DotDims.rhsIdx
  rw [dif_neg (show ¬(1 : Fin S512x16.rank) ∈ dims.rhsBatch by decide),
    dif_pos (show (1 : Fin S512x16.rank) ∈ dims.rhsNonContracting by decide)]
  rfl

/-- What the body computes from a block of the left matrix and the right matrix, at an entry of the block: the sum
    over the 512 contraction positions. -/
theorem body_apply (x : FArr S10000x512) (w : FArr S512x16) (p : Fin 10000) (q : Fin 16) :
    k0_pay1 (F := Ideal) x w (ix2 p q) = ∑ k : Fin 512, x (ix2 p k) * w (ix2 k q) := by
  unfold k0_pay1
  refine (Ideal.matmul_constant_zero_apply dims none x w (ix2 p q)).trans ?_
  rw [← Equiv.sum_comp (contrEquiv1 dims 512 rfl rfl).symm]
  refine Finset.sum_congr rfl fun k _ => ?_
  have hk := contrEquiv1_symm_val dims 512 rfl rfl k
  have el : dims.lhsIdx (ix2 p q) ((contrEquiv1 dims 512 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 512 rfl rfl).symm k) = ix2 k q := funext fun a => Fin.ext (by
    match a with
    | ⟨0, _⟩ => exact (rhs_row _ _).trans hk
    | ⟨1, _⟩ => exact rhs_col _ _)
  rw [el, er]

/-- The block index of every window at every grid point: the left matrix and the output move with the point along
    the rows, the right matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of `G0` of the two input arrays. -/
theorem flushed_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  unfold out0_2
  rw [View.canon_unit_zero off_zero]
  simp only [View.ld_unit_zero (S := S10000x512) off_zero, View.ld_unit_zero (S := S512x16) off_zero]
  obtain ⟨e0, e1, e2, e3, e4, e5⟩ := idx_facts t
  funext j
  obtain ⟨p, q, rfl⟩ : ∃ (p : Fin 10000) (q : Fin 16), j = ix2 p q := ⟨j 0, j 1, eq_ix2 j⟩
  have hx : (win0 2).xinj (grid0.coords t) (ix2 p q) = (ix2 p q : S10000x16.Idx) := by
    funext a; apply Fin.ext
    match a with
    | ⟨0, _⟩ => rfl
    | ⟨1, _⟩ => rfl
  refine (congrArg (k0_pay1 (iblk0 V c 0 t) (iblk0 V c 1 t)) hx).trans ?_
  refine (body_apply _ _ p q).trans ?_
  rw [View.read_apply]
  refine Eq.trans ?_ (G0_at _ _ _).symm
  refine Finset.sum_congr rfl fun k _ => ?_
  have hA : iblk0 V c 0 t (ix2 p k)
      = V c (Pipeline.arrRef spec0 0) (ix2 ((((cfg0.win 2).blk t).view.emb (ix2 p q)) 0) k) := by
    unfold iblk0
    rw [View.read_apply]
    refine congrArg (V c (Pipeline.arrRef spec0 0)) ?_
    funext a; apply Fin.ext
    match a with
    | ⟨0, _⟩ => show win0_0.index t (0 : Fin 2) * 10000 + 1 * p.val = win0_2.index t (0 : Fin 2) * 10000 + 1 * p.val; rw [e0, e4]
    | ⟨1, _⟩ => show win0_0.index t (1 : Fin 2) * 512 + 1 * k.val = k.val; rw [e1]; omega
  have hW : iblk0 V c 1 t (ix2 k q)
      = V c (Pipeline.arrRef spec0 1) (ix2 k ((((cfg0.win 2).blk t).view.emb (ix2 p q)) 1)) := by
    unfold iblk0
    rw [View.read_apply]
    refine congrArg (V c (Pipeline.arrRef spec0 1)) ?_
    funext a; apply Fin.ext
    match a with
    | ⟨0, _⟩ => show win0_1.index t (0 : Fin 2) * 512 + 1 * k.val = k.val; rw [e2]; omega
    | ⟨1, _⟩ => show win0_1.index t (1 : Fin 2) * 16 + 1 * q.val = win0_2.index t (1 : Fin 2) * 16 + 1 * q.val; rw [e3, e5]
  rw [hA, hW]

/-- An index of the array lies in grid point `t`'s block exactly when each coordinate lies in the block's range. -/
theorem mem_blk (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v11).slice (win0_2.rect t)).set ↔ _
  rw [View.set_slice_whole, Rect.mem_set_unit]
  exact Iff.rfl

/-- The ten row blocks cover the array: row `r` lies in block `r / 10000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 16 ≤ (i 1).val ∧ (i 1).val < win0_2.index t (1 : Fin 2) * 16 + 16
    rw [e5]; omega

/-- The output array after the region is `G0` of the two input arrays as the region finds them. -/
theorem final0 (c : Dev nD) :
    (dat0 (F := Ideal) V c).arrAt 2 cfg0.N = G0 (V c (Pipeline.arrRef spec0 0)) (V c (Pipeline.arrRef spec0 1)) :=
  (dat0 V c).arrAt_eq_of_cover 2 (G0 (V c (Pipeline.arrRef spec0 0)) (V c (Pipeline.arrRef spec0 1)))
    (fun t _ => flushed_eq V c t) cover

end Cert.Gcn.K0

end
-- ==== Proof.K1Value.lean ====
/-
  The value of the bias-and-rectifier region as one function of its two input arrays.

  The region walks the 100000 rows in 10 blocks of 10000 rows. At every block it reads the block of the
  matrix and the whole one-row bias, adds the bias to every row and takes the maximum with zero, and writes
  the block back. So the output array, entry by entry, is `max (a p q + b q) 0`.
-/
import proofs.«125731_j33835752358234_2_alg».proof.Proof.Gen.KernelIdeal.Frame
import proofs.«125731_j33835752358234_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Gcn.K1

open Idealize.ShloMosaic Idealize.ShloMosaic.TcCoe Idealize.ShloMosaic.ValueIdx Idealize.SL.Sem Cert.KernelIdeal Cert.KernelIdeal.Gen Cert.Gcn
open Idealize.ShloMosaic.Pipeline (Dat)

/-- Bias and rectifier of a whole array: entry `(p, q)` is `max (a p q + b q) 0`. -/
def G1 (a : FArr S100000x16) (b : FArr S1x16) : FArr S100000x16 := fun i => brelu (curry2 a) (row0 b) (i 0) (i 1)

theorem G1_apply (a : FArr S100000x16) (b : FArr S1x16) (p : Fin 100000) (q : Fin 16) :
    G1 a b (ix2 p q) = brelu (curry2 a) (row0 b) p q := rfl

/-- `G1` at any index. -/
theorem G1_at (A : FArr S100000x16) (B : FArr S1x16) (i : S100000x16.Idx) :
    G1 A B i = max (A i + B (ix2 (0 : Fin 1) (i 1))) 0 :=
  congrArg (fun k => max (A k + B (ix2 (0 : Fin 1) (i 1))) 0) (eq_ix2 i).symm

/-- The zero offsets of a rank-2 block. -/
theorem off_zero : (![0, 0] : Fin 2 → Nat) = fun _ => 0 := funext fun a => by fin_cases a <;> rfl

/-- What the body computes from a block of the matrix and the bias row, at an entry of the block. -/
theorem body_apply (x : FArr S10000x16) (b : FArr S1x16) (p : Fin 10000) (q : Fin 16) :
    k1_pay1 (F := Ideal) x b (ix2 p q) = max (x (ix2 p q) + b (ix2 (0 : Fin 1) q)) 0 := by
  unfold k1_pay1
  rw [maximumf_apply, addf_apply, broadcast_apply, shapeCast_self, shapeCast_self, broadcastTo_1b_ab_apply]
  exact congrArg _ Ideal.ofBits_zero_f32

/-- The block index of every window at every grid point: the matrix and the output move with the point along the
    rows, the bias stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

set_option maxHeartbeats 400000 in
/-- What grid point `t` writes back is block `t` of `G1` of the two input arrays. -/
theorem flushed_eq (c : Dev nD) (t : Fin cfg1.N) :
    (dat1 (F := Ideal) V c).flushed 2 t
      = ((cfg1.win 2).blk t).view.read (Elt Ideal) (G1 (V c (Pipeline.arrRef spec1 0)) (V c (Pipeline.arrRef spec1 1))) := by
  show (cfg1.win 2).cut (grid1.coords t) ((dat1 V c).after 2 t) = _
  rw [after1_2]
  unfold out1_2
  rw [View.canon_unit_zero off_zero]
  simp only [View.ld_unit_zero (S := S10000x16) off_zero, View.ld_unit_zero (S := S1x16) off_zero]
  obtain ⟨e0, e1, e2, e3, e4, e5⟩ := idx_facts t
  funext j
  obtain ⟨p, q, rfl⟩ : ∃ (p : Fin 10000) (q : Fin 16), j = ix2 p q := ⟨j 0, j 1, eq_ix2 j⟩
  have hx : (win1 2).xinj (grid1.coords t) (ix2 p q) = (ix2 p q : S10000x16.Idx) := by
    funext a; apply Fin.ext
    match a with
    | ⟨0, _⟩ => rfl
    | ⟨1, _⟩ => rfl
  refine (congrArg (k1_pay1 (iblk1 V c 0 t) (iblk1 V c 1 t)) hx).trans ?_
  refine (body_apply _ _ p q).trans ?_
  rw [View.read_apply]
  refine Eq.trans ?_ (G1_at _ _ _).symm
  have hA : iblk1 V c 0 t (ix2 p q) = V c (Pipeline.arrRef spec1 0) (((cfg1.win 2).blk t).view.emb (ix2 p q)) := by
    unfold iblk1
    rw [View.read_apply]
    refine congrArg (V c (Pipeline.arrRef spec1 0)) ?_
    funext a; apply Fin.ext
    match a with
    | ⟨0, _⟩ => show win1_0.index t (0 : Fin 2) * 10000 + 1 * p.val = win1_2.index t (0 : Fin 2) * 10000 + 1 * p.val; rw [e0, e4]
    | ⟨1, _⟩ => show win1_0.index t (1 : Fin 2) * 16 + 1 * q.val = win1_2.index t (1 : Fin 2) * 16 + 1 * q.val; rw [e1, e5]
  have hB : iblk1 V c 1 t (ix2 (0 : Fin 1) q)
      = V c (Pipeline.arrRef spec1 1) (ix2 (0 : Fin 1) ((((cfg1.win 2).blk t).view.emb (ix2 p q)) 1)) := by
    unfold iblk1
    rw [View.read_apply]
    refine congrArg (V c (Pipeline.arrRef spec1 1)) ?_
    funext a; apply Fin.ext
    match a with
    | ⟨0, _⟩ => show win1_1.index t (0 : Fin 2) * 1 + 1 * (0 : Fin 1).val = (0 : Fin 1).val; rw [e2]; rfl
    | ⟨1, _⟩ => show win1_1.index t (1 : Fin 2) * 16 + 1 * q.val = win1_2.index t (1 : Fin 2) * 16 + 1 * q.val; rw [e3, e5]
  rw [hA, hB]

/-- An index of the array lies in grid point `t`'s block exactly when each coordinate lies in the block's range. -/
theorem mem_blk (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v46).slice (win1_2.rect t)).set ↔ _
  rw [View.set_slice_whole, Rect.mem_set_unit]
  exact Iff.rfl

/-- The ten row blocks cover the array: row `r` lies in block `r / 10000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 16 ≤ (i 1).val ∧ (i 1).val < win1_2.index t (1 : Fin 2) * 16 + 16
    rw [e5]; omega

/-- The output array after the region is `G1` of the two input arrays as the region finds them. -/
theorem final1 (c : Dev nD) :
    (dat1 (F := Ideal) V c).arrAt 2 cfg1.N = G1 (V c (Pipeline.arrRef spec1 0)) (V c (Pipeline.arrRef spec1 1)) :=
  (dat1 V c).arrAt_eq_of_cover 2 (G1 (V c (Pipeline.arrRef spec1 0)) (V c (Pipeline.arrRef spec1 1)))
    (fun t _ => flushed_eq V c t) cover

end Cert.Gcn.K1

end
-- ==== Proof.K2Value.lean ====
/-
  A dense layer (matrix product, row bias, rectifier) as one function of its three arrays. Every row block of the output is
  the matrix product of the same row block of the input with the whole weight matrix, plus the one bias row,
  rectified; the ten row blocks of ten thousand rows tile the hundred thousand rows of the array.
-/
import proofs.«125731_j33835752358234_2_alg».proof.Proof.Gen.KernelIdeal.Frame
import proofs.«125731_j33835752358234_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Gcn.K2

open Idealize.ShloMosaic Idealize.ShloMosaic.TcCoe Idealize.ShloMosaic.ValueIdx Idealize.SL.Sem Cert.KernelIdeal Cert.KernelIdeal.Gen Cert.Gcn
open Idealize.ShloMosaic.Pipeline (Dat)

/-- The dense layer on whole arrays: entry `(p, q)` is `max (∑ j, a p j * w j q + b 0 q) 0`. -/
def G2 (a : FArr S100000x16) (w : FArr S16x32) (b : FArr S1x32) : FArr S100000x32 :=
  fun i => brelu (lin (curry2 a) (curry2 w)) (row0 b) (i 0) (i 1)

theorem G2_apply (a : FArr S100000x16) (w : FArr S16x32) (b : FArr S1x32) (p : Fin 100000) (q : Fin 32) :
    G2 a w b (ix2 p q) = brelu (lin (curry2 a) (curry2 w)) (row0 b) p q := rfl

/-! ## One row block: the body's value at an index -/

/-- The left operand's index of the product at output `(p, q)` and contraction coordinate `k` has row `p`. -/
theorem lhs_row (i : S10000x32.Idx) (k : dot_S10000x16_S16x32_S10000x32_1_0_0_1_n_n.contr.Idx) :
    (dot_S10000x16_S16x32_S10000x32_1_0_0_1_n_n.lhsIdx i k 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl

/-- … and column the contraction coordinate. -/
theorem lhs_col (i : S10000x32.Idx) (k : dot_S10000x16_S16x32_S10000x32_1_0_0_1_n_n.contr.Idx) :
    (dot_S10000x16_S16x32_S10000x32_1_0_0_1_n_n.lhsIdx i k 1).val = (k ⟨0, by decide⟩).val :=
  dot_S10000x16_S16x32_S10000x32_1_0_0_1_n_n.lhsIdx_val_of_single rfl i k

/-- The right operand's index has row the contraction coordinate … -/
theorem rhs_row (i : S10000x32.Idx) (k : dot_S10000x16_S16x32_S10000x32_1_0_0_1_n_n.contr.Idx) :
    (dot_S10000x16_S16x32_S10000x32_1_0_0_1_n_n.rhsIdx i k 0).val = (k ⟨0, by decide⟩).val :=
  dot_S10000x16_S16x32_S10000x32_1_0_0_1_n_n.rhsIdx_val_of_single rfl i k

/-- … and column `q`. -/
theorem rhs_col (i : S10000x32.Idx) (k : dot_S10000x16_S16x32_S10000x32_1_0_0_1_n_n.contr.Idx) :
    (dot_S10000x16_S16x32_S10000x32_1_0_0_1_n_n.rhsIdx i k 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

set_option maxHeartbeats 400000 in
/-- The product into a zero accumulator, at an index: the sum over the sixteen contraction coordinates. -/
theorem dot_apply (x : FVec Ideal S10000x16 .f32) (w : FVec Ideal S16x32 .f32) (p : Fin 10000) (q : Fin 32) :
    matmul dot_S10000x16_S16x32_S10000x32_1_0_0_1_n_n none x w (constant (F := Ideal) S10000x32 .f32 0x00000000#32) (ix2 p q)
      = ∑ k : Fin 16, x (ix2 p k) * w (ix2 k q) := by
  refine (Ideal.matmul_constant_zero_apply dot_S10000x16_S16x32_S10000x32_1_0_0_1_n_n none x w (ix2 p q)).trans ?_
  rw [← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p q) ((contrEquiv1 dot_S10000x16_S16x32_S10000x32_1_0_0_1_n_n 16 rfl rfl).symm k) = ix2 p k := funext fun a => Fin.ext (by
    match a with
    | ⟨0, _⟩ => exact lhs_row _ _
    | ⟨1, _⟩ => exact (lhs_col _ _).trans hk)
  have er : dot_S10000x16_S16x32_S10000x32_1_0_0_1_n_n.rhsIdx (ix2 p q) ((contrEquiv1 dot_S10000x16_S16x32_S10000x32_1_0_0_1_n_n 16 rfl rfl).symm k) = ix2 k q := funext fun a => Fin.ext (by
    match a with
    | ⟨0, _⟩ => exact (rhs_row _ _).trans hk
    | ⟨1, _⟩ => exact rhs_col _ _)
  rw [el, er]

set_option maxHeartbeats 400000 in
/-- The body's value at an index of its row block: the product's sum, plus the bias row's entry, rectified. -/
theorem pay_apply (x : FVec Ideal S10000x16 .f32) (w : FVec Ideal S16x32 .f32) (b : FVec Ideal S1x32 .f32) (p : Fin 10000) (q : Fin 32) :
    k2_pay1 (F := Ideal) x w b (ix2 p q) = max ((∑ k : Fin 16, x (ix2 p k) * w (ix2 k q)) + b (ix2 (0 : Fin 1) q)) 0 := by
  unfold k2_pay1
  rw [maximumf_apply, addf_apply, broadcast_apply, shapeCast_self, shapeCast_self, dot_apply, broadcastTo_1b_ab_apply]
  show max _ (Ideal.ofBits .f32 0x00000000#32) = _
  rw [Ideal.ofBits_zero_f32]

/-- A row block's value against the whole arrays: when the block of the input holds rows `r * 10000 …` of `A`, the
    body's value at `(p, q)` is the dense layer of the whole arrays at row `r * 10000 + p`. -/
theorem blk_apply (A : FArr S100000x16) (W : FArr S16x32) (B : FArr S1x32) (x : FVec Ideal S10000x16 .f32) (r : ℕ)
    (hx : ∀ (p : Fin 10000) (k : Fin 16) (h : r * 10000 + p.val < 100000), x (ix2 p k) = A (ix2 ⟨r * 10000 + p.val, h⟩ k))
    (p : Fin 10000) (q : Fin 32) (h : r * 10000 + p.val < 100000) :
    k2_pay1 (F := Ideal) x W B (ix2 p q) = G2 A W B (ix2 ⟨r * 10000 + p.val, h⟩ q) := by
  rw [pay_apply, G2_apply]
  show _ = max ((∑ k : Fin 16, A (ix2 ⟨r * 10000 + p.val, h⟩ k) * W (ix2 k q)) + B (ix2 (0 : Fin 1) q)) 0
  refine congrArg (fun s => max (s + B (ix2 (0 : Fin 1) q)) 0) (Finset.sum_congr rfl fun k _ => ?_)
  rw [hx p k h]

/-! ## From the row blocks to the array -/

theorem zero_off : (![0, 0] : Fin 2 → Nat) = fun _ => 0 := funext fun a => by fin_cases a <;> rfl

/-- The block index maps over the ten grid points: the input's and the output's row blocks are at block `(t, 0)`, the
    weights and the bias row at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks
variable (V : (c : Dev nD) → (b : Ref sig .tc) → Buf (Elt Ideal) ((c : Thread nD τ).loc b)) (c : Dev nD)

set_option maxHeartbeats 400000 in
/-- The input's block at point `t` is rows `t * 10000 …` of the input array. -/
theorem iblk0_apply (t : Fin cfg2.N) (p : Fin 10000) (k : Fin 16) (h : t.val * 10000 + p.val < 100000) :
    (iblk2 (F := Ideal) V c 0 t : FVec Ideal S10000x16 .f32) (ix2 p k)
      = (V c (Pipeline.arrRef spec2 0) : FArr S100000x16) (ix2 ⟨t.val * 10000 + p.val, h⟩ k) := by
  obtain ⟨e0, e1, -⟩ := idx_facts t
  show (V c (Pipeline.arrRef spec2 0) : FArr S100000x16) (((cfg2.win 0).blk t).view.emb (ix2 p k)) = _
  refine congrArg (V c (Pipeline.arrRef spec2 0) : FArr S100000x16) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 16 + 1 * k.val = k.val; rw [e1]; omega

set_option maxHeartbeats 400000 in
/-- The weights' block at every point is the whole weight matrix. -/
theorem iblk1_eq (t : Fin cfg2.N) :
    (iblk2 (F := Ideal) V c 1 t : FVec Ideal S16x32 .f32) = (V c (Pipeline.arrRef spec2 1) : FArr S16x32) := by
  obtain ⟨-, -, e0, e1, -⟩ := idx_facts t
  funext y
  show (V c (Pipeline.arrRef spec2 1) : FArr S16x32) (((cfg2.win 1).blk t).view.emb y) = _
  refine congrArg (V c (Pipeline.arrRef spec2 1) : FArr S16x32) (funext fun a => Fin.ext ?_)
  match a with
  | ⟨0, _⟩ => show win2_1.index t (0 : Fin 2) * 16 + 1 * (y 0).val = (y 0).val; rw [e0]; omega
  | ⟨1, _⟩ => show win2_1.index t (1 : Fin 2) * 32 + 1 * (y 1).val = (y 1).val; rw [e1]; omega

set_option maxHeartbeats 400000 in
/-- The bias row's block at every point is the whole bias row. -/
theorem iblk2_eq (t : Fin cfg2.N) :
    (iblk2 (F := Ideal) V c 2 t : FVec Ideal S1x32 .f32) = (V c (Pipeline.arrRef spec2 2) : FArr S1x32) := by
  obtain ⟨-, -, -, -, e0, e1, -⟩ := idx_facts t
  funext y
  show (V c (Pipeline.arrRef spec2 2) : FArr S1x32) (((cfg2.win 2).blk t).view.emb y) = _
  refine congrArg (V c (Pipeline.arrRef spec2 2) : FArr S1x32) (funext fun a => Fin.ext ?_)
  match a with
  | ⟨0, _⟩ => show win2_2.index t (0 : Fin 2) * 1 + 1 * (y 0).val = (y 0).val; rw [e0]; omega
  | ⟨1, _⟩ => show win2_2.index t (1 : Fin 2) * 32 + 1 * (y 1).val = (y 1).val; rw [e1]; omega

set_option maxHeartbeats 400000 in
/-- What point `t` writes back is block `t` of the dense layer of the whole arrays. -/
theorem flushed_eq (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off]
  simp only [View.ld_unit_zero (S := S10000x16) zero_off, View.ld_unit_zero (S := S16x32) zero_off, View.ld_unit_zero (S := S1x32) zero_off]
  rw [iblk1_eq V c t, iblk2_eq V c t]
  obtain ⟨-, -, -, -, -, -, e0, e1⟩ := idx_facts t
  have hN : cfg2.N = 10 := N_2
  have ht : t.val < 10 := by have := t.isLt; omega
  funext j
  have hj0 : (j 0).val < 10000 := (j 0).isLt
  have hj1 : (j 1).val < 32 := (j 1).isLt
  have hr : t.val * 10000 + (j 0).val < 100000 := by omega
  have ein : (cfg2.win 3).xinj (grid2.coords t) j = ix2 (⟨(j 0).val, hj0⟩ : Fin 10000) (⟨(j 1).val, hj1⟩ : Fin 32) :=
    funext fun a => by match a with | ⟨0, _⟩ => rfl | ⟨1, _⟩ => rfl
  have eout : ((cfg2.win 3).blk t).view.emb j = ix2 (⟨t.val * 10000 + (j 0).val, hr⟩ : Fin 100000) (⟨(j 1).val, hj1⟩ : Fin 32) :=
    funext fun a => Fin.ext (by
      match a with
      | ⟨0, _⟩ => show win2_3.index t (0 : Fin 2) * 10000 + 1 * (j 0).val = t.val * 10000 + (j 0).val; rw [e0]; omega
      | ⟨1, _⟩ => show win2_3.index t (1 : Fin 2) * 32 + 1 * (j 1).val = (j 1).val; rw [e1]; omega)
  show k2_pay1 (F := Ideal) _ _ _ ((cfg2.win 3).xinj (grid2.coords t) j) = (G2 _ _ _ : FArr S100000x32) (((cfg2.win 3).blk t).view.emb j)
  rw [ein, eout]
  exact blk_apply _ _ _ (iblk2 V c 0 t) t.val (fun p k h => iblk0_apply V c t p k h) ⟨(j 0).val, hj0⟩ ⟨(j 1).val, hj1⟩ hr

end Blocks

/-- An index of the output array is in point `t`'s block iff each coordinate is in the block's range on its axis. -/
theorem mem_blk (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v81).slice (win2_3.rect t)).set ↔ _
  rw [View.set_slice_whole, Rect.mem_set_unit]
  exact Iff.rfl

set_option maxHeartbeats 400000 in
/-- Every index of the output array is in some point's block: row `r` lies in block `r / 10000`. -/
theorem cover (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have hN : grid2.N = 10 := N_2
  have hlt : (i 0).val / 10000 < grid2.N := by omega
  obtain ⟨-, -, -, -, -, -, e0, e1⟩ := idx_facts (⟨(i 0).val / 10000, hlt⟩ : Fin cfg2.N)
  refine ⟨⟨(i 0).val / 10000, hlt⟩, flush2_3 _, ?_⟩
  rw [mem_blk]
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_3.index ⟨(i 0).val / 10000, hlt⟩ (1 : Fin 2) * 32 ≤ (i 1).val ∧ (i 1).val < win2_3.index ⟨(i 0).val / 10000, hlt⟩ (1 : Fin 2) * 32 + 32
    rw [e1]; omega

set_option maxHeartbeats 400000 in
/-- The output array after the region, for any contents at entry: the dense layer of the three input arrays. -/
theorem final2 (V : (c : Dev nD) → (b : Ref sig .tc) → Buf (Elt Ideal) ((c : Thread nD τ).loc b)) (c : Dev nD) :
    (dat2 (F := Ideal) V c).arrAt 3 cfg2.N
      = G2 (V c (Pipeline.arrRef spec2 0)) (V c (Pipeline.arrRef spec2 1)) (V c (Pipeline.arrRef spec2 2)) :=
  (dat2 V c).arrAt_eq_of_cover 3 _ (fun t _ => flushed_eq V c t) cover

end Cert.Gcn.K2

end
-- ==== Proof.K3Value.lean ====
/-
  The third region's value as one whole-array function. Its body applies three dense layers (a contraction over one axis into
  a zero accumulator, a one-row bias spread over the rows, a rectifier) to a block of 1024 rows of the batch; the four
  blocks tile the 4096 rows, the weights and biases are read whole at every block, and a layer acts on each row by itself,
  so the array the region leaves is the three layers of the whole batch.
-/
import proofs.«125731_j33835752358234_2_alg».proof.Proof.Gen.KernelIdeal.Frame
import proofs.«125731_j33835752358234_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.K3

open Idealize.ShloMosaic Idealize.ShloMosaic.ValueIdx Idealize.SL.Sem Cert.KernelIdeal Cert.KernelIdeal.Gen Cert.Gcn
open Idealize.ShloMosaic.Pipeline (Dat)
open Idealize.ShloMosaic.TcCoe

/-- The three dense layers on the whole batch. -/
def G3 (x : FArr S4096x1056) (w1 : FArr S1056x64) (b1 : FArr S1x64) (w2 : FArr S64x16) (b2 : FArr S1x16) (w3 : FArr S16x1) (b3 : FArr S1x1) : FArr S4096x1 :=
  fun i => brelu (lin (brelu (lin (brelu (lin (curry2 x) (curry2 w1)) (row0 b1)) (curry2 w2)) (row0 b2)) (curry2 w3)) (row0 b3) (i 0) (i 1)

theorem G3_apply (x : FArr S4096x1056) (w1 : FArr S1056x64) (b1 : FArr S1x64) (w2 : FArr S64x16) (b2 : FArr S1x16) (w3 : FArr S16x1) (b3 : FArr S1x1) (p : Fin 4096) (q : Fin 1) :
    G3 x w1 b1 w2 b2 w3 b3 (ix2 p q) = brelu (lin (brelu (lin (brelu (lin (curry2 x) (curry2 w1)) (row0 b1)) (curry2 w2)) (row0 b2)) (curry2 w3)) (row0 b3) p q := rfl

/-! ## The body's three contractions at an index -/

private theorem k1_l0 (i : S1024x64.Idx) (q : dot_S1024x1056_S1056x64_S1024x64_1_0_0_1_n_n.contr.Idx) :
    (dot_S1024x1056_S1056x64_S1024x64_1_0_0_1_n_n.lhsIdx i q 0).val = (i 0).val := by
  unfold DotDims.lhsIdx
  rw [dif_neg (show ¬(0 : Fin S1024x1056.rank) ∈ dot_S1024x1056_S1056x64_S1024x64_1_0_0_1_n_n.lhsBatch by decide), dif_pos (show (0 : Fin S1024x1056.rank) ∈ dot_S1024x1056_S1056x64_S1024x64_1_0_0_1_n_n.lhsNonContracting by decide)]
  rfl
private theorem k1_l1 (i : S1024x64.Idx) (q : dot_S1024x1056_S1056x64_S1024x64_1_0_0_1_n_n.contr.Idx) :
    (dot_S1024x1056_S1056x64_S1024x64_1_0_0_1_n_n.lhsIdx i q 1).val = (q ⟨0, by decide⟩).val :=
  dot_S1024x1056_S1056x64_S1024x64_1_0_0_1_n_n.lhsIdx_val_of_single rfl i q
private theorem k1_r0 (i : S1024x64.Idx) (q : dot_S1024x1056_S1056x64_S1024x64_1_0_0_1_n_n.contr.Idx) :
    (dot_S1024x1056_S1056x64_S1024x64_1_0_0_1_n_n.rhsIdx i q 0).val = (q ⟨0, by decide⟩).val :=
  dot_S1024x1056_S1056x64_S1024x64_1_0_0_1_n_n.rhsIdx_val_of_single rfl i q
private theorem k1_r1 (i : S1024x64.Idx) (q : dot_S1024x1056_S1056x64_S1024x64_1_0_0_1_n_n.contr.Idx) :
    (dot_S1024x1056_S1056x64_S1024x64_1_0_0_1_n_n.rhsIdx i q 1).val = (i 1).val := by
  unfold DotDims.rhsIdx
  rw [dif_neg (show ¬(1 : Fin S1056x64.rank) ∈ dot_S1024x1056_S1056x64_S1024x64_1_0_0_1_n_n.rhsBatch by decide), dif_pos (show (1 : Fin S1056x64.rank) ∈ dot_S1024x1056_S1056x64_S1024x64_1_0_0_1_n_n.rhsNonContracting by decide)]
  rfl

/-- The contraction of a `[1024, 1056]` by a `[1056, 64]` array over its one contracted axis, read at `(p, c)`: the sum over
    `j` of the left operand at `(p, j)` times the right at `(j, c)`. -/
theorem k1_sum (A : FArr S1024x1056) (B : FArr S1056x64) (p : Fin 1024) (c : Fin 64) :
    (∑ q : dot_S1024x1056_S1056x64_S1024x64_1_0_0_1_n_n.contr.Idx, A (dot_S1024x1056_S1056x64_S1024x64_1_0_0_1_n_n.lhsIdx (ix2 p c) q) * B (dot_S1024x1056_S1056x64_S1024x64_1_0_0_1_n_n.rhsIdx (ix2 p c) q))
      = lin (curry2 A) (curry2 B) p c := by
  show _ = ∑ j : Fin 1056, A (ix2 p j) * B (ix2 j c)
  rw [← Equiv.sum_comp (contrEquiv1 dot_S1024x1056_S1056x64_S1024x64_1_0_0_1_n_n 1056 rfl rfl).symm]
  refine Finset.sum_congr rfl fun j _ => ?_
  have hj := contrEquiv1_symm_val dot_S1024x1056_S1056x64_S1024x64_1_0_0_1_n_n 1056 rfl rfl j
  have el : dot_S1024x1056_S1056x64_S1024x64_1_0_0_1_n_n.lhsIdx (ix2 p c) ((contrEquiv1 dot_S1024x1056_S1056x64_S1024x64_1_0_0_1_n_n 1056 rfl rfl).symm j) = ix2 p j := funext fun a => Fin.ext (by
    match a with
    | ⟨0, _⟩ => exact k1_l0 _ _
    | ⟨1, _⟩ => exact (k1_l1 _ _).trans hj)
  have er : dot_S1024x1056_S1056x64_S1024x64_1_0_0_1_n_n.rhsIdx (ix2 p c) ((contrEquiv1 dot_S1024x1056_S1056x64_S1024x64_1_0_0_1_n_n 1056 rfl rfl).symm j) = ix2 j c := funext fun a => Fin.ext (by
    match a with
    | ⟨0, _⟩ => exact (k1_r0 _ _).trans hj
    | ⟨1, _⟩ => exact k1_r1 _ _)
  rw [el, er]

private theorem k2_l0 (i : S1024x16.Idx) (q : dot_S1024x64_S64x16_S1024x16_1_0_0_1_n_n.contr.Idx) :
    (dot_S1024x64_S64x16_S1024x16_1_0_0_1_n_n.lhsIdx i q 0).val = (i 0).val := by
  unfold DotDims.lhsIdx
  rw [dif_neg (show ¬(0 : Fin S1024x64.rank) ∈ dot_S1024x64_S64x16_S1024x16_1_0_0_1_n_n.lhsBatch by decide), dif_pos (show (0 : Fin S1024x64.rank) ∈ dot_S1024x64_S64x16_S1024x16_1_0_0_1_n_n.lhsNonContracting by decide)]
  rfl
private theorem k2_l1 (i : S1024x16.Idx) (q : dot_S1024x64_S64x16_S1024x16_1_0_0_1_n_n.contr.Idx) :
    (dot_S1024x64_S64x16_S1024x16_1_0_0_1_n_n.lhsIdx i q 1).val = (q ⟨0, by decide⟩).val :=
  dot_S1024x64_S64x16_S1024x16_1_0_0_1_n_n.lhsIdx_val_of_single rfl i q
private theorem k2_r0 (i : S1024x16.Idx) (q : dot_S1024x64_S64x16_S1024x16_1_0_0_1_n_n.contr.Idx) :
    (dot_S1024x64_S64x16_S1024x16_1_0_0_1_n_n.rhsIdx i q 0).val = (q ⟨0, by decide⟩).val :=
  dot_S1024x64_S64x16_S1024x16_1_0_0_1_n_n.rhsIdx_val_of_single rfl i q
private theorem k2_r1 (i : S1024x16.Idx) (q : dot_S1024x64_S64x16_S1024x16_1_0_0_1_n_n.contr.Idx) :
    (dot_S1024x64_S64x16_S1024x16_1_0_0_1_n_n.rhsIdx i q 1).val = (i 1).val := by
  unfold DotDims.rhsIdx
  rw [dif_neg (show ¬(1 : Fin S64x16.rank) ∈ dot_S1024x64_S64x16_S1024x16_1_0_0_1_n_n.rhsBatch by decide), dif_pos (show (1 : Fin S64x16.rank) ∈ dot_S1024x64_S64x16_S1024x16_1_0_0_1_n_n.rhsNonContracting by decide)]
  rfl

/-- The contraction of a `[1024, 64]` by a `[64, 16]` array over its one contracted axis, read at `(p, c)`: the sum over
    `j` of the left operand at `(p, j)` times the right at `(j, c)`. -/
theorem k2_sum (A : FArr S1024x64) (B : FArr S64x16) (p : Fin 1024) (c : Fin 16) :
    (∑ q : dot_S1024x64_S64x16_S1024x16_1_0_0_1_n_n.contr.Idx, A (dot_S1024x64_S64x16_S1024x16_1_0_0_1_n_n.lhsIdx (ix2 p c) q) * B (dot_S1024x64_S64x16_S1024x16_1_0_0_1_n_n.rhsIdx (ix2 p c) q))
      = lin (curry2 A) (curry2 B) p c := by
  show _ = ∑ j : Fin 64, A (ix2 p j) * B (ix2 j c)
  rw [← Equiv.sum_comp (contrEquiv1 dot_S1024x64_S64x16_S1024x16_1_0_0_1_n_n 64 rfl rfl).symm]
  refine Finset.sum_congr rfl fun j _ => ?_
  have hj := contrEquiv1_symm_val dot_S1024x64_S64x16_S1024x16_1_0_0_1_n_n 64 rfl rfl j
  have el : dot_S1024x64_S64x16_S1024x16_1_0_0_1_n_n.lhsIdx (ix2 p c) ((contrEquiv1 dot_S1024x64_S64x16_S1024x16_1_0_0_1_n_n 64 rfl rfl).symm j) = ix2 p j := funext fun a => Fin.ext (by
    match a with
    | ⟨0, _⟩ => exact k2_l0 _ _
    | ⟨1, _⟩ => exact (k2_l1 _ _).trans hj)
  have er : dot_S1024x64_S64x16_S1024x16_1_0_0_1_n_n.rhsIdx (ix2 p c) ((contrEquiv1 dot_S1024x64_S64x16_S1024x16_1_0_0_1_n_n 64 rfl rfl).symm j) = ix2 j c := funext fun a => Fin.ext (by
    match a with
    | ⟨0, _⟩ => exact (k2_r0 _ _).trans hj
    | ⟨1, _⟩ => exact k2_r1 _ _)
  rw [el, er]

private theorem k3_l0 (i : S1024x1.Idx) (q : dot_S1024x16_S16x1_S1024x1_1_0_0_1_n_n.contr.Idx) :
    (dot_S1024x16_S16x1_S1024x1_1_0_0_1_n_n.lhsIdx i q 0).val = (i 0).val := by
  unfold DotDims.lhsIdx
  rw [dif_neg (show ¬(0 : Fin S1024x16.rank) ∈ dot_S1024x16_S16x1_S1024x1_1_0_0_1_n_n.lhsBatch by decide), dif_pos (show (0 : Fin S1024x16.rank) ∈ dot_S1024x16_S16x1_S1024x1_1_0_0_1_n_n.lhsNonContracting by decide)]
  rfl
private theorem k3_l1 (i : S1024x1.Idx) (q : dot_S1024x16_S16x1_S1024x1_1_0_0_1_n_n.contr.Idx) :
    (dot_S1024x16_S16x1_S1024x1_1_0_0_1_n_n.lhsIdx i q 1).val = (q ⟨0, by decide⟩).val :=
  dot_S1024x16_S16x1_S1024x1_1_0_0_1_n_n.lhsIdx_val_of_single rfl i q
private theorem k3_r0 (i : S1024x1.Idx) (q : dot_S1024x16_S16x1_S1024x1_1_0_0_1_n_n.contr.Idx) :
    (dot_S1024x16_S16x1_S1024x1_1_0_0_1_n_n.rhsIdx i q 0).val = (q ⟨0, by decide⟩).val :=
  dot_S1024x16_S16x1_S1024x1_1_0_0_1_n_n.rhsIdx_val_of_single rfl i q
private theorem k3_r1 (i : S1024x1.Idx) (q : dot_S1024x16_S16x1_S1024x1_1_0_0_1_n_n.contr.Idx) :
    (dot_S1024x16_S16x1_S1024x1_1_0_0_1_n_n.rhsIdx i q 1).val = (i 1).val := by
  unfold DotDims.rhsIdx
  rw [dif_neg (show ¬(1 : Fin S16x1.rank) ∈ dot_S1024x16_S16x1_S1024x1_1_0_0_1_n_n.rhsBatch by decide), dif_pos (show (1 : Fin S16x1.rank) ∈ dot_S1024x16_S16x1_S1024x1_1_0_0_1_n_n.rhsNonContracting by decide)]
  rfl

/-- The contraction of a `[1024, 16]` by a `[16, 1]` array over its one contracted axis, read at `(p, c)`: the sum over
    `j` of the left operand at `(p, j)` times the right at `(j, c)`. -/
theorem k3_sum (A : FArr S1024x16) (B : FArr S16x1) (p : Fin 1024) (c : Fin 1) :
    (∑ q : dot_S1024x16_S16x1_S1024x1_1_0_0_1_n_n.contr.Idx, A (dot_S1024x16_S16x1_S1024x1_1_0_0_1_n_n.lhsIdx (ix2 p c) q) * B (dot_S1024x16_S16x1_S1024x1_1_0_0_1_n_n.rhsIdx (ix2 p c) q))
      = lin (curry2 A) (curry2 B) p c := by
  show _ = ∑ j : Fin 16, A (ix2 p j) * B (ix2 j c)
  rw [← Equiv.sum_comp (contrEquiv1 dot_S1024x16_S16x1_S1024x1_1_0_0_1_n_n 16 rfl rfl).symm]
  refine Finset.sum_congr rfl fun j _ => ?_
  have hj := contrEquiv1_symm_val dot_S1024x16_S16x1_S1024x1_1_0_0_1_n_n 16 rfl rfl j
  have el : dot_S1024x16_S16x1_S1024x1_1_0_0_1_n_n.lhsIdx (ix2 p c) ((contrEquiv1 dot_S1024x16_S16x1_S1024x1_1_0_0_1_n_n 16 rfl rfl).symm j) = ix2 p j := funext fun a => Fin.ext (by
    match a with
    | ⟨0, _⟩ => exact k3_l0 _ _
    | ⟨1, _⟩ => exact (k3_l1 _ _).trans hj)
  have er : dot_S1024x16_S16x1_S1024x1_1_0_0_1_n_n.rhsIdx (ix2 p c) ((contrEquiv1 dot_S1024x16_S16x1_S1024x1_1_0_0_1_n_n 16 rfl rfl).symm j) = ix2 j c := funext fun a => Fin.ext (by
    match a with
    | ⟨0, _⟩ => exact (k3_r0 _ _).trans hj
    | ⟨1, _⟩ => exact k3_r1 _ _)
  rw [el, er]

/-! ## The body's three layers -/

/-- One dense layer of the kernel body on a 1024-row block: the contraction into a zero accumulator, the one-row bias spread over
    the rows, the rectifier. -/
def kl1 (x : FArr S1024x1056) (w : FArr S1056x64) (b : FArr S1x64) : FArr S1024x64 :=
  maximumf (F := Ideal) (addf (F := Ideal) (matmul (F := Ideal) dot_S1024x1056_S1056x64_S1024x64_1_0_0_1_n_n none x w (constant (F := Ideal) S1024x64 .f32 0x00000000#32)) (broadcastTo S1024x64 (shapeCast S1x64 b shapeCasts_S1x64_S1x64) broadcasts_S1x64_S1024x64)) (broadcast S1024x64 (Scalar.ofBits (F := Ideal) .f32 0x00000000#32))

/-- Read at `(p, c)`: `max (∑ j, x (p, j) * w (j, c) + b (0, c)) 0`. -/
theorem kl1_apply (x : FArr S1024x1056) (w : FArr S1056x64) (b : FArr S1x64) (p : Fin 1024) (c : Fin 64) :
    kl1 x w b (ix2 p c) = brelu (lin (curry2 x) (curry2 w)) (row0 b) p c := by
  unfold kl1
  rw [maximumf_apply, addf_apply, broadcast_apply, shapeCast_self, broadcastTo_1b_ab_apply]
  have ed : matmul (F := Ideal) dot_S1024x1056_S1056x64_S1024x64_1_0_0_1_n_n none x w (constant (F := Ideal) S1024x64 .f32 0x00000000#32) (ix2 p c) = lin (curry2 x) (curry2 w) p c :=
    (Ideal.matmul_constant_zero_apply dot_S1024x1056_S1056x64_S1024x64_1_0_0_1_n_n none x w (ix2 p c)).trans (k1_sum x w p c)
  rw [ed]
  show max (_ + b (ix2 (0 : Fin 1) c)) (Ideal.ofBits .f32 0x00000000#32) = max (_ + b (ix2 (0 : Fin 1) c)) 0
  rw [Ideal.ofBits_zero_f32]

/-- One dense layer of the kernel body on a 1024-row block: the contraction into a zero accumulator, the one-row bias spread over
    the rows, the rectifier. -/
def kl2 (x : FArr S1024x64) (w : FArr S64x16) (b : FArr S1x16) : FArr S1024x16 :=
  maximumf (F := Ideal) (addf (F := Ideal) (matmul (F := Ideal) dot_S1024x64_S64x16_S1024x16_1_0_0_1_n_n none x w (constant (F := Ideal) S1024x16 .f32 0x00000000#32)) (broadcastTo S1024x16 (shapeCast S1x16 b shapeCasts_S1x16_S1x16) broadcasts_S1x16_S1024x16)) (broadcast S1024x16 (Scalar.ofBits (F := Ideal) .f32 0x00000000#32))

/-- Read at `(p, c)`: `max (∑ j, x (p, j) * w (j, c) + b (0, c)) 0`. -/
theorem kl2_apply (x : FArr S1024x64) (w : FArr S64x16) (b : FArr S1x16) (p : Fin 1024) (c : Fin 16) :
    kl2 x w b (ix2 p c) = brelu (lin (curry2 x) (curry2 w)) (row0 b) p c := by
  unfold kl2
  rw [maximumf_apply, addf_apply, broadcast_apply, shapeCast_self, broadcastTo_1b_ab_apply]
  have ed : matmul (F := Ideal) dot_S1024x64_S64x16_S1024x16_1_0_0_1_n_n none x w (constant (F := Ideal) S1024x16 .f32 0x00000000#32) (ix2 p c) = lin (curry2 x) (curry2 w) p c :=
    (Ideal.matmul_constant_zero_apply dot_S1024x64_S64x16_S1024x16_1_0_0_1_n_n none x w (ix2 p c)).trans (k2_sum x w p c)
  rw [ed]
  show max (_ + b (ix2 (0 : Fin 1) c)) (Ideal.ofBits .f32 0x00000000#32) = max (_ + b (ix2 (0 : Fin 1) c)) 0
  rw [Ideal.ofBits_zero_f32]

/-- One dense layer of the kernel body on a 1024-row block: the contraction into a zero accumulator, the one-row bias spread over
    the rows, the rectifier. -/
def kl3 (x : FArr S1024x16) (w : FArr S16x1) (b : FArr S1x1) : FArr S1024x1 :=
  maximumf (F := Ideal) (addf (F := Ideal) (matmul (F := Ideal) dot_S1024x16_S16x1_S1024x1_1_0_0_1_n_n none x w (constant (F := Ideal) S1024x1 .f32 0x00000000#32)) (broadcastTo S1024x1 (shapeCast S1x1 b shapeCasts_S1x1_S1x1) broadcasts_S1x1_S1024x1)) (broadcast S1024x1 (Scalar.ofBits (F := Ideal) .f32 0x00000000#32))

/-- Read at `(p, c)`: `max (∑ j, x (p, j) * w (j, c) + b (0, c)) 0`. -/
theorem kl3_apply (x : FArr S1024x16) (w : FArr S16x1) (b : FArr S1x1) (p : Fin 1024) (c : Fin 1) :
    kl3 x w b (ix2 p c) = brelu (lin (curry2 x) (curry2 w)) (row0 b) p c := by
  unfold kl3
  rw [maximumf_apply, addf_apply, broadcast_apply, shapeCast_self, broadcastTo_1b_ab_apply]
  have ed : matmul (F := Ideal) dot_S1024x16_S16x1_S1024x1_1_0_0_1_n_n none x w (constant (F := Ideal) S1024x1 .f32 0x00000000#32) (ix2 p c) = lin (curry2 x) (curry2 w) p c :=
    (Ideal.matmul_constant_zero_apply dot_S1024x16_S16x1_S1024x1_1_0_0_1_n_n none x w (ix2 p c)).trans (k3_sum x w p c)
  rw [ed]
  show max (_ + b (ix2 (0 : Fin 1) c)) (Ideal.ofBits .f32 0x00000000#32) = max (_ + b (ix2 (0 : Fin 1) c)) 0
  rw [Ideal.ofBits_zero_f32]

/-- The body's stored value is the three layers composed. -/
theorem pay3_eq (v0 : FArr S1024x1056) (v1 : FArr S1056x64) (v3 : FArr S1x64) (v9 : FArr S64x16) (v11 : FArr S1x16) (v17 : FArr S16x1) (v19 : FArr S1x1) :
    k3_pay1 (F := Ideal) v0 v1 v3 v9 v11 v17 v19 = kl3 (kl2 (kl1 v0 v1 v3) v9 v11) v17 v19 := rfl

theorem curry2_kl1 (x : FArr S1024x1056) (w : FArr S1056x64) (b : FArr S1x64) :
    curry2 (kl1 x w b) = brelu (lin (curry2 x) (curry2 w)) (row0 b) :=
  funext fun p => funext fun c => kl1_apply x w b p c
theorem curry2_kl2 (x : FArr S1024x64) (w : FArr S64x16) (b : FArr S1x16) :
    curry2 (kl2 x w b) = brelu (lin (curry2 x) (curry2 w)) (row0 b) :=
  funext fun p => funext fun c => kl2_apply x w b p c

/-- The body's stored value at `(p, q)`: the three layers of row `p` of the block. -/
theorem pay3_apply (v0 : FArr S1024x1056) (v1 : FArr S1056x64) (v3 : FArr S1x64) (v9 : FArr S64x16) (v11 : FArr S1x16) (v17 : FArr S16x1) (v19 : FArr S1x1) (p : Fin 1024) (q : Fin 1) :
    k3_pay1 (F := Ideal) v0 v1 v3 v9 v11 v17 v19 (ix2 p q)
      = brelu (lin (brelu (lin (brelu (lin (curry2 v0) (curry2 v1)) (row0 v3)) (curry2 v9)) (row0 v11)) (curry2 v17)) (row0 v19) p q := by
  rw [pay3_eq, kl3_apply, curry2_kl2, curry2_kl1]

/-! ## A layer acts on each row by itself -/

/-- The three layers at row `p` of one matrix and at row `P` of another agree when the two rows do. -/
theorem dense3_row {n n' k1 k2 k3 k4 : ℕ} (A' : Fin n' → Fin k1 → EReal) (A : Fin n → Fin k1 → EReal)
    (W1 : Fin k1 → Fin k2 → EReal) (b1 : Fin k2 → EReal) (W2 : Fin k2 → Fin k3 → EReal) (b2 : Fin k3 → EReal)
    (W3 : Fin k3 → Fin k4 → EReal) (b3 : Fin k4 → EReal) (p : Fin n') (P : Fin n) (h : A' p = A P) (q : Fin k4) :
    brelu (lin (brelu (lin (brelu (lin A' W1) b1) W2) b2) W3) b3 p q
      = brelu (lin (brelu (lin (brelu (lin A W1) b1) W2) b2) W3) b3 P q := by
  simp only [brelu, lin, h]

/-- At a point of a block: when the block's rows are the batch's rows from `tn * 1024` on and the weights and biases are the
    whole arrays, the body's stored value is the whole-batch function at the corresponding row. -/
theorem block_point (X0 : FArr S4096x1056) (X1 : FArr S1056x64) (X2 : FArr S1x64) (X3 : FArr S64x16) (X4 : FArr S1x16) (X5 : FArr S16x1) (X6 : FArr S1x1)
    (B0 : FArr S1024x1056) (B1 : FArr S1056x64) (B2 : FArr S1x64) (B3 : FArr S64x16) (B4 : FArr S1x16) (B5 : FArr S16x1) (B6 : FArr S1x1)
    (tn : ℕ) (y : S1024x1.Idx) (i : S4096x1.Idx)
    (hi0 : (i 0).val = tn * 1024 + (y 0).val) (hi1 : (i 1).val = (y 1).val)
    (h0 : ∀ (u : S1024x1056.Idx) (k : S4096x1056.Idx), (k 0).val = tn * 1024 + (u 0).val → (k 1).val = (u 1).val → B0 u = X0 k)
    (h1 : B1 = X1) (h2 : B2 = X2) (h3 : B3 = X3) (h4 : B4 = X4) (h5 : B5 = X5) (h6 : B6 = X6) :
    k3_pay1 (F := Ideal) B0 B1 B2 B3 B4 B5 B6 y = G3 X0 X1 X2 X3 X4 X5 X6 i := by
  subst h1 h2 h3 h4 h5 h6
  obtain ⟨p, q, rfl⟩ : ∃ (p : Fin 1024) (q : Fin 1), y = ix2 p q := ⟨y 0, y 1, eq_ix2 y⟩
  obtain ⟨P, Q, rfl⟩ : ∃ (P : Fin 4096) (Q : Fin 1), i = ix2 P Q := ⟨i 0, i 1, eq_ix2 i⟩
  have hP : P.val = tn * 1024 + p.val := hi0
  obtain rfl : Q = q := Fin.ext hi1
  rw [pay3_apply, G3_apply]
  refine dense3_row _ _ _ _ _ _ _ _ p P ?_ Q
  funext j
  exact h0 (ix2 p j) (ix2 P j) hP rfl

/-! ## From the blocks to the array -/

section Region

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The index maps over the grid: the batch's and the result's blocks move with the grid point along the rows, the weights'
    and biases' blocks stay at the origin. -/
theorem block_indices : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

set_option maxHeartbeats 400000 in
/-- What grid point `t` writes back is block `t` of the three layers of the whole batch. -/
theorem wrote3 (t : Fin cfg3.N) :
    (dat3 (F := Ideal) V c).flushed 7 t
      = ((cfg3.win 7).blk t).view.read (Elt Ideal) (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 (F := Ideal) V c).after 7 t) = _
  rw [after3_7]
  unfold out3_7
  rw [View.canon_unit_zero (S := S1024x1) zero_offsets]
  simp only [View.ld_unit_zero (S := S1024x1056) zero_offsets, View.ld_unit_zero (S := S1056x64) zero_offsets, View.ld_unit_zero (S := S1x64) zero_offsets, View.ld_unit_zero (S := S64x16) zero_offsets, View.ld_unit_zero (S := S1x16) zero_offsets, View.ld_unit_zero (S := S16x1) zero_offsets, View.ld_unit_zero (S := S1x1) zero_offsets]
  obtain ⟨e00, e01, e10, e11, e20, e21, e30, e31, e40, e41, e50, e51, e60, e61, e70, e71⟩ := block_indices t
  funext j
  show k3_pay1 (F := Ideal) (iblk3 V c 0 t) (iblk3 V c 1 t) (iblk3 V c 2 t) (iblk3 V c 3 t) (iblk3 V c 4 t) (iblk3 V c 5 t) (iblk3 V c 6 t) j
    = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (((cfg3.win 7).blk t).view.emb j)
  refine block_point _ _ _ _ _ _ _ _ _ _ _ _ _ _ t.val _ _ ?_ ?_ ?_ ?_ ?_ ?_ ?_ ?_ ?_
  · show win3_7.index t (0 : Fin 2) * 1024 + 1 * (j 0).val = t.val * 1024 + (j 0).val
    rw [e70]; omega
  · show win3_7.index t (1 : Fin 2) * 1 + 1 * (j 1).val = (j 1).val
    rw [e71]; omega
  · intro u k hk0 hk1
    show V c (Pipeline.arrRef spec3 0) (((cfg3.win 0).blk t).view.emb u) = V c (Pipeline.arrRef spec3 0) k
    refine congrArg _ (funext fun a => Fin.ext ?_)
    match a with
    | ⟨0, _⟩ => show win3_0.index t (0 : Fin 2) * 1024 + 1 * (u 0).val = (k 0).val; rw [e00, hk0]; omega
    | ⟨1, _⟩ => show win3_0.index t (1 : Fin 2) * 1056 + 1 * (u 1).val = (k 1).val; rw [e01, hk1]; omega
  · funext u
    show V c (Pipeline.arrRef spec3 1) (((cfg3.win 1).blk t).view.emb u) = V c (Pipeline.arrRef spec3 1) u
    refine congrArg _ (funext fun a => Fin.ext ?_)
    match a with
    | ⟨0, _⟩ => show win3_1.index t (0 : Fin 2) * 1056 + 1 * (u 0).val = (u 0).val; rw [e10]; omega
    | ⟨1, _⟩ => show win3_1.index t (1 : Fin 2) * 64 + 1 * (u 1).val = (u 1).val; rw [e11]; omega
  · funext u
    show V c (Pipeline.arrRef spec3 2) (((cfg3.win 2).blk t).view.emb u) = V c (Pipeline.arrRef spec3 2) u
    refine congrArg _ (funext fun a => Fin.ext ?_)
    match a with
    | ⟨0, _⟩ => show win3_2.index t (0 : Fin 2) * 1 + 1 * (u 0).val = (u 0).val; rw [e20]; omega
    | ⟨1, _⟩ => show win3_2.index t (1 : Fin 2) * 64 + 1 * (u 1).val = (u 1).val; rw [e21]; omega
  · funext u
    show V c (Pipeline.arrRef spec3 3) (((cfg3.win 3).blk t).view.emb u) = V c (Pipeline.arrRef spec3 3) u
    refine congrArg _ (funext fun a => Fin.ext ?_)
    match a with
    | ⟨0, _⟩ => show win3_3.index t (0 : Fin 2) * 64 + 1 * (u 0).val = (u 0).val; rw [e30]; omega
    | ⟨1, _⟩ => show win3_3.index t (1 : Fin 2) * 16 + 1 * (u 1).val = (u 1).val; rw [e31]; omega
  · funext u
    show V c (Pipeline.arrRef spec3 4) (((cfg3.win 4).blk t).view.emb u) = V c (Pipeline.arrRef spec3 4) u
    refine congrArg _ (funext fun a => Fin.ext ?_)
    match a with
    | ⟨0, _⟩ => show win3_4.index t (0 : Fin 2) * 1 + 1 * (u 0).val = (u 0).val; rw [e40]; omega
    | ⟨1, _⟩ => show win3_4.index t (1 : Fin 2) * 16 + 1 * (u 1).val = (u 1).val; rw [e41]; omega
  · funext u
    show V c (Pipeline.arrRef spec3 5) (((cfg3.win 5).blk t).view.emb u) = V c (Pipeline.arrRef spec3 5) u
    refine congrArg _ (funext fun a => Fin.ext ?_)
    match a with
    | ⟨0, _⟩ => show win3_5.index t (0 : Fin 2) * 16 + 1 * (u 0).val = (u 0).val; rw [e50]; omega
    | ⟨1, _⟩ => show win3_5.index t (1 : Fin 2) * 1 + 1 * (u 1).val = (u 1).val; rw [e51]; omega
  · funext u
    show V c (Pipeline.arrRef spec3 6) (((cfg3.win 6).blk t).view.emb u) = V c (Pipeline.arrRef spec3 6) u
    refine congrArg _ (funext fun a => Fin.ext ?_)
    match a with
    | ⟨0, _⟩ => show win3_6.index t (0 : Fin 2) * 1 + 1 * (u 0).val = (u 0).val; rw [e60]; omega
    | ⟨1, _⟩ => show win3_6.index t (1 : Fin 2) * 1 + 1 * (u 1).val = (u 1).val; rw [e61]; omega

/-- An index of the result array is in grid point `t`'s block iff each coordinate is in the block's range on its axis. -/
theorem mem_block3 (t : Fin cfg3.N) (i : S4096x1.Idx) :
    i ∈ ((cfg3.win 7).blk t).view.set ↔ ∀ a : Fin 2, win3_7.index t a * S1024x1.size a ≤ (i a).val ∧ (i a).val < win3_7.index t a * S1024x1.size a + S1024x1.size a := by
  show i ∈ ((View.whole main_v85).slice (win3_7.rect t)).set ↔ _
  rw [View.set_slice_whole, Rect.mem_set_unit]
  exact Iff.rfl

/-- Row `r` of the result lies in the block of grid point `r / 1024`. -/
theorem cover3 (i : S4096x1.Idx) : ∃ t : Fin cfg3.N, (cfg3.win 7).flush t = true ∧ i ∈ ((cfg3.win 7).blk t).view.set := by
  have hN : cfg3.N = 4 := N_3
  have hi0 : (i 0).val < 4096 := (i 0).isLt
  have hi1 : (i 1).val < 1 := (i 1).isLt
  obtain ⟨t, ht⟩ : ∃ t : Fin cfg3.N, t.val = (i 0).val / 1024 := ⟨⟨(i 0).val / 1024, by rw [hN]; omega⟩, rfl⟩
  refine ⟨t, flush3_7 t, ?_⟩
  obtain ⟨e00, e01, e10, e11, e20, e21, e30, e31, e40, e41, e50, e51, e60, e61, e70, e71⟩ := block_indices t
  rw [mem_block3]
  intro a
  match a with
  | ⟨0, _⟩ => show win3_7.index t (0 : Fin 2) * 1024 ≤ (i 0).val ∧ (i 0).val < win3_7.index t (0 : Fin 2) * 1024 + 1024; rw [e70, ht]; omega
  | ⟨1, _⟩ => show win3_7.index t (1 : Fin 2) * 1 ≤ (i 1).val ∧ (i 1).val < win3_7.index t (1 : Fin 2) * 1 + 1; rw [e71]; omega

/-- The result array after the region, for any contents at its entry: the three dense layers of the whole batch. -/
theorem final3 :
    (dat3 (F := Ideal) V c).arrAt 7 cfg3.N
      = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 (F := Ideal) V c).arrAt_eq_of_cover 7 (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) (fun t _ => wrote3 V c t) cover3

end Region

end Cert.Gcn.K3

end
-- ==== Proof.Results.lean ====
/-
  The two programs' results as terms of the argument arrays.

  The kernel program: the first matrix product (region 0), the aggregation on the host, bias and rectifier (region 1),
  the aggregation again, then the second matrix product with its bias and rectifier (region 2); and the dense network
  on the batch (region 3), its biases reshaped to rows on the host. The reference: both layers as matrix product,
  aggregation, bias and rectifier, in that order, all on the host; and the dense network on the host.
-/
import proofs.«125731_j33835752358234_2_alg».proof.Proof.HostTerms
import proofs.«125731_j33835752358234_2_alg».proof.Proof.K0Value
import proofs.«125731_j33835752358234_2_alg».proof.Proof.K1Value
import proofs.«125731_j33835752358234_2_alg».proof.Proof.K2Value
import proofs.«125731_j33835752358234_2_alg».proof.Proof.K3Value

noncomputable section

namespace Cert.Gcn

open Idealize.ShloMosaic Cert.KernelIdeal

/-- The kernel program's first result. -/
def kernelPpi (a0 : FArr S100000x512) (a1 : IArr S2x3200000) (a3 : FArr S512x16) (a4 : FArr S16) (a5 : FArr S16x32)
    (a6 : FArr S32) : FArr S100000x32 :=
  K2.G2
    (agg16T
      (K1.G1 (agg16T (K0.G0 a0 a3) (srcT a1) (dstT a1) (dinvT (dstT a1))) (shapeCast S1x16 a4 Facts₀.shapeCasts_S16_S1x16))
      (srcT a1) (dstT a1) (dinvT (dstT a1)))
    a5 (shapeCast S1x32 a6 Facts₀.shapeCasts_S32_S1x32)

/-- The reference's first result. -/
def refPpi (a0 : FArr S100000x512) (a1 : IArr S2x3200000) (a3 : FArr S512x16) (a4 : FArr S16) (a5 : FArr S16x32)
    (a6 : FArr S32) : FArr S100000x32 :=
  brelu32RefT
    (agg32T
      (h2RefT (brelu16RefT (agg16T (h1RefT a0 a3) (srcT a1) (dstT a1) (dinvT (dstT a1))) a4) a5)
      (srcT a1) (dstT a1) (dinvT (dstT a1)))
    a6

/-- The kernel program's second result. -/
def kernelDdi (a2 : FArr S4096x1056) (a7 : FArr S1056x64) (a8 : FArr S64) (a9 : FArr S64x16) (a10 : FArr S16)
    (a11 : FArr S16x1) (a12 : FArr S1) : FArr S4096x1 :=
  K3.G3 a2 a7 (shapeCast S1x64 a8 Facts₀.shapeCasts_S64_S1x64) a9 (shapeCast S1x16 a10 Facts₀.shapeCasts_S16_S1x16) a11
    (shapeCast S1x1 a12 Facts₀.shapeCasts_S1_S1x1)

end Cert.Gcn

end
-- ==== Proof.KValue.lean ====
/-
  The kernel program's two results as functions of the argument buffers' launch contents: the last boundary's contents
  at the two result buffers are walked back through the regions (each region's output array is its whole-array
  function of its input arrays at the region's entry) and through the host stretches (each reads back as named host
  terms), down to the launch memory.
-/
import proofs.«125731_j33835752358234_2_alg».proof.Proof.KFold
import proofs.«125731_j33835752358234_2_alg».proof.Proof.Results

set_option maxRecDepth 16384

noncomputable section

namespace Cert.Gcn.KValue

open Cert.KernelIdeal Cert.KernelIdeal.Gen Cert.Gcn Cert.Gcn.KFold
open Idealize.ShloMosaic Idealize.ShloMosaic.TcCoe Idealize.SL.Sem

variable (m : (ℓ : Loc nD τ sig) → Buf (Elt Ideal) ℓ) (ρ : Dev nD → PrngReg)

/-- The first matrix product, as region 0 leaves it. -/
theorem W2_h1 (c : Dev nD) :
    W2 m ρ c (Proc.devRef .tc main_v11) = K0.G0 (m ((c : Thread nD τ).loc main_arg0)) (m ((c : Thread nD τ).loc main_arg3)) := by
  refine (W2_arr m ρ c 2).trans ((K0.final0 (V1 m ρ) c).trans ?_)
  show K0.G0 (W1 m ρ c (Proc.devRef .tc main_arg0)) (W1 m ρ c (Proc.devRef .tc main_arg3)) = _
  rw [W1_arg0, W1_arg3]

/-- The hidden features, as region 1 leaves them. -/
theorem W4_ppi1 (c : Dev nD) :
    W4 m ρ c (Proc.devRef .tc main_v46)
      = K1.G1 (agg16T (K0.G0 (m ((c : Thread nD τ).loc main_arg0)) (m ((c : Thread nD τ).loc main_arg3)))
            (srcT (m ((c : Thread nD τ).loc main_arg1))) (dstT (m ((c : Thread nD τ).loc main_arg1)))
            (dinvT (dstT (m ((c : Thread nD τ).loc main_arg1)))))
          (shapeCast S1x16 (m ((c : Thread nD τ).loc main_arg4)) Facts₀.shapeCasts_S16_S1x16) := by
  refine (W4_arr m ρ c 2).trans ((K1.final1 (V3 m ρ) c).trans ?_)
  show K1.G1 (W3 m ρ c (Proc.devRef .tc main_v44)) (W3 m ρ c (Proc.devRef .tc main_v45)) = _
  rw [W3_agg, W3_bias, W2_h1, W2_v1, W1_src, W2_v3, W1_dst, W2_v10, W1_dinv, W2_arg4, W1_arg4]

/-- The first result: region 2's output, left alone by what follows. -/
theorem W8_ppi (c : Dev nD) :
    W8 m ρ c (Proc.devRef .tc main_v81)
      = kernelPpi (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) := by
  refine (W8_v81 m ρ c).trans ((W7_v81 m ρ c).trans ((W6_arr m ρ c 3).trans ((K2.final2 (V5 m ρ) c).trans ?_)))
  show K2.G2 (W5 m ρ c (Proc.devRef .tc main_v79)) (W5 m ρ c (Proc.devRef .tc main_arg5)) (W5 m ρ c (Proc.devRef .tc main_v80)) = _
  rw [W5_agg, W5_bias, W5_arg5, W4_ppi1, W4_v1, W3_v1, W2_v1, W1_src, W4_v3, W3_v3, W2_v3, W1_dst, W4_v10, W3_v10, W2_v10,
    W1_dinv, W4_arg6, W3_arg6, W2_arg6, W1_arg6]
  rfl

/-- The second result: region 3's output. -/
theorem W8_ddi (c : Dev nD) :
    W8 m ρ c (Proc.devRef .tc main_v85)
      = kernelDdi (m ((c : Thread nD τ).loc main_arg2)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  refine (W8_arr m ρ c 7).trans ((K3.final3 (V7 m ρ) c).trans ?_)
  show K3.G3 (W7 m ρ c (Proc.devRef .tc main_arg2)) (W7 m ρ c (Proc.devRef .tc main_arg7)) (W7 m ρ c (Proc.devRef .tc main_v82)) (W7 m ρ c (Proc.devRef .tc main_arg9))
    (W7 m ρ c (Proc.devRef .tc main_v83)) (W7 m ρ c (Proc.devRef .tc main_arg11)) (W7 m ρ c (Proc.devRef .tc main_v84)) = _
  rw [W7_arg2, W7_arg7, W7_b1, W7_arg9, W7_b2, W7_arg11, W7_b3, W6_arg8, W6_arg10, W6_arg12]
  rfl

end Cert.Gcn.KValue

end
-- ==== Proof.RefDdi.lean ====
/-
  The reference's three dense layers on the 4096-row batch, read index by index: each layer is a contraction over one
  axis, a bias spread over the rows and a rectifier, so the result at row `p` is the composition of three
  `max (∑ j, · * · + b) 0` maps of the argument arrays.
-/
import proofs.«125731_j33835752358234_2_alg».proof.Proof.HostTerms
import Idealize.ShloMosaic.Lib.Pipeline.Value
import Idealize.ShloMosaic.Lib.ValueIdx
import Idealize.ShloMosaic.PureOps.Ideal.Laws

noncomputable section

open scoped BigOperators

namespace Cert.Gcn.RefDdi

open Idealize.ShloMosaic Idealize.ShloMosaic.ValueIdx Cert.ReferenceIdeal Cert.ReferenceIdeal.Facts₀ Cert.Gcn

/-! ## The three contractions at an index -/

private theorem c1_l0 (i : S4096x64.Idx) (q : dot_S4096x1056_S1056x64_S4096x64_1_0_0_1_n_n.contr.Idx) :
    (dot_S4096x1056_S1056x64_S4096x64_1_0_0_1_n_n.lhsIdx i q 0).val = (i 0).val := by
  unfold DotDims.lhsIdx
  rw [dif_neg (show ¬(0 : Fin S4096x1056.rank) ∈ dot_S4096x1056_S1056x64_S4096x64_1_0_0_1_n_n.lhsBatch by decide), dif_pos (show (0 : Fin S4096x1056.rank) ∈ dot_S4096x1056_S1056x64_S4096x64_1_0_0_1_n_n.lhsNonContracting by decide)]
  rfl
private theorem c1_l1 (i : S4096x64.Idx) (q : dot_S4096x1056_S1056x64_S4096x64_1_0_0_1_n_n.contr.Idx) :
    (dot_S4096x1056_S1056x64_S4096x64_1_0_0_1_n_n.lhsIdx i q 1).val = (q ⟨0, by decide⟩).val :=
  dot_S4096x1056_S1056x64_S4096x64_1_0_0_1_n_n.lhsIdx_val_of_single rfl i q
private theorem c1_r0 (i : S4096x64.Idx) (q : dot_S4096x1056_S1056x64_S4096x64_1_0_0_1_n_n.contr.Idx) :
    (dot_S4096x1056_S1056x64_S4096x64_1_0_0_1_n_n.rhsIdx i q 0).val = (q ⟨0, by decide⟩).val :=
  dot_S4096x1056_S1056x64_S4096x64_1_0_0_1_n_n.rhsIdx_val_of_single rfl i q
private theorem c1_r1 (i : S4096x64.Idx) (q : dot_S4096x1056_S1056x64_S4096x64_1_0_0_1_n_n.contr.Idx) :
    (dot_S4096x1056_S1056x64_S4096x64_1_0_0_1_n_n.rhsIdx i q 1).val = (i 1).val := by
  unfold DotDims.rhsIdx
  rw [dif_neg (show ¬(1 : Fin S1056x64.rank) ∈ dot_S4096x1056_S1056x64_S4096x64_1_0_0_1_n_n.rhsBatch by decide), dif_pos (show (1 : Fin S1056x64.rank) ∈ dot_S4096x1056_S1056x64_S4096x64_1_0_0_1_n_n.rhsNonContracting by decide)]
  rfl

/-- The contraction of a `[4096, 1056]` by a `[1056, 64]` array over its one contracted axis, read at `(p, c)`: the sum over
    `j` of the left operand at `(p, j)` times the right at `(j, c)`. -/
theorem c1_sum (A : FArr S4096x1056) (B : FArr S1056x64) (p : Fin 4096) (c : Fin 64) :
    (∑ q : dot_S4096x1056_S1056x64_S4096x64_1_0_0_1_n_n.contr.Idx, A (dot_S4096x1056_S1056x64_S4096x64_1_0_0_1_n_n.lhsIdx (ix2 p c) q) * B (dot_S4096x1056_S1056x64_S4096x64_1_0_0_1_n_n.rhsIdx (ix2 p c) q))
      = lin (curry2 A) (curry2 B) p c := by
  show _ = ∑ j : Fin 1056, A (ix2 p j) * B (ix2 j c)
  rw [← Equiv.sum_comp (contrEquiv1 dot_S4096x1056_S1056x64_S4096x64_1_0_0_1_n_n 1056 rfl rfl).symm]
  refine Finset.sum_congr rfl fun j _ => ?_
  have hj := contrEquiv1_symm_val dot_S4096x1056_S1056x64_S4096x64_1_0_0_1_n_n 1056 rfl rfl j
  have el : dot_S4096x1056_S1056x64_S4096x64_1_0_0_1_n_n.lhsIdx (ix2 p c) ((contrEquiv1 dot_S4096x1056_S1056x64_S4096x64_1_0_0_1_n_n 1056 rfl rfl).symm j) = ix2 p j := funext fun a => Fin.ext (by
    match a with
    | ⟨0, _⟩ => exact c1_l0 _ _
    | ⟨1, _⟩ => exact (c1_l1 _ _).trans hj)
  have er : dot_S4096x1056_S1056x64_S4096x64_1_0_0_1_n_n.rhsIdx (ix2 p c) ((contrEquiv1 dot_S4096x1056_S1056x64_S4096x64_1_0_0_1_n_n 1056 rfl rfl).symm j) = ix2 j c := funext fun a => Fin.ext (by
    match a with
    | ⟨0, _⟩ => exact (c1_r0 _ _).trans hj
    | ⟨1, _⟩ => exact c1_r1 _ _)
  rw [el, er]

private theorem c2_l0 (i : S4096x16.Idx) (q : dot_S4096x64_S64x16_S4096x16_1_0_0_1_n_n.contr.Idx) :
    (dot_S4096x64_S64x16_S4096x16_1_0_0_1_n_n.lhsIdx i q 0).val = (i 0).val := by
  unfold DotDims.lhsIdx
  rw [dif_neg (show ¬(0 : Fin S4096x64.rank) ∈ dot_S4096x64_S64x16_S4096x16_1_0_0_1_n_n.lhsBatch by decide), dif_pos (show (0 : Fin S4096x64.rank) ∈ dot_S4096x64_S64x16_S4096x16_1_0_0_1_n_n.lhsNonContracting by decide)]
  rfl
private theorem c2_l1 (i : S4096x16.Idx) (q : dot_S4096x64_S64x16_S4096x16_1_0_0_1_n_n.contr.Idx) :
    (dot_S4096x64_S64x16_S4096x16_1_0_0_1_n_n.lhsIdx i q 1).val = (q ⟨0, by decide⟩).val :=
  dot_S4096x64_S64x16_S4096x16_1_0_0_1_n_n.lhsIdx_val_of_single rfl i q
private theorem c2_r0 (i : S4096x16.Idx) (q : dot_S4096x64_S64x16_S4096x16_1_0_0_1_n_n.contr.Idx) :
    (dot_S4096x64_S64x16_S4096x16_1_0_0_1_n_n.rhsIdx i q 0).val = (q ⟨0, by decide⟩).val :=
  dot_S4096x64_S64x16_S4096x16_1_0_0_1_n_n.rhsIdx_val_of_single rfl i q
private theorem c2_r1 (i : S4096x16.Idx) (q : dot_S4096x64_S64x16_S4096x16_1_0_0_1_n_n.contr.Idx) :
    (dot_S4096x64_S64x16_S4096x16_1_0_0_1_n_n.rhsIdx i q 1).val = (i 1).val := by
  unfold DotDims.rhsIdx
  rw [dif_neg (show ¬(1 : Fin S64x16.rank) ∈ dot_S4096x64_S64x16_S4096x16_1_0_0_1_n_n.rhsBatch by decide), dif_pos (show (1 : Fin S64x16.rank) ∈ dot_S4096x64_S64x16_S4096x16_1_0_0_1_n_n.rhsNonContracting by decide)]
  rfl

/-- The contraction of a `[4096, 64]` by a `[64, 16]` array over its one contracted axis, read at `(p, c)`: the sum over
    `j` of the left operand at `(p, j)` times the right at `(j, c)`. -/
theorem c2_sum (A : FArr S4096x64) (B : FArr S64x16) (p : Fin 4096) (c : Fin 16) :
    (∑ q : dot_S4096x64_S64x16_S4096x16_1_0_0_1_n_n.contr.Idx, A (dot_S4096x64_S64x16_S4096x16_1_0_0_1_n_n.lhsIdx (ix2 p c) q) * B (dot_S4096x64_S64x16_S4096x16_1_0_0_1_n_n.rhsIdx (ix2 p c) q))
      = lin (curry2 A) (curry2 B) p c := by
  show _ = ∑ j : Fin 64, A (ix2 p j) * B (ix2 j c)
  rw [← Equiv.sum_comp (contrEquiv1 dot_S4096x64_S64x16_S4096x16_1_0_0_1_n_n 64 rfl rfl).symm]
  refine Finset.sum_congr rfl fun j _ => ?_
  have hj := contrEquiv1_symm_val dot_S4096x64_S64x16_S4096x16_1_0_0_1_n_n 64 rfl rfl j
  have el : dot_S4096x64_S64x16_S4096x16_1_0_0_1_n_n.lhsIdx (ix2 p c) ((contrEquiv1 dot_S4096x64_S64x16_S4096x16_1_0_0_1_n_n 64 rfl rfl).symm j) = ix2 p j := funext fun a => Fin.ext (by
    match a with
    | ⟨0, _⟩ => exact c2_l0 _ _
    | ⟨1, _⟩ => exact (c2_l1 _ _).trans hj)
  have er : dot_S4096x64_S64x16_S4096x16_1_0_0_1_n_n.rhsIdx (ix2 p c) ((contrEquiv1 dot_S4096x64_S64x16_S4096x16_1_0_0_1_n_n 64 rfl rfl).symm j) = ix2 j c := funext fun a => Fin.ext (by
    match a with
    | ⟨0, _⟩ => exact (c2_r0 _ _).trans hj
    | ⟨1, _⟩ => exact c2_r1 _ _)
  rw [el, er]

private theorem c3_l0 (i : S4096x1.Idx) (q : dot_S4096x16_S16x1_S4096x1_1_0_0_1_n_n.contr.Idx) :
    (dot_S4096x16_S16x1_S4096x1_1_0_0_1_n_n.lhsIdx i q 0).val = (i 0).val := by
  unfold DotDims.lhsIdx
  rw [dif_neg (show ¬(0 : Fin S4096x16.rank) ∈ dot_S4096x16_S16x1_S4096x1_1_0_0_1_n_n.lhsBatch by decide), dif_pos (show (0 : Fin S4096x16.rank) ∈ dot_S4096x16_S16x1_S4096x1_1_0_0_1_n_n.lhsNonContracting by decide)]
  rfl
private theorem c3_l1 (i : S4096x1.Idx) (q : dot_S4096x16_S16x1_S4096x1_1_0_0_1_n_n.contr.Idx) :
    (dot_S4096x16_S16x1_S4096x1_1_0_0_1_n_n.lhsIdx i q 1).val = (q ⟨0, by decide⟩).val :=
  dot_S4096x16_S16x1_S4096x1_1_0_0_1_n_n.lhsIdx_val_of_single rfl i q
private theorem c3_r0 (i : S4096x1.Idx) (q : dot_S4096x16_S16x1_S4096x1_1_0_0_1_n_n.contr.Idx) :
    (dot_S4096x16_S16x1_S4096x1_1_0_0_1_n_n.rhsIdx i q 0).val = (q ⟨0, by decide⟩).val :=
  dot_S4096x16_S16x1_S4096x1_1_0_0_1_n_n.rhsIdx_val_of_single rfl i q
private theorem c3_r1 (i : S4096x1.Idx) (q : dot_S4096x16_S16x1_S4096x1_1_0_0_1_n_n.contr.Idx) :
    (dot_S4096x16_S16x1_S4096x1_1_0_0_1_n_n.rhsIdx i q 1).val = (i 1).val := by
  unfold DotDims.rhsIdx
  rw [dif_neg (show ¬(1 : Fin S16x1.rank) ∈ dot_S4096x16_S16x1_S4096x1_1_0_0_1_n_n.rhsBatch by decide), dif_pos (show (1 : Fin S16x1.rank) ∈ dot_S4096x16_S16x1_S4096x1_1_0_0_1_n_n.rhsNonContracting by decide)]
  rfl

/-- The contraction of a `[4096, 16]` by a `[16, 1]` array over its one contracted axis, read at `(p, c)`: the sum over
    `j` of the left operand at `(p, j)` times the right at `(j, c)`. -/
theorem c3_sum (A : FArr S4096x16) (B : FArr S16x1) (p : Fin 4096) (c : Fin 1) :
    (∑ q : dot_S4096x16_S16x1_S4096x1_1_0_0_1_n_n.contr.Idx, A (dot_S4096x16_S16x1_S4096x1_1_0_0_1_n_n.lhsIdx (ix2 p c) q) * B (dot_S4096x16_S16x1_S4096x1_1_0_0_1_n_n.rhsIdx (ix2 p c) q))
      = lin (curry2 A) (curry2 B) p c := by
  show _ = ∑ j : Fin 16, A (ix2 p j) * B (ix2 j c)
  rw [← Equiv.sum_comp (contrEquiv1 dot_S4096x16_S16x1_S4096x1_1_0_0_1_n_n 16 rfl rfl).symm]
  refine Finset.sum_congr rfl fun j _ => ?_
  have hj := contrEquiv1_symm_val dot_S4096x16_S16x1_S4096x1_1_0_0_1_n_n 16 rfl rfl j
  have el : dot_S4096x16_S16x1_S4096x1_1_0_0_1_n_n.lhsIdx (ix2 p c) ((contrEquiv1 dot_S4096x16_S16x1_S4096x1_1_0_0_1_n_n 16 rfl rfl).symm j) = ix2 p j := funext fun a => Fin.ext (by
    match a with
    | ⟨0, _⟩ => exact c3_l0 _ _
    | ⟨1, _⟩ => exact (c3_l1 _ _).trans hj)
  have er : dot_S4096x16_S16x1_S4096x1_1_0_0_1_n_n.rhsIdx (ix2 p c) ((contrEquiv1 dot_S4096x16_S16x1_S4096x1_1_0_0_1_n_n 16 rfl rfl).symm j) = ix2 j c := funext fun a => Fin.ext (by
    match a with
    | ⟨0, _⟩ => exact (c3_r0 _ _).trans hj
    | ⟨1, _⟩ => exact c3_r1 _ _)
  rw [el, er]

/-! ## The three layers -/

/-- One dense layer of the reference on the whole batch: the contraction, the bias spread over the rows, the rectifier. -/
def l1T (x : FArr S4096x1056) (w : FArr S1056x64) (b : FArr S64) : FArr S4096x64 :=
  maximumf (F := Ideal) (addf (F := Ideal) (Host.dotGeneral (F := Ideal) dot_S4096x1056_S1056x64_S4096x64_1_0_0_1_n_n none x w) (broadcastInDim S4096x64 ![0, 1] bcast_S1x64_S4096x64_0_1 (broadcastInDim S1x64 ![1] bcast_S64_S1x64_1 b))) (broadcastInDim S4096x64 ![] bcast_S_S4096x64 (constant (F := Ideal) S_ .f32 0x00000000#32))

/-- Read at `(p, c)`: `max (∑ j, x (p, j) * w (j, c) + b c) 0`. -/
theorem l1T_apply (x : FArr S4096x1056) (w : FArr S1056x64) (b : FArr S64) (p : Fin 4096) (c : Fin 64) :
    l1T x w b (ix2 p c) = brelu (lin (curry2 x) (curry2 w)) (curry1 b) p c := by
  unfold l1T
  rw [maximumf_apply, addf_apply]
  have e0 : broadcastInDim S4096x64 ![] bcast_S_S4096x64 (constant (F := Ideal) S_ .f32 0x00000000#32) (ix2 p c) = 0 := by
    rw [broadcastInDim_apply _ bcast_S_S4096x64 (constant (F := Ideal) S_ .f32 0x00000000#32) (ix2 p c) (fun a => a.elim0) (fun a => a.elim0)]
    exact Ideal.ofBits_zero_f32
  have eb : broadcastInDim S4096x64 ![0, 1] bcast_S1x64_S4096x64_0_1 (broadcastInDim S1x64 ![1] bcast_S64_S1x64_1 b) (ix2 p c) = b (ix1 c) := by
    rw [broadcastInDim_apply _ bcast_S1x64_S4096x64_0_1 (broadcastInDim S1x64 ![1] bcast_S64_S1x64_1 b) (ix2 p c) (ix2 (0 : Fin 1) c) (fun a => match a with
      | ⟨0, _⟩ => by show 0 = if (1 : Nat) = 1 then 0 else p.val; rw [if_pos rfl]
      | ⟨1, _⟩ => by show c.val = if (64 : Nat) = 1 then 0 else c.val; rw [if_neg (by decide)])]
    exact broadcastInDim_apply _ bcast_S64_S1x64_1 b (ix2 (0 : Fin 1) c) (ix1 c) (fun a => match a with
      | ⟨0, _⟩ => by show c.val = if (64 : Nat) = 1 then 0 else c.val; rw [if_neg (by decide)])
  have ed : Host.dotGeneral (F := Ideal) dot_S4096x1056_S1056x64_S4096x64_1_0_0_1_n_n none x w (ix2 p c) = lin (curry2 x) (curry2 w) p c := by
    simp only [Host.dotGeneral]
    rw [Ideal.dotGeneral_apply]
    exact c1_sum x w p c
  rw [e0, eb, ed]
  rfl

/-- One dense layer of the reference on the whole batch: the contraction, the bias spread over the rows, the rectifier. -/
def l2T (x : FArr S4096x64) (w : FArr S64x16) (b : FArr S16) : FArr S4096x16 :=
  maximumf (F := Ideal) (addf (F := Ideal) (Host.dotGeneral (F := Ideal) dot_S4096x64_S64x16_S4096x16_1_0_0_1_n_n none x w) (broadcastInDim S4096x16 ![0, 1] bcast_S1x16_S4096x16_0_1 (broadcastInDim S1x16 ![1] bcast_S16_S1x16_1 b))) (broadcastInDim S4096x16 ![] bcast_S_S4096x16 (constant (F := Ideal) S_ .f32 0x00000000#32))

/-- Read at `(p, c)`: `max (∑ j, x (p, j) * w (j, c) + b c) 0`. -/
theorem l2T_apply (x : FArr S4096x64) (w : FArr S64x16) (b : FArr S16) (p : Fin 4096) (c : Fin 16) :
    l2T x w b (ix2 p c) = brelu (lin (curry2 x) (curry2 w)) (curry1 b) p c := by
  unfold l2T
  rw [maximumf_apply, addf_apply]
  have e0 : broadcastInDim S4096x16 ![] bcast_S_S4096x16 (constant (F := Ideal) S_ .f32 0x00000000#32) (ix2 p c) = 0 := by
    rw [broadcastInDim_apply _ bcast_S_S4096x16 (constant (F := Ideal) S_ .f32 0x00000000#32) (ix2 p c) (fun a => a.elim0) (fun a => a.elim0)]
    exact Ideal.ofBits_zero_f32
  have eb : broadcastInDim S4096x16 ![0, 1] bcast_S1x16_S4096x16_0_1 (broadcastInDim S1x16 ![1] bcast_S16_S1x16_1 b) (ix2 p c) = b (ix1 c) := by
    rw [broadcastInDim_apply _ bcast_S1x16_S4096x16_0_1 (broadcastInDim S1x16 ![1] bcast_S16_S1x16_1 b) (ix2 p c) (ix2 (0 : Fin 1) c) (fun a => match a with
      | ⟨0, _⟩ => by show 0 = if (1 : Nat) = 1 then 0 else p.val; rw [if_pos rfl]
      | ⟨1, _⟩ => by show c.val = if (16 : Nat) = 1 then 0 else c.val; rw [if_neg (by decide)])]
    exact broadcastInDim_apply _ bcast_S16_S1x16_1 b (ix2 (0 : Fin 1) c) (ix1 c) (fun a => match a with
      | ⟨0, _⟩ => by show c.val = if (16 : Nat) = 1 then 0 else c.val; rw [if_neg (by decide)])
  have ed : Host.dotGeneral (F := Ideal) dot_S4096x64_S64x16_S4096x16_1_0_0_1_n_n none x w (ix2 p c) = lin (curry2 x) (curry2 w) p c := by
    simp only [Host.dotGeneral]
    rw [Ideal.dotGeneral_apply]
    exact c2_sum x w p c
  rw [e0, eb, ed]
  rfl

/-- One dense layer of the reference on the whole batch: the contraction, the bias spread over the rows, the rectifier. -/
def l3T (x : FArr S4096x16) (w : FArr S16x1) (b : FArr S1) : FArr S4096x1 :=
  maximumf (F := Ideal) (addf (F := Ideal) (Host.dotGeneral (F := Ideal) dot_S4096x16_S16x1_S4096x1_1_0_0_1_n_n none x w) (broadcastInDim S4096x1 ![0, 1] bcast_S1x1_S4096x1_0_1 (broadcastInDim S1x1 ![1] bcast_S1_S1x1_1 b))) (broadcastInDim S4096x1 ![] bcast_S_S4096x1 (constant (F := Ideal) S_ .f32 0x00000000#32))

/-- Read at `(p, c)`: `max (∑ j, x (p, j) * w (j, c) + b c) 0`. -/
theorem l3T_apply (x : FArr S4096x16) (w : FArr S16x1) (b : FArr S1) (p : Fin 4096) (c : Fin 1) :
    l3T x w b (ix2 p c) = brelu (lin (curry2 x) (curry2 w)) (curry1 b) p c := by
  unfold l3T
  rw [maximumf_apply, addf_apply]
  have e0 : broadcastInDim S4096x1 ![] bcast_S_S4096x1 (constant (F := Ideal) S_ .f32 0x00000000#32) (ix2 p c) = 0 := by
    rw [broadcastInDim_apply _ bcast_S_S4096x1 (constant (F := Ideal) S_ .f32 0x00000000#32) (ix2 p c) (fun a => a.elim0) (fun a => a.elim0)]
    exact Ideal.ofBits_zero_f32
  have eb : broadcastInDim S4096x1 ![0, 1] bcast_S1x1_S4096x1_0_1 (broadcastInDim S1x1 ![1] bcast_S1_S1x1_1 b) (ix2 p c) = b (ix1 c) := by
    rw [broadcastInDim_apply _ bcast_S1x1_S4096x1_0_1 (broadcastInDim S1x1 ![1] bcast_S1_S1x1_1 b) (ix2 p c) (ix2 (0 : Fin 1) c) (fun a => match a with
      | ⟨0, _⟩ => by show 0 = if (1 : Nat) = 1 then 0 else p.val; rw [if_pos rfl]
      | ⟨1, _⟩ => by show c.val = if (1 : Nat) = 1 then 0 else c.val; rw [if_pos rfl]; omega)]
    exact broadcastInDim_apply _ bcast_S1_S1x1_1 b (ix2 (0 : Fin 1) c) (ix1 c) (fun a => match a with
      | ⟨0, _⟩ => by show c.val = if (1 : Nat) = 1 then 0 else c.val; rw [if_pos rfl]; omega)
  have ed : Host.dotGeneral (F := Ideal) dot_S4096x16_S16x1_S4096x1_1_0_0_1_n_n none x w (ix2 p c) = lin (curry2 x) (curry2 w) p c := by
    simp only [Host.dotGeneral]
    rw [Ideal.dotGeneral_apply]
    exact c3_sum x w p c
  rw [e0, eb, ed]
  rfl

/-! ## The reference's term for its second result is the three layers composed -/

/-- The term is the three layers composed. -/
theorem ddiRefT_eq_layers (a2 : FArr S4096x1056) (a7 : FArr S1056x64) (a8 : FArr S64) (a9 : FArr S64x16) (a10 : FArr S16) (a11 : FArr S16x1) (a12 : FArr S1) :
    ddiRefT a2 a7 a8 a9 a10 a11 a12 = l3T (l2T (l1T a2 a7 a8) a9 a10) a11 a12 := rfl

/-- A layer's result as a function of its two coordinates. -/
theorem curry2_l1T (x : FArr S4096x1056) (w : FArr S1056x64) (b : FArr S64) :
    curry2 (l1T x w b) = brelu (lin (curry2 x) (curry2 w)) (curry1 b) :=
  funext fun p => funext fun c => l1T_apply x w b p c
theorem curry2_l2T (x : FArr S4096x64) (w : FArr S64x16) (b : FArr S16) :
    curry2 (l2T x w b) = brelu (lin (curry2 x) (curry2 w)) (curry1 b) :=
  funext fun p => funext fun c => l2T_apply x w b p c

end Cert.Gcn.RefDdi

namespace Cert.Gcn

open Idealize.ShloMosaic Idealize.ShloMosaic.ValueIdx Cert.ReferenceIdeal Cert.ReferenceIdeal.Facts₀ Cert.Gcn.RefDdi

/-- The reference's second result at `(p, q)`: the three dense layers of row `p` of the batch. -/
theorem ddiRefT_apply (a2 : FArr S4096x1056) (a7 : FArr S1056x64) (a8 : FArr S64) (a9 : FArr S64x16) (a10 : FArr S16) (a11 : FArr S16x1) (a12 : FArr S1) (p : Fin 4096) (q : Fin 1) :
    ddiRefT a2 a7 a8 a9 a10 a11 a12 (ix2 p q)
      = brelu (lin (brelu (lin (brelu (lin (curry2 a2) (curry2 a7)) (curry1 a8)) (curry2 a9)) (curry1 a10)) (curry2 a11)) (curry1 a12) p q := by
  rw [ddiRefT_eq_layers, l3T_apply, curry2_l2T, curry2_l1T]

end Cert.Gcn

end
-- ==== Proof.LibAfter.lean ====
import Idealize.ShloMosaic.Lib.StableHlo.Run
import Mathlib.Data.List.Forall2

/-! A straight line of host operations in which every buffer is written at most once (single assignment). The
    contents a buffer ends with are then those it has right after the one operation that writes it, and that
    operation reads operands whose contents no later operation changes: so the FINAL valuation satisfies one equation
    per operation, over the final contents of its operands — no walk through the later operations is needed. -/

noncomputable section

namespace Cert.Lib

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position `i` on writes ends with what it holds after the first `i` operations. -/
theorem after_eq_take (ops : List (HloOp τ sig Val)) (V : Valuation τ sig Val) (i : Nat) (b : DevRef τ sig)
    (h : ∀ op ∈ ops.drop i, b ∉ op.writes) : after ops V b = after (ops.take i) V b := by
  conv_lhs => rw [← List.take_append_drop i ops, after_append]
  exact after_of_forall_not_mem _ _ h

/-- Operations that each write the one buffer listed beside them write no reference that is not in the list. -/
theorem not_mem_writes_of_forall₂ {l : List (HloOp τ sig Val)} {W : List (Ref sig .tc)}
    (hW : List.Forall₂ (fun op y => op.writes = {Proc.devRef (τ := τ) .tc y}) l W) (r : Ref sig .tc) (hr : r ∉ W) :
    ∀ op ∈ l, Proc.devRef (τ := τ) .tc r ∉ op.writes := by
  induction hW with
  | nil => intro op hop; exact absurd hop List.not_mem_nil
  | @cons op' y l' W' h t ih =>
    intro op hop
    rcases List.mem_cons.mp hop with rfl | hop'
    · rw [h, Finset.mem_singleton]
      exact fun e => hr (Proc.devRef_injective _ e ▸ List.mem_cons_self)
    · exact ih (fun hm => hr (List.mem_cons_of_mem _ hm)) op hop'

/-- A reference that is not among the results of the operations from position `i` on ends with what it holds after the
    first `i` operations: the side condition is one membership in a literal list of references. -/
theorem after_eq_take_of_written {ops : List (HloOp τ sig Val)} {W : List (Ref sig .tc)}
    (hW : List.Forall₂ (fun op y => op.writes = {Proc.devRef (τ := τ) .tc y}) ops W) {V : Valuation τ sig Val}
    (i : Nat) (r : Ref sig .tc) (hr : r ∉ W.drop i) :
    after ops V (Proc.devRef .tc r) = after (ops.take i) V (Proc.devRef .tc r) :=
  after_eq_take ops V i _ (not_mem_writes_of_forall₂ (List.forall₂_drop i hW) r hr)

/-- THE STAGE EQUATION: the result `y` of the operation at position `N`, written by no later operation, ends at that
    operation's result over the contents after the first `N` operations. -/
theorem stage {ops : List (HloOp τ sig Val)} {W : List (Ref sig .tc)}
    (hW : List.Forall₂ (fun op y => op.writes = {Proc.devRef (τ := τ) .tc y}) ops W) {V : Valuation τ sig Val}
    (N : Nat) (op : HloOp τ sig Val) (hop : ops[N]? = some op) (y : Ref sig .tc) (hy : y ∉ W.drop (N + 1)) :
    after ops V (Proc.devRef .tc y) = op.result (after (ops.take N) V) (Proc.devRef .tc y) := by
  rw [after_eq_take_of_written hW (N + 1) y hy]
  have e : ops.take (N + 1) = ops.take N ++ [op] := by
    rw [List.take_succ, hop]; rfl
  rw [e, after_append]
  rfl

/-- A three-operand operation's result, the operands read one by one (the library states the four-operand form). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.RefFold.lean ====
/-
  The reference program's run, read back. Its 139 host operations run in order from the launch contents; the line is
  cut at eight boundaries, and each stretch is read as the named host terms (the edge list's rows, the degree weights,
  the two aggregations, the matrix products, the biases with their rectifiers, the dense network's three layers)
  applied to the contents at the stretch's entry. Every buffer is written by at most one operation, so a buffer that a
  stretch does not write holds after it what it held before: that carries the arguments and the early results across
  the later stretches.
-/
import proofs.«125731_j33835752358234_2_alg».proof.Proof.RefRun
import proofs.«125731_j33835752358234_2_alg».proof.Proof.HostTerms
import proofs.«125731_j33835752358234_2_alg».proof.Proof.RefDdi
import proofs.«125731_j33835752358234_2_alg».proof.Proof.LibAfter

set_option maxRecDepth 16384

noncomputable section

namespace Cert.Gcn.RFold

open Cert.ReferenceIdeal Cert.ReferenceIdeal.Gen Cert.ReferenceIdeal.ValueP Cert.ReferenceIdeal.Facts₀ Cert.Gcn Cert.Lib
open Idealize.ShloMosaic Idealize.ShloMosaic.TcCoe Idealize.SL.Sem Idealize.ShloMosaic.StableHlo

/-- The contents of every buffer of one core. -/
abbrev Vl := Valuation τ sig (Elt Ideal)

/-- The contents after the first 1 stretch. -/
def T1 (V : Vl) : Vl := after ops1 V
/-- The contents after the first 2 stretches. -/
def T2 (V : Vl) : Vl := after ops2 (T1 V)
/-- The contents after the first 3 stretches. -/
def T2b (V : Vl) : Vl := after ops2b (T2 V)
/-- The contents after the first 4 stretches. -/
def T3 (V : Vl) : Vl := after ops3 (T2b V)
/-- The contents after the first 5 stretches. -/
def T4 (V : Vl) : Vl := after ops4 (T3 V)
/-- The contents after the first 6 stretches. -/
def T4b (V : Vl) : Vl := after ops4b (T4 V)
/-- The contents after the first 7 stretches. -/
def T5a (V : Vl) : Vl := after ops5a (T4b V)
/-- The contents after the first 8 stretches. -/
def T5b (V : Vl) : Vl := after ops5b (T5a V)

/-- The whole line is the last stretch run from the contents after the first eight. -/
theorem after_ops (V : Vl) : after (ops (F := Ideal)) V = after ops5c (T5b V) := by
  rw [ops_split, StableHlo.after_append, StableHlo.after_append, StableHlo.after_append, StableHlo.after_append,
    StableHlo.after_append, StableHlo.after_append, StableHlo.after_append, StableHlo.after_append]
  rfl

/-! ## Which buffers each stretch writes -/

/-- The result buffers of stretch `ops1`, in order. -/
def refs_ops1 : List (Ref sig .tc) := [main_v0, main_v1, main_v2, main_v3, main_v4, main_cst, main_v5, main_cst_0, main_v6, main_v7, main_v8, main_cst_1, main_v9, main_v10, main_v11]
theorem written_ops1 : List.Forall₂ (fun op y => op.writes = {Proc.devRef (τ := τ) .tc y}) (ops1 (F := Ideal)) refs_ops1 := by
  unfold refs_ops1
  repeat' (first | exact List.Forall₂.nil | refine List.Forall₂.cons ?_ ?_)
  all_goals rfl
/-- A buffer that stretch `ops1` does not write holds after it what it held before. -/
theorem keep_ops1 (X : Vl) (b : Ref sig .tc) (hb : b ∉ refs_ops1) : after ops1 X (Proc.devRef .tc b) = X (Proc.devRef .tc b) :=
  after_of_forall_not_mem _ _ (not_mem_writes_of_forall₂ written_ops1 b hb)

/-- The result buffers of stretch `ops2`, in order. -/
def refs_ops2 : List (Ref sig .tc) := [main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44]
theorem written_ops2 : List.Forall₂ (fun op y => op.writes = {Proc.devRef (τ := τ) .tc y}) (ops2 (F := Ideal)) refs_ops2 := by
  unfold refs_ops2
  repeat' (first | exact List.Forall₂.nil | refine List.Forall₂.cons ?_ ?_)
  all_goals rfl
/-- A buffer that stretch `ops2` does not write holds after it what it held before. -/
theorem keep_ops2 (X : Vl) (b : Ref sig .tc) (hb : b ∉ refs_ops2) : after ops2 X (Proc.devRef .tc b) = X (Proc.devRef .tc b) :=
  after_of_forall_not_mem _ _ (not_mem_writes_of_forall₂ written_ops2 b hb)

/-- The result buffers of stretch `ops2b`, in order. -/
def refs_ops2b : List (Ref sig .tc) := [main_v45, main_v46, main_v47, main_call0_cst, main_call0_v0, main_v48]
theorem written_ops2b : List.Forall₂ (fun op y => op.writes = {Proc.devRef (τ := τ) .tc y}) (ops2b (F := Ideal)) refs_ops2b := by
  unfold refs_ops2b
  repeat' (first | exact List.Forall₂.nil | refine List.Forall₂.cons ?_ ?_)
  all_goals rfl
/-- A buffer that stretch `ops2b` does not write holds after it what it held before. -/
theorem keep_ops2b (X : Vl) (b : Ref sig .tc) (hb : b ∉ refs_ops2b) : after ops2b X (Proc.devRef .tc b) = X (Proc.devRef .tc b) :=
  after_of_forall_not_mem _ _ (not_mem_writes_of_forall₂ written_ops2b b hb)

/-- The result buffers of stretch `ops3`, in order. -/
def refs_ops3 : List (Ref sig .tc) := [main_v49, main_cst_8, main_v50, main_cst_9, main_v51, main_v52, main_v53, main_cst_10, main_v54, main_v55, main_v56]
theorem written_ops3 : List.Forall₂ (fun op y => op.writes = {Proc.devRef (τ := τ) .tc y}) (ops3 (F := Ideal)) refs_ops3 := by
  unfold refs_ops3
  repeat' (first | exact List.Forall₂.nil | refine List.Forall₂.cons ?_ ?_)
  all_goals rfl
/-- A buffer that stretch `ops3` does not write holds after it what it held before. -/
theorem keep_ops3 (X : Vl) (b : Ref sig .tc) (hb : b ∉ refs_ops3) : after ops3 X (Proc.devRef .tc b) = X (Proc.devRef .tc b) :=
  after_of_forall_not_mem _ _ (not_mem_writes_of_forall₂ written_ops3 b hb)

/-- The result buffers of stretch `ops4`, in order. -/
def refs_ops4 : List (Ref sig .tc) := [main_c_11, main_v57, main_v58, main_c_12, main_v59, main_v60, main_v61, main_v62, main_v63, main_c_13, main_v64, main_v65, main_c_14, main_v66, main_v67, main_v68, main_v69, main_v70, main_v71, main_c_15, main_v72, main_v73, main_c_16, main_v74, main_v75, main_v76, main_v77, main_v78, main_v79, main_v80, main_v81, main_cst_17, main_v82, main_v83, main_v84, main_v85, main_v86, main_v87, main_v88, main_v89]
theorem written_ops4 : List.Forall₂ (fun op y => op.writes = {Proc.devRef (τ := τ) .tc y}) (ops4 (F := Ideal)) refs_ops4 := by
  unfold refs_ops4
  repeat' (first | exact List.Forall₂.nil | refine List.Forall₂.cons ?_ ?_)
  all_goals rfl
/-- A buffer that stretch `ops4` does not write holds after it what it held before. -/
theorem keep_ops4 (X : Vl) (b : Ref sig .tc) (hb : b ∉ refs_ops4) : after ops4 X (Proc.devRef .tc b) = X (Proc.devRef .tc b) :=
  after_of_forall_not_mem _ _ (not_mem_writes_of_forall₂ written_ops4 b hb)

/-- The result buffers of stretch `ops4b`, in order. -/
def refs_ops4b : List (Ref sig .tc) := [main_v90, main_v91, main_v92, main_call1_cst, main_call1_v0, main_v93]
theorem written_ops4b : List.Forall₂ (fun op y => op.writes = {Proc.devRef (τ := τ) .tc y}) (ops4b (F := Ideal)) refs_ops4b := by
  unfold refs_ops4b
  repeat' (first | exact List.Forall₂.nil | refine List.Forall₂.cons ?_ ?_)
  all_goals rfl
/-- A buffer that stretch `ops4b` does not write holds after it what it held before. -/
theorem keep_ops4b (X : Vl) (b : Ref sig .tc) (hb : b ∉ refs_ops4b) : after ops4b X (Proc.devRef .tc b) = X (Proc.devRef .tc b) :=
  after_of_forall_not_mem _ _ (not_mem_writes_of_forall₂ written_ops4b b hb)

/-- The result buffers of stretch `ops5a`, in order. -/
def refs_ops5a : List (Ref sig .tc) := [main_v94, main_v95, main_v96, main_v97, main_call2_cst, main_call2_v0, main_v98]
theorem written_ops5a : List.Forall₂ (fun op y => op.writes = {Proc.devRef (τ := τ) .tc y}) (ops5a (F := Ideal)) refs_ops5a := by
  unfold refs_ops5a
  repeat' (first | exact List.Forall₂.nil | refine List.Forall₂.cons ?_ ?_)
  all_goals rfl
/-- A buffer that stretch `ops5a` does not write holds after it what it held before. -/
theorem keep_ops5a (X : Vl) (b : Ref sig .tc) (hb : b ∉ refs_ops5a) : after ops5a X (Proc.devRef .tc b) = X (Proc.devRef .tc b) :=
  after_of_forall_not_mem _ _ (not_mem_writes_of_forall₂ written_ops5a b hb)

/-- The result buffers of stretch `ops5b`, in order. -/
def refs_ops5b : List (Ref sig .tc) := [main_v99, main_v100, main_v101, main_v102, main_call3_cst, main_call3_v0, main_v103]
theorem written_ops5b : List.Forall₂ (fun op y => op.writes = {Proc.devRef (τ := τ) .tc y}) (ops5b (F := Ideal)) refs_ops5b := by
  unfold refs_ops5b
  repeat' (first | exact List.Forall₂.nil | refine List.Forall₂.cons ?_ ?_)
  all_goals rfl
/-- A buffer that stretch `ops5b` does not write holds after it what it held before. -/
theorem keep_ops5b (X : Vl) (b : Ref sig .tc) (hb : b ∉ refs_ops5b) : after ops5b X (Proc.devRef .tc b) = X (Proc.devRef .tc b) :=
  after_of_forall_not_mem _ _ (not_mem_writes_of_forall₂ written_ops5b b hb)

/-- The result buffers of stretch `ops5c`, in order. -/
def refs_ops5c : List (Ref sig .tc) := [main_v104, main_v105, main_v106, main_v107, main_call4_cst, main_call4_v0, main_v108]
theorem written_ops5c : List.Forall₂ (fun op y => op.writes = {Proc.devRef (τ := τ) .tc y}) (ops5c (F := Ideal)) refs_ops5c := by
  unfold refs_ops5c
  repeat' (first | exact List.Forall₂.nil | refine List.Forall₂.cons ?_ ?_)
  all_goals rfl
/-- A buffer that stretch `ops5c` does not write holds after it what it held before. -/
theorem keep_ops5c (X : Vl) (b : Ref sig .tc) (hb : b ∉ refs_ops5c) : after ops5c X (Proc.devRef .tc b) = X (Proc.devRef .tc b) :=
  after_of_forall_not_mem _ _ (not_mem_writes_of_forall₂ written_ops5c b hb)

theorem T1_keeps (V : Vl) (b : Ref sig .tc) (h0 : b ∉ refs_ops1) : T1 V (Proc.devRef .tc b) = V (Proc.devRef .tc b) :=
  keep_ops1 V b h0
theorem T2_keeps (V : Vl) (b : Ref sig .tc) (h0 : b ∉ refs_ops1) (h1 : b ∉ refs_ops2) : T2 V (Proc.devRef .tc b) = V (Proc.devRef .tc b) :=
  (keep_ops2 (T1 V) b h1).trans (T1_keeps V b h0)
theorem T2b_keeps (V : Vl) (b : Ref sig .tc) (h0 : b ∉ refs_ops1) (h1 : b ∉ refs_ops2) (h2 : b ∉ refs_ops2b) : T2b V (Proc.devRef .tc b) = V (Proc.devRef .tc b) :=
  (keep_ops2b (T2 V) b h2).trans (T2_keeps V b h0 h1)
theorem T3_keeps (V : Vl) (b : Ref sig .tc) (h0 : b ∉ refs_ops1) (h1 : b ∉ refs_ops2) (h2 : b ∉ refs_ops2b) (h3 : b ∉ refs_ops3) : T3 V (Proc.devRef .tc b) = V (Proc.devRef .tc b) :=
  (keep_ops3 (T2b V) b h3).trans (T2b_keeps V b h0 h1 h2)
theorem T4_keeps (V : Vl) (b : Ref sig .tc) (h0 : b ∉ refs_ops1) (h1 : b ∉ refs_ops2) (h2 : b ∉ refs_ops2b) (h3 : b ∉ refs_ops3) (h4 : b ∉ refs_ops4) : T4 V (Proc.devRef .tc b) = V (Proc.devRef .tc b) :=
  (keep_ops4 (T3 V) b h4).trans (T3_keeps V b h0 h1 h2 h3)
theorem T4b_keeps (V : Vl) (b : Ref sig .tc) (h0 : b ∉ refs_ops1) (h1 : b ∉ refs_ops2) (h2 : b ∉ refs_ops2b) (h3 : b ∉ refs_ops3) (h4 : b ∉ refs_ops4) (h5 : b ∉ refs_ops4b) : T4b V (Proc.devRef .tc b) = V (Proc.devRef .tc b) :=
  (keep_ops4b (T4 V) b h5).trans (T4_keeps V b h0 h1 h2 h3 h4)
theorem T5a_keeps (V : Vl) (b : Ref sig .tc) (h0 : b ∉ refs_ops1) (h1 : b ∉ refs_ops2) (h2 : b ∉ refs_ops2b) (h3 : b ∉ refs_ops3) (h4 : b ∉ refs_ops4) (h5 : b ∉ refs_ops4b) (h6 : b ∉ refs_ops5a) : T5a V (Proc.devRef .tc b) = V (Proc.devRef .tc b) :=
  (keep_ops5a (T4b V) b h6).trans (T4b_keeps V b h0 h1 h2 h3 h4 h5)
theorem T5b_keeps (V : Vl) (b : Ref sig .tc) (h0 : b ∉ refs_ops1) (h1 : b ∉ refs_ops2) (h2 : b ∉ refs_ops2b) (h3 : b ∉ refs_ops3) (h4 : b ∉ refs_ops4) (h5 : b ∉ refs_ops4b) (h6 : b ∉ refs_ops5a) (h7 : b ∉ refs_ops5b) : T5b V (Proc.devRef .tc b) = V (Proc.devRef .tc b) :=
  (keep_ops5b (T5a V) b h7).trans (T5a_keeps V b h0 h1 h2 h3 h4 h5 h6)

/-- No operation writes an argument buffer (or any buffer that is no operation's result). -/
theorem keepAll (V : Vl) (b : Ref sig .tc) (h0 : b ∉ refs_ops1) (h1 : b ∉ refs_ops2) (h2 : b ∉ refs_ops2b) (h3 : b ∉ refs_ops3) (h4 : b ∉ refs_ops4) (h5 : b ∉ refs_ops4b) (h6 : b ∉ refs_ops5a) (h7 : b ∉ refs_ops5b) (h8 : b ∉ refs_ops5c) :
    after (ops (F := Ideal)) V (Proc.devRef .tc b) = V (Proc.devRef .tc b) := by
  rw [after_ops]
  exact (keep_ops5c (T5b V) b h8).trans (T5b_keeps V b h0 h1 h2 h3 h4 h5 h6 h7)

/-! ## The stretches, read

    Each stretch is read over a VARIABLE for the contents at its entry, and then instantiated at the contents the
    earlier stretches leave. -/

theorem T1_src (V : Vl) : T1 V (Proc.devRef .tc main_v1) = srcT (V (Proc.devRef .tc main_arg1)) := by
  show after ops1 V (Proc.devRef .tc main_v1) = _
  after_results_simp
  rfl
theorem T1_dst (V : Vl) : T1 V (Proc.devRef .tc main_v3) = dstT (V (Proc.devRef .tc main_arg1)) := by
  show after ops1 V (Proc.devRef .tc main_v3) = _
  after_results_simp
  rfl
theorem T1_h1 (V : Vl) : T1 V (Proc.devRef .tc main_v4) = h1RefT (V (Proc.devRef .tc main_arg0)) (V (Proc.devRef .tc main_arg3)) := by
  show after ops1 V (Proc.devRef .tc main_v4) = _
  after_results_simp
  rfl
theorem T1_dinv (V : Vl) : T1 V (Proc.devRef .tc main_v11) = dinvT (dstT (V (Proc.devRef .tc main_arg1))) := by
  show after ops1 V (Proc.devRef .tc main_v11) = _
  after_results_simp
  rfl

theorem s_T2_agg (Y : Vl) :
    after ops2 Y (Proc.devRef .tc main_v44)
      = agg16T (Y (Proc.devRef .tc main_v4)) (Y (Proc.devRef .tc main_v1)) (Y (Proc.devRef .tc main_v3)) (Y (Proc.devRef .tc main_v11)) := by
  after_results_simp
  rfl
theorem T2_agg (V : Vl) :
    T2 V (Proc.devRef .tc main_v44)
      = agg16T (T1 V (Proc.devRef .tc main_v4)) (T1 V (Proc.devRef .tc main_v1)) (T1 V (Proc.devRef .tc main_v3)) (T1 V (Proc.devRef .tc main_v11)) :=
  s_T2_agg (T1 V)

theorem s_T2b_ppi (Y : Vl) :
    after ops2b Y (Proc.devRef .tc main_v48)
      = brelu16RefT (Y (Proc.devRef .tc main_v44)) (Y (Proc.devRef .tc main_arg4)) := by
  after_results_simp
  rfl
theorem T2b_ppi (V : Vl) : T2b V (Proc.devRef .tc main_v48) = brelu16RefT (T2 V (Proc.devRef .tc main_v44)) (T2 V (Proc.devRef .tc main_arg4)) :=
  s_T2b_ppi (T2 V)

theorem s_T3_h2 (Y : Vl) :
    after ops3 Y (Proc.devRef .tc main_v49)
      = h2RefT (Y (Proc.devRef .tc main_v48)) (Y (Proc.devRef .tc main_arg5)) := by
  after_results_simp
  rfl
theorem T3_h2 (V : Vl) : T3 V (Proc.devRef .tc main_v49) = h2RefT (T2b V (Proc.devRef .tc main_v48)) (T2b V (Proc.devRef .tc main_arg5)) :=
  s_T3_h2 (T2b V)
theorem s_T3_dinv (Y : Vl) :
    after ops3 Y (Proc.devRef .tc main_v56)
      = dinvT (Y (Proc.devRef .tc main_v3)) := by
  after_results_simp
  rfl
theorem T3_dinv (V : Vl) : T3 V (Proc.devRef .tc main_v56) = dinvT (T2b V (Proc.devRef .tc main_v3)) :=
  s_T3_dinv (T2b V)

theorem s_T4_agg (Y : Vl) :
    after ops4 Y (Proc.devRef .tc main_v89)
      = agg32T (Y (Proc.devRef .tc main_v49)) (Y (Proc.devRef .tc main_v1)) (Y (Proc.devRef .tc main_v3)) (Y (Proc.devRef .tc main_v56)) := by
  after_results_simp
  rfl
theorem T4_agg (V : Vl) :
    T4 V (Proc.devRef .tc main_v89)
      = agg32T (T3 V (Proc.devRef .tc main_v49)) (T3 V (Proc.devRef .tc main_v1)) (T3 V (Proc.devRef .tc main_v3)) (T3 V (Proc.devRef .tc main_v56)) :=
  s_T4_agg (T3 V)

theorem s_T4b_out (Y : Vl) :
    after ops4b Y (Proc.devRef .tc main_v93)
      = brelu32RefT (Y (Proc.devRef .tc main_v89)) (Y (Proc.devRef .tc main_arg6)) := by
  after_results_simp
  rfl
theorem T4b_out (V : Vl) : T4b V (Proc.devRef .tc main_v93) = brelu32RefT (T4 V (Proc.devRef .tc main_v89)) (T4 V (Proc.devRef .tc main_arg6)) :=
  s_T4b_out (T4 V)

theorem s_T5a_l1 (Y : Vl) :
    after ops5a Y (Proc.devRef .tc main_v98)
      = RefDdi.l1T (Y (Proc.devRef .tc main_arg2)) (Y (Proc.devRef .tc main_arg7)) (Y (Proc.devRef .tc main_arg8)) := by
  after_results_simp
  rfl
theorem T5a_l1 (V : Vl) :
    T5a V (Proc.devRef .tc main_v98) = RefDdi.l1T (T4b V (Proc.devRef .tc main_arg2)) (T4b V (Proc.devRef .tc main_arg7)) (T4b V (Proc.devRef .tc main_arg8)) :=
  s_T5a_l1 (T4b V)
theorem s_T5b_l2 (Y : Vl) :
    after ops5b Y (Proc.devRef .tc main_v103)
      = RefDdi.l2T (Y (Proc.devRef .tc main_v98)) (Y (Proc.devRef .tc main_arg9)) (Y (Proc.devRef .tc main_arg10)) := by
  after_results_simp
  rfl
theorem T5b_l2 (V : Vl) :
    T5b V (Proc.devRef .tc main_v103) = RefDdi.l2T (T5a V (Proc.devRef .tc main_v98)) (T5a V (Proc.devRef .tc main_arg9)) (T5a V (Proc.devRef .tc main_arg10)) :=
  s_T5b_l2 (T5a V)
theorem s_T5c_l3 (Y : Vl) :
    after ops5c Y (Proc.devRef .tc main_v108)
      = RefDdi.l3T (Y (Proc.devRef .tc main_v103)) (Y (Proc.devRef .tc main_arg11)) (Y (Proc.devRef .tc main_arg12)) := by
  after_results_simp
  rfl
theorem T5c_l3 (V : Vl) :
    after ops5c (T5b V) (Proc.devRef .tc main_v108)
      = RefDdi.l3T (T5b V (Proc.devRef .tc main_v103)) (T5b V (Proc.devRef .tc main_arg11)) (T5b V (Proc.devRef .tc main_arg12)) :=
  s_T5c_l3 (T5b V)

/-! ## One stretch at a time, in the form of the named contents -/

theorem T2_step (V : Vl) (b : Ref sig .tc) (hb : b ∉ refs_ops2) : T2 V (Proc.devRef .tc b) = T1 V (Proc.devRef .tc b) :=
  keep_ops2 (T1 V) b hb
theorem T2b_step (V : Vl) (b : Ref sig .tc) (hb : b ∉ refs_ops2b) : T2b V (Proc.devRef .tc b) = T2 V (Proc.devRef .tc b) :=
  keep_ops2b (T2 V) b hb
theorem T3_step (V : Vl) (b : Ref sig .tc) (hb : b ∉ refs_ops3) : T3 V (Proc.devRef .tc b) = T2b V (Proc.devRef .tc b) :=
  keep_ops3 (T2b V) b hb
theorem T4_step (V : Vl) (b : Ref sig .tc) (hb : b ∉ refs_ops4) : T4 V (Proc.devRef .tc b) = T3 V (Proc.devRef .tc b) :=
  keep_ops4 (T3 V) b hb
theorem T4b_step (V : Vl) (b : Ref sig .tc) (hb : b ∉ refs_ops4b) : T4b V (Proc.devRef .tc b) = T4 V (Proc.devRef .tc b) :=
  keep_ops4b (T4 V) b hb
theorem T5a_step (V : Vl) (b : Ref sig .tc) (hb : b ∉ refs_ops5a) : T5a V (Proc.devRef .tc b) = T4b V (Proc.devRef .tc b) :=
  keep_ops5a (T4b V) b hb
theorem T5b_step (V : Vl) (b : Ref sig .tc) (hb : b ∉ refs_ops5b) : T5b V (Proc.devRef .tc b) = T5a V (Proc.devRef .tc b) :=
  keep_ops5b (T5a V) b hb

end Cert.Gcn.RFold

end
-- ==== Proof.RefResults.lean ====
/-
  The reference's two results as functions of the argument buffers' launch contents: the stretches' readings chained,
  the arguments and the early results carried across the stretches that do not write them.
-/
import proofs.«125731_j33835752358234_2_alg».proof.Proof.RefFold

set_option maxRecDepth 16384

noncomputable section

namespace Cert.Gcn.RFold

open Cert.ReferenceIdeal Cert.ReferenceIdeal.Gen Cert.ReferenceIdeal.ValueP Cert.ReferenceIdeal.Facts₀ Cert.Gcn Cert.Lib
open Idealize.ShloMosaic Idealize.ShloMosaic.TcCoe Idealize.SL.Sem Idealize.ShloMosaic.StableHlo

/-- The hidden features after the first layer, as the reference computes them. -/
def ppi1 (V : Vl) : FArr S100000x16 :=
  brelu16RefT (agg16T (h1RefT (V (Proc.devRef .tc main_arg0)) (V (Proc.devRef .tc main_arg3))) (srcT (V (Proc.devRef .tc main_arg1))) (dstT (V (Proc.devRef .tc main_arg1)))
    (dinvT (dstT (V (Proc.devRef .tc main_arg1))))) (V (Proc.devRef .tc main_arg4))

theorem ref_ppi (V : Vl) :
    after (ops (F := Ideal)) V (Proc.devRef .tc main_v93)
      = brelu32RefT (agg32T (h2RefT (ppi1 V) (V (Proc.devRef .tc main_arg5))) (srcT (V (Proc.devRef .tc main_arg1))) (dstT (V (Proc.devRef .tc main_arg1)))
          (dinvT (dstT (V (Proc.devRef .tc main_arg1))))) (V (Proc.devRef .tc main_arg6)) := by
  rw [after_ops, keep_ops5c (T5b V) main_v93 (by decide), T5b_step V main_v93 (by decide), T5a_step V main_v93 (by decide),
    T4b_out, T4_agg, T3_h2, T3_dinv, T2b_ppi, T2_agg,
    T4_keeps V main_arg6 (by decide) (by decide) (by decide) (by decide) (by decide),
    T3_step V main_v1 (by decide), T2b_step V main_v1 (by decide), T2_step V main_v1 (by decide), T1_src,
    T3_step V main_v3 (by decide), T2b_step V main_v3 (by decide), T2_step V main_v3 (by decide), T1_dst,
    T2b_keeps V main_arg5 (by decide) (by decide) (by decide), T2_keeps V main_arg4 (by decide) (by decide), T1_h1, T1_dinv]
  unfold ppi1
  with_reducible rfl

theorem ref_ddi (V : Vl) :
    after (ops (F := Ideal)) V (Proc.devRef .tc main_v108)
      = ddiRefT (V (Proc.devRef .tc main_arg2)) (V (Proc.devRef .tc main_arg7)) (V (Proc.devRef .tc main_arg8)) (V (Proc.devRef .tc main_arg9))
          (V (Proc.devRef .tc main_arg10)) (V (Proc.devRef .tc main_arg11)) (V (Proc.devRef .tc main_arg12)) := by
  rw [after_ops, T5c_l3, T5b_l2, T5a_l1, RefDdi.ddiRefT_eq_layers,
    T5b_keeps V main_arg11 (by decide) (by decide) (by decide) (by decide) (by decide) (by decide) (by decide) (by decide), T5b_keeps V main_arg12 (by decide) (by decide) (by decide) (by decide) (by decide) (by decide) (by decide) (by decide),
    T5a_keeps V main_arg9 (by decide) (by decide) (by decide) (by decide) (by decide) (by decide) (by decide), T5a_keeps V main_arg10 (by decide) (by decide) (by decide) (by decide) (by decide) (by decide) (by decide),
    T4b_keeps V main_arg2 (by decide) (by decide) (by decide) (by decide) (by decide) (by decide), T4b_keeps V main_arg7 (by decide) (by decide) (by decide) (by decide) (by decide) (by decide), T4b_keeps V main_arg8 (by decide) (by decide) (by decide) (by decide) (by decide) (by decide)]

end Cert.Gcn.RFold

end
-- ==== Proof.Runs.lean ====
/-
  The two idealized programs' runs with their results named as functions of the argument buffers' launch contents:
  the kernel program's through its regions and host stretches, the reference's through its line of host operations.
  Both end with the arguments as launched.
-/
import proofs.«125731_j33835752358234_2_alg».proof.Proof.KRunValues
import proofs.«125731_j33835752358234_2_alg».proof.Proof.KValue
import proofs.«125731_j33835752358234_2_alg».proof.Proof.RefResults

set_option maxRecDepth 16384

noncomputable section

namespace Cert.Gcn.Runs

open Idealize.ShloMosaic Idealize.ShloMosaic.TcCoe Idealize.SL.Sem Cert.Gcn

/-- Every weakly fair execution of the kernel program terminates without a fault, with the first result at
    `kernelPpi` and the second at `kernelDdi` of the launch contents of the arguments, which end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v81)
        = kernelPpi (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v85)
        = kernelDdi (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono
    (fun r h c => ⟨(h c).1.trans (KValue.W8_ppi m ρ c), (h c).2.1.trans (KValue.W8_ddi m ρ c), (h c).2.2⟩)
    (KRun.run_values (F := Ideal) m ρ)

/-- The reference's first result, read at the launch contents, is `refPpi` of the arguments' launch contents. -/
theorem ref_ppi_m (m : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (StableHlo.launchContents m c) (Proc.devRef .tc Cert.ReferenceIdeal.main_v93)
      = refPpi (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) := by
  rw [RFold.ref_ppi]
  unfold RFold.ppi1 refPpi
  rfl

/-- Every weakly fair execution of the reference terminates without a fault, with the first result at `refPpi` and
    the second at `ddiRefT` of the launch contents of the arguments, which end unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v93)
        = refPpi (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v108)
        = ddiRefT (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run (Cert.ReferenceIdeal.defs (F := Ideal)) _ _).mono
    (fun r h c => ⟨(h c Cert.ReferenceIdeal.main_v93).trans (ref_ppi_m m c), (h c Cert.ReferenceIdeal.main_v108).trans (RFold.ref_ddi _),
      (h c Cert.ReferenceIdeal.main_arg0).trans (RFold.keepAll _ Cert.ReferenceIdeal.main_arg0 (by decide) (by decide) (by decide) (by decide) (by decide) (by decide) (by decide) (by decide) (by decide)),
      (h c Cert.ReferenceIdeal.main_arg1).trans (RFold.keepAll _ Cert.ReferenceIdeal.main_arg1 (by decide) (by decide) (by decide) (by decide) (by decide) (by decide) (by decide) (by decide) (by decide)),
      (h c Cert.ReferenceIdeal.main_arg2).trans (RFold.keepAll _ Cert.ReferenceIdeal.main_arg2 (by decide) (by decide) (by decide) (by decide) (by decide) (by decide) (by decide) (by decide) (by decide)),
      (h c Cert.ReferenceIdeal.main_arg3).trans (RFold.keepAll _ Cert.ReferenceIdeal.main_arg3 (by decide) (by decide) (by decide) (by decide) (by decide) (by decide) (by decide) (by decide) (by decide)),
      (h c Cert.ReferenceIdeal.main_arg4).trans (RFold.keepAll _ Cert.ReferenceIdeal.main_arg4 (by decide) (by decide) (by decide) (by decide) (by decide) (by decide) (by decide) (by decide) (by decide)),
      (h c Cert.ReferenceIdeal.main_arg5).trans (RFold.keepAll _ Cert.ReferenceIdeal.main_arg5 (by decide) (by decide) (by decide) (by decide) (by decide) (by decide) (by decide) (by decide) (by decide)),
      (h c Cert.ReferenceIdeal.main_arg6).trans (RFold.keepAll _ Cert.ReferenceIdeal.main_arg6 (by decide) (by decide) (by decide) (by decide) (by decide) (by decide) (by decide) (by decide) (by decide)),
      (h c Cert.ReferenceIdeal.main_arg7).trans (RFold.keepAll _ Cert.ReferenceIdeal.main_arg7 (by decide) (by decide) (by decide) (by decide) (by decide) (by decide) (by decide) (by decide) (by decide)),
      (h c Cert.ReferenceIdeal.main_arg8).trans (RFold.keepAll _ Cert.ReferenceIdeal.main_arg8 (by decide) (by decide) (by decide) (by decide) (by decide) (by decide) (by decide) (by decide) (by decide)),
      (h c Cert.ReferenceIdeal.main_arg9).trans (RFold.keepAll _ Cert.ReferenceIdeal.main_arg9 (by decide) (by decide) (by decide) (by decide) (by decide) (by decide) (by decide) (by decide) (by decide)),
      (h c Cert.ReferenceIdeal.main_arg10).trans (RFold.keepAll _ Cert.ReferenceIdeal.main_arg10 (by decide) (by decide) (by decide) (by decide) (by decide) (by decide) (by decide) (by decide) (by decide)),
      (h c Cert.ReferenceIdeal.main_arg11).trans (RFold.keepAll _ Cert.ReferenceIdeal.main_arg11 (by decide) (by decide) (by decide) (by decide) (by decide) (by decide) (by decide) (by decide) (by decide)),
      (h c Cert.ReferenceIdeal.main_arg12).trans (RFold.keepAll _ Cert.ReferenceIdeal.main_arg12 (by decide) (by decide) (by decide) (by decide) (by decide) (by decide) (by decide) (by decide) (by decide))⟩)
    (Cert.ReferenceIdeal.ValueP.run_after (F := Ideal) m ρ)

end Cert.Gcn.Runs

end
-- ==== Proof.RowOfVector.lean ====
/-
  A vector reshaped to a one-row matrix: the row is the vector. Both read the same row-major position.
-/
import proofs.«125731_j33835752358234_2_alg».proof.Proof.Spec
import Idealize.ShloMosaic.Lib.Pipeline.Value
import Idealize.ShloMosaic.Lib.ValueIdx

noncomputable section

namespace Cert.Gcn

open Idealize.ShloMosaic Idealize.ShloMosaic.ValueIdx

/-- A vector reshaped to a one-row matrix: its row is the vector. -/
theorem row0_shapeCast {a : ℕ} (v : (⟨1, ![a]⟩ : Shape).Idx → EReal) (h : (⟨1, ![a]⟩ : Shape).ShapeCasts ⟨2, ![1, a]⟩) :
    row0 (shapeCast ⟨2, ![1, a]⟩ v h) = curry1 v := by
  funext q
  show shapeCast ⟨2, ![1, a]⟩ v h (ix2 (0 : Fin 1) q) = v (ix1 q)
  refine shapeCast_apply v h (ix2 (0 : Fin 1) q) (ix1 q) ?_
  rw [Shape.rowMajor_val_one, Shape.rowMajor_val_two]
  show q.val = (0 : Fin 1).val * a + q.val
  rw [Fin.val_zero, Nat.zero_mul, Nat.zero_add]

end Cert.Gcn

end
-- ==== Proof.RefLayers.lean ====
/-
  The reference's dense layers on the node features, read entry by entry.

  A matrix product with one contracted axis is, at row `p` and column `q`, the sum over the contracted coordinate `j` of
  the left operand at `(p, j)` times the right operand at `(j, q)`: the contraction's index set has one axis, so it is
  the set of its coordinates, and the operand indices at a result index and a contraction index are the evident ones.
  A bias broadcast along the rows reads its entry at the column, and the rectifier is the maximum with zero.
-/
import proofs.«125731_j33835752358234_2_alg».proof.Proof.HostTerms
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Cert.ReferenceIdeal Cert.ReferenceIdeal.Facts₀

/-! ### The matrix product `[100000, 512] × [512, 16]`: the operand indices at a result index and a contraction index -/

theorem dotH1_lhs0 (i : S100000x16.Idx) (c : dot_S100000x512_S512x16_S100000x16_1_0_0_1_n_n.contr.Idx) :
    (dot_S100000x512_S512x16_S100000x16_1_0_0_1_n_n.lhsIdx i c 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem dotH1_lhs1 (i : S100000x16.Idx) (c : dot_S100000x512_S512x16_S100000x16_1_0_0_1_n_n.contr.Idx) :
    (dot_S100000x512_S512x16_S100000x16_1_0_0_1_n_n.lhsIdx i c 1).val = (c ⟨0, by decide⟩).val :=
  dot_S100000x512_S512x16_S100000x16_1_0_0_1_n_n.lhsIdx_val_of_single rfl i c
theorem dotH1_rhs0 (i : S100000x16.Idx) (c : dot_S100000x512_S512x16_S100000x16_1_0_0_1_n_n.contr.Idx) :
    (dot_S100000x512_S512x16_S100000x16_1_0_0_1_n_n.rhsIdx i c 0).val = (c ⟨0, by decide⟩).val :=
  dot_S100000x512_S512x16_S100000x16_1_0_0_1_n_n.rhsIdx_val_of_single rfl i c
theorem dotH1_rhs1 (i : S100000x16.Idx) (c : dot_S100000x512_S512x16_S100000x16_1_0_0_1_n_n.contr.Idx) :
    (dot_S100000x512_S512x16_S100000x16_1_0_0_1_n_n.rhsIdx i c 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The first layer's product of the node features with its weights, entry by entry. -/
theorem h1RefT_apply (a0 : FArr S100000x512) (a3 : FArr S512x16) (p : Fin 100000) (q : Fin 16) :
    h1RefT a0 a3 (ix2 p q) = lin (curry2 a0) (curry2 a3) p q := by
  show h1RefT a0 a3 (ix2 p q) = ∑ j : Fin 512, a0 (ix2 p j) * a3 (ix2 j q)
  unfold h1RefT
  simp only [Host.dotGeneral]
  rw [Ideal.dotGeneral_apply, ← Equiv.sum_comp (contrEquiv1 dot_S100000x512_S512x16_S100000x16_1_0_0_1_n_n 512 rfl rfl).symm]
  refine Finset.sum_congr rfl fun j _ => ?_
  have hj := contrEquiv1_symm_val dot_S100000x512_S512x16_S100000x16_1_0_0_1_n_n 512 rfl rfl j
  have el : dot_S100000x512_S512x16_S100000x16_1_0_0_1_n_n.lhsIdx (ix2 p q) ((contrEquiv1 dot_S100000x512_S512x16_S100000x16_1_0_0_1_n_n 512 rfl rfl).symm j) = ix2 p j := funext fun a => Fin.ext (by
    match a with
    | ⟨0, _⟩ => exact dotH1_lhs0 _ _
    | ⟨1, _⟩ => exact (dotH1_lhs1 _ _).trans hj)
  have er : dot_S100000x512_S512x16_S100000x16_1_0_0_1_n_n.rhsIdx (ix2 p q) ((contrEquiv1 dot_S100000x512_S512x16_S100000x16_1_0_0_1_n_n 512 rfl rfl).symm j) = ix2 j q := funext fun a => Fin.ext (by
    match a with
    | ⟨0, _⟩ => exact (dotH1_rhs0 _ _).trans hj
    | ⟨1, _⟩ => exact dotH1_rhs1 _ _)
  rw [el, er]

/-! ### The matrix product `[100000, 16] × [16, 32]`: the operand indices at a result index and a contraction index -/

theorem dotH2_lhs0 (i : S100000x32.Idx) (c : dot_S100000x16_S16x32_S100000x32_1_0_0_1_n_n.contr.Idx) :
    (dot_S100000x16_S16x32_S100000x32_1_0_0_1_n_n.lhsIdx i c 0).val = (i 0).val := by
  unfold DotDims.lhsIdx
  rw [dif_neg (show ¬(0 : Fin S100000x16.rank) ∈ dot_S100000x16_S16x32_S100000x32_1_0_0_1_n_n.lhsBatch by decide), dif_pos (show (0 : Fin S100000x16.rank) ∈ dot_S100000x16_S16x32_S100000x32_1_0_0_1_n_n.lhsNonContracting by decide)]
  rfl
theorem dotH2_lhs1 (i : S100000x32.Idx) (c : dot_S100000x16_S16x32_S100000x32_1_0_0_1_n_n.contr.Idx) :
    (dot_S100000x16_S16x32_S100000x32_1_0_0_1_n_n.lhsIdx i c 1).val = (c ⟨0, by decide⟩).val :=
  dot_S100000x16_S16x32_S100000x32_1_0_0_1_n_n.lhsIdx_val_of_single rfl i c
theorem dotH2_rhs0 (i : S100000x32.Idx) (c : dot_S100000x16_S16x32_S100000x32_1_0_0_1_n_n.contr.Idx) :
    (dot_S100000x16_S16x32_S100000x32_1_0_0_1_n_n.rhsIdx i c 0).val = (c ⟨0, by decide⟩).val :=
  dot_S100000x16_S16x32_S100000x32_1_0_0_1_n_n.rhsIdx_val_of_single rfl i c
theorem dotH2_rhs1 (i : S100000x32.Idx) (c : dot_S100000x16_S16x32_S100000x32_1_0_0_1_n_n.contr.Idx) :
    (dot_S100000x16_S16x32_S100000x32_1_0_0_1_n_n.rhsIdx i c 1).val = (i 1).val := by
  unfold DotDims.rhsIdx
  rw [dif_neg (show ¬(1 : Fin S16x32.rank) ∈ dot_S100000x16_S16x32_S100000x32_1_0_0_1_n_n.rhsBatch by decide), dif_pos (show (1 : Fin S16x32.rank) ∈ dot_S100000x16_S16x32_S100000x32_1_0_0_1_n_n.rhsNonContracting by decide)]
  rfl

/-- The second layer's product of the hidden features with its weights, entry by entry. -/
theorem h2RefT_apply (x : FArr S100000x16) (a5 : FArr S16x32) (p : Fin 100000) (q : Fin 32) :
    h2RefT x a5 (ix2 p q) = lin (curry2 x) (curry2 a5) p q := by
  show h2RefT x a5 (ix2 p q) = ∑ j : Fin 16, x (ix2 p j) * a5 (ix2 j q)
  unfold h2RefT
  simp only [Host.dotGeneral]
  rw [Ideal.dotGeneral_apply, ← Equiv.sum_comp (contrEquiv1 dot_S100000x16_S16x32_S100000x32_1_0_0_1_n_n 16 rfl rfl).symm]
  refine Finset.sum_congr rfl fun j _ => ?_
  have hj := contrEquiv1_symm_val dot_S100000x16_S16x32_S100000x32_1_0_0_1_n_n 16 rfl rfl j
  have el : dot_S100000x16_S16x32_S100000x32_1_0_0_1_n_n.lhsIdx (ix2 p q) ((contrEquiv1 dot_S100000x16_S16x32_S100000x32_1_0_0_1_n_n 16 rfl rfl).symm j) = ix2 p j := funext fun a => Fin.ext (by
    match a with
    | ⟨0, _⟩ => exact dotH2_lhs0 _ _
    | ⟨1, _⟩ => exact (dotH2_lhs1 _ _).trans hj)
  have er : dot_S100000x16_S16x32_S100000x32_1_0_0_1_n_n.rhsIdx (ix2 p q) ((contrEquiv1 dot_S100000x16_S16x32_S100000x32_1_0_0_1_n_n 16 rfl rfl).symm j) = ix2 j q := funext fun a => Fin.ext (by
    match a with
    | ⟨0, _⟩ => exact (dotH2_rhs0 _ _).trans hj
    | ⟨1, _⟩ => exact dotH2_rhs1 _ _)
  rw [el, er]

/-- A bias of length 16, made a one-row matrix and repeated along the 100000 rows, read at row `p`, column `q`, is its
    entry `q`. -/
theorem bias16_apply (b : FArr S16) (p : Fin 100000) (q : Fin 16) :
    broadcastInDim S100000x16 ![0, 1] bcast_S1x16_S100000x16_0_1 (broadcastInDim S1x16 ![1] bcast_S16_S1x16_1 b) (ix2 p q) = b (ix1 q) := by
  rw [broadcastInDim_apply _ bcast_S1x16_S100000x16_0_1 _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])]
  exact broadcastInDim_apply _ bcast_S16_S1x16_1 b (ix2 (0 : Fin 1) q) (ix1 q) (fun a => match a with
    | ⟨0, _⟩ => by show q.val = if (16 : Nat) = 1 then 0 else q.val; rw [if_neg (by decide)])

/-- Bias and rectifier at width 16, entry by entry: `max (a p q + b q) 0`. The zero the maximum is taken with is the
    zero word's value, the real number zero. -/
theorem brelu16RefT_apply (a : FArr S100000x16) (b : FArr S16) (p : Fin 100000) (q : Fin 16) :
    brelu16RefT a b (ix2 p q) = brelu (curry2 a) (curry1 b) p q := by
  show brelu16RefT a b (ix2 p q) = max (a (ix2 p q) + b (ix1 q)) 0
  unfold brelu16RefT
  rw [maximumf_apply, addf_apply, bias16_apply]
  show max (a (ix2 p q) + b (ix1 q)) (Ideal.ofBits .f32 0x00000000#32) = _
  rw [Ideal.ofBits_zero_f32]

/-- A bias of length 32, made a one-row matrix and repeated along the 100000 rows, read at row `p`, column `q`, is its
    entry `q`. -/
theorem bias32_apply (b : FArr S32) (p : Fin 100000) (q : Fin 32) :
    broadcastInDim S100000x32 ![0, 1] bcast_S1x32_S100000x32_0_1 (broadcastInDim S1x32 ![1] bcast_S32_S1x32_1 b) (ix2 p q) = b (ix1 q) := by
  rw [broadcastInDim_apply _ bcast_S1x32_S100000x32_0_1 _ (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])]
  exact broadcastInDim_apply _ bcast_S32_S1x32_1 b (ix2 (0 : Fin 1) q) (ix1 q) (fun a => match a with
    | ⟨0, _⟩ => by show q.val = if (32 : Nat) = 1 then 0 else q.val; rw [if_neg (by decide)])

/-- Bias and rectifier at width 32, entry by entry: `max (a p q + b q) 0`. The zero the maximum is taken with is the
    zero word's value, the real number zero. -/
theorem brelu32RefT_apply (a : FArr S100000x32) (b : FArr S32) (p : Fin 100000) (q : Fin 32) :
    brelu32RefT a b (ix2 p q) = brelu (curry2 a) (curry1 b) p q := by
  show brelu32RefT a b (ix2 p q) = max (a (ix2 p q) + b (ix1 q)) 0
  unfold brelu32RefT
  rw [maximumf_apply, addf_apply, bias32_apply]
  show max (a (ix2 p q) + b (ix1 q)) (Ideal.ofBits .f32 0x00000000#32) = _
  rw [Ideal.ofBits_zero_f32]

end Cert.Gcn

end
-- ==== Proof.Algebra.lean ====
/-
  The algebra of the two programs over the extended reals.

  The extended reals are not a ring: a product does not distribute over a sum when infinities are present. Every
  quantity of the graph-convolution layer is, however, a real number as soon as the feature and weight entries are: the
  degree of a node is one plus a count, so its inverse square root is a positive real; an edge's weight is a product of
  two such; a matrix product, an aggregation, a bias and a rectifier are finite sums, products and maxima of reals.
  Between reals the extended reals' sum and product are the reals' own, so the identities of real algebra hold. The one
  used here: aggregating over the graph and then multiplying by a weight matrix on the feature axis is multiplying first
  and aggregating afterwards — both are the same finite double sum, read in its two orders.
-/
import proofs.«125731_j33835752358234_2_alg».proof.Proof.Spec

noncomputable section

open scoped BigOperators

namespace Cert.Gcn

open Idealize.ShloMosaic

/-! ## Real numbers among the extended reals are closed under the operations used -/

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type} (s : Finset ι) (f : ι → EReal) (h : ∀ i ∈ s, IsReal (f i)) : IsReal (∑ i ∈ s, f i) :=
  Finset.sum_induction f IsReal (fun _ _ ha hb => ha.add hb) isReal_zero h

/-- The inclusion of the reals carries a finite sum to the finite sum. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The layer's quantities are reals -/

/-- One plus a count is a real that is at least one, and the inverse square root of a positive real is a real. -/
theorem isReal_rsqrt_count {ι : Type} (S : Finset ι) : IsReal (Ideal.rsqrt ((0 + ∑ _e ∈ S, (1 : EReal)) + 1)) := by
  have h1 : (∑ _e ∈ S, (1 : EReal)) = ((∑ _e ∈ S, (1 : ℝ) : ℝ) : EReal) := by
    rw [coe_sum]; simp only [EReal.coe_one]
  have h0 : (0 : ℝ) ≤ ∑ _e ∈ S, (1 : ℝ) := Finset.sum_nonneg fun _ _ => zero_le_one
  have hpos : ¬ ((∑ _e ∈ S, (1 : ℝ)) + 1 < 0) := by linarith
  have hne : ¬ ((∑ _e ∈ S, (1 : ℝ)) + 1 = 0) := by linarith
  rw [h1, zero_add, ← EReal.coe_one, ← EReal.coe_add, Ideal.rsqrt_coe, if_neg hpos, if_neg hne]
  exact ⟨_, rfl⟩

section Graph

variable {N E : ℕ} (sgn : Fin E → ℤ) (sR dR : Fin E → Fin N)

theorem isReal_dinv (n : Fin N) : IsReal (dinv sgn n) := isReal_rsqrt_count _

theorem isReal_nrm (e : Fin E) : IsReal (nrm sgn sR dR e) :=
  (isReal_dinv sgn (sR e)).mul (isReal_dinv sgn (dR e))

theorem isReal_lin {n k m : ℕ} {A : Fin n → Fin k → EReal} {W : Fin k → Fin m → EReal}
    (hA : ∀ p j, IsReal (A p j)) (hW : ∀ j q, IsReal (W j q)) (p : Fin n) (q : Fin m) : IsReal (lin A W p q) :=
  IsReal.sum _ _ fun j _ => (hA p j).mul (hW j q)

theorem isReal_brelu {n d : ℕ} {A : Fin n → Fin d → EReal} {b : Fin d → EReal}
    (hA : ∀ p q, IsReal (A p q)) (hb : ∀ q, IsReal (b q)) (p : Fin n) (q : Fin d) : IsReal (brelu A b p q) :=
  ((hA p q).add (hb q)).max isReal_zero

theorem isReal_agg {D : ℕ} {feat : Fin N → Fin D → EReal} (hf : ∀ n k, IsReal (feat n k)) (n : Fin N) (k : Fin D) :
    IsReal (agg sgn sR dR feat n k) :=
  (isReal_zero.add (IsReal.sum _ _ fun e _ => (hf (sR e) k).mul (isReal_nrm sgn sR dR e))).add
    ((hf n k).mul ((isReal_dinv sgn n).mul (isReal_dinv sgn n)))

/-- Aggregating over the graph commutes with a matrix product on the feature axis, when every entry is a real:
    both sides are the same finite sum of products of reals (distributivity and a swap of two finite sums). -/
theorem lin_agg {D M : ℕ} {P : Fin N → Fin D → EReal} {W : Fin D → Fin M → EReal}
    (hP : ∀ n j, IsReal (P n j)) (hW : ∀ j k, IsReal (W j k)) (n : Fin N) (k : Fin M) :
    lin (agg sgn sR dR P) W n k = agg sgn sR dR (lin P W) n k := by
  have hP' : ∀ n j, ∃ r : ℝ, P n j = (r : EReal) := hP
  have hW' : ∀ j k, ∃ r : ℝ, W j k = (r : EReal) := hW
  have hd' : ∀ n : Fin N, ∃ r : ℝ, dinv sgn n = (r : EReal) := isReal_dinv sgn
  have hc' : ∀ e : Fin E, ∃ r : ℝ, nrm sgn sR dR e = (r : EReal) := isReal_nrm sgn sR dR
  choose p hp using hP'
  choose w hw using hW'
  choose d hd using hd'
  choose c hc using hc'
  simp only [lin, agg, hp, hw, hd, hc, zero_add]
  simp only [← EReal.coe_mul, ← coe_sum, ← EReal.coe_add]
  congr 1
  simp only [add_mul, Finset.sum_add_distrib, Finset.sum_mul]
  rw [Finset.sum_comm]
  congr 1
  · exact Finset.sum_congr rfl fun e _ => Finset.sum_congr rfl fun j _ => by ring
  · exact Finset.sum_congr rfl fun j _ => by ring

/-- The two programs' first results: the kernel aggregates the hidden features and then applies the second layer's
    weights, the reference applies the weights and then aggregates. -/
theorem conv2_eq {K D M : ℕ} (X : Fin N → Fin K → EReal) (W1 : Fin K → Fin D → EReal) (b1 : Fin D → EReal)
    (W2 : Fin D → Fin M → EReal) (b2 : Fin M → EReal)
    (hX : ∀ n j, IsReal (X n j)) (hW1 : ∀ j k, IsReal (W1 j k)) (hb1 : ∀ k, IsReal (b1 k)) (hW2 : ∀ j k, IsReal (W2 j k)) :
    brelu (lin (agg sgn sR dR (brelu (agg sgn sR dR (lin X W1)) b1)) W2) b2
      = brelu (agg sgn sR dR (lin (brelu (agg sgn sR dR (lin X W1)) b1) W2)) b2 := by
  have key : lin (agg sgn sR dR (brelu (agg sgn sR dR (lin X W1)) b1)) W2
      = agg sgn sR dR (lin (brelu (agg sgn sR dR (lin X W1)) b1) W2) := by
    funext n k
    exact lin_agg sgn sR dR
      (fun n j => isReal_brelu (fun p q => isReal_agg sgn sR dR (fun a b => isReal_lin hX hW1 a b) p q) hb1 n j) hW2 n k
  rw [key]

end Graph

end Cert.Gcn

end
-- ==== Proof.LibGatherRows.lean ====
/-
  ROW LOOKUPS READ AT AN INDEX: two general facts about `stablehlo.gather`.

  A lookup `x[idx]` of whole rows, with the row numbers given as an integer column `idx : [M, 1]`, is a gather whose
  start index map names operand axis 0 only, whose index vector sits on axis 1 of the start indices (of extent 1: one
  scalar per start index), and whose slice is one row:

  * ROWS OF A MATRIX `x : [N, D]`: offset_dims `[1]`, collapsed_slice_dims `[0]`, start_index_map `[0]`,
    index_vector_dim `1`, slice_sizes `[1, D]`, result `[M, D]` (`rowsDims`, `gather_rows_apply`);
  * ENTRIES OF A VECTOR `x : [N]`: offset_dims `[]`, collapsed_slice_dims `[0]`, start_index_map `[0]`,
    index_vector_dim `1`, slice_sizes `[1]`, result `[M]` (`elemsDims`, `gather_elems_apply`).

  In both, result row `e` reads operand row `idx[e, 0]`, the start index read as a SIGNED integer and clamped into
  `[0, N − 1]`: the slice is one row high, so the largest start at which it fits is `N − 1`. In the matrix case, entry
  `(e, k)` of the result is entry `k` of that row: operand axis 1 is not named by the start index map, so its slice starts
  at `0` (no clamp is involved on that axis), it is not a batching axis, and it is the one kept axis, read by the
  result's one offset axis, whose coordinate is `k`.

  The operand index of a gather is, per operand axis, `start + batch coordinate + offset coordinate`
  (`GatherDims.operandIdx`); the three general lemmas first in the file open each summand's case split once.
-/
import Idealize.ShloMosaic.Lib.ValueIdx

noncomputable section

namespace Cert.Lib

open Idealize.ShloMosaic Idealize.ShloMosaic.ValueIdx

/-! ## The summands of a gather's operand index, case by case -/

section Summands
variable {s si t : Shape} (d : GatherDims s si t)

/-- On an operand axis that the start index map does not name, the slice starts at `0`. -/
theorem gather_start_of_not_mem {w : Nat} (j : t.Idx) (idx : IVec si w) (a : Fin s.rank) (ha : a ∉ d.startIndexMap) :
    d.start j idx a = 0 := by
  unfold GatherDims.start; rw [dif_neg ha]

/-- On an operand axis that the start index map names, the slice starts at that axis's component of the start index,
    read signed and clamped so that the slice fits. -/
theorem gather_start_of_mem {w : Nat} (j : t.Idx) (idx : IVec si w) (a : Fin s.rank) (ha : a ∈ d.startIndexMap) :
    d.start j idx a
      = min (idx (d.siIdx j ⟨d.startIndexMap.idxOf a, List.idxOf_lt_length_iff.2 ha⟩)).toInt.toNat
          (s.size a - d.sliceSizes a) := by
  unfold GatherDims.start; rw [dif_pos ha]

/-- On a kept operand axis (neither collapsed nor batching) the offset coordinate is the result's coordinate on the
    offset axis in the same position. -/
theorem gather_offCoord_of_mem (j : t.Idx) (a : Fin s.rank) (ha : a ∈ d.sKept) :
    d.offCoord j a
      = (j (d.offsetDims[d.sKept.idxOf a]'(by rw [d.offset_length]; exact List.idxOf_lt_length_iff.2 ha))).val := by
  unfold GatherDims.offCoord; rw [dif_pos ha]

end Summands

/-- In `Fin 2`, `1 ≠ 0`. -/
theorem fin2_one_ne_zero : (1 : Fin 2) ≠ 0 := by decide

/-! ## Rows of a matrix -/

section Rows
variable {α : Type}

/-- The dimension numbers of a row lookup: operand `[N, D]`, start indices `[M, 1]`, result `[M, D]`; their
    conditions `wf` are decided on a program's literal shapes. -/
abbrev rowsDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE ROW LOOKUP READ AT `(e, k)`: entry `k` of the operand's row `idx[e, 0]`, that start index read signed and
    clamped into `[0, N − 1]`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowsDims N D M wf) x idx (ix2 e k)
      = x (ix2 (⟨min (idx (ix2 e (0 : Fin 1))).toInt.toNat (N - 1), by omega⟩ : Fin N) k) := by
  unfold Host.gather
  congr 1
  funext a
  match a with
  | ⟨0, _⟩ =>
    -- axis 0: the clamped start index, no batch coordinate, no offset coordinate (the axis is collapsed)
    refine Fin.ext ?_
    show (rowsDims N D M wf).start (ix2 e k) idx 0 + (rowsDims N D M wf).batchCoord (ix2 e k) 0
      + (rowsDims N D M wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D M wf).startIndexMap from List.mem_singleton.mpr rfl)]
    have hsi : (rowsDims N D M wf).siIdx (ix2 e k) ⟨List.idxOf (0 : Fin 2) (rowsDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batch coordinate, offset coordinate k (the one kept axis)
    refine Fin.ext ?_
    have h1 : (1 : Fin 2) ∉ (rowsDims N D M wf).startIndexMap :=
      fun h => fin2_one_ne_zero (List.mem_singleton.mp h)
    have hk : (1 : Fin 2) ∈ (rowsDims N D M wf).sKept :=
      (GatherDims.mem_sKept _ _).mpr ⟨fun h => fin2_one_ne_zero (List.mem_singleton.mp h), List.not_mem_nil⟩
    have hs : (rowsDims N D M wf).start (ix2 e k) idx 1 = 0 := gather_start_of_not_mem _ _ _ _ h1
    have hb : (rowsDims N D M wf).batchCoord (ix2 e k) 1 = 0 :=
      GatherDims.batchCoord_eq_zero _ _ _ List.not_mem_nil
    have ho : (rowsDims N D M wf).offCoord (ix2 e k) 1 = k.val :=
      (gather_offCoord_of_mem _ _ _ hk).trans rfl
    show (rowsDims N D M wf).start (ix2 e k) idx 1 + (rowsDims N D M wf).batchCoord (ix2 e k) 1
      + (rowsDims N D M wf).offCoord (ix2 e k) 1 = k.val
    rw [hs, hb, ho, Nat.add_zero, Nat.zero_add]

end Rows

/-! ## Entries of a vector -/

section Elems
variable {α : Type}

/-- The dimension numbers of an entry lookup: operand `[N]`, start indices `[M, 1]`, result `[M]`; their conditions
    `wf` are decided on a program's literal shapes. -/
abbrev elemsDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY LOOKUP READ AT `e`: the operand's entry `idx[e, 0]`, that start index read signed and clamped into
    `[0, N − 1]`. -/
theorem gather_elems_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (elemsDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (elemsDims N M wf).start (ix1 e) idx 0 + (elemsDims N M wf).batchCoord (ix1 e) 0
    + (elemsDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N M wf).startIndexMap from List.mem_singleton.mpr rfl)]
  have hsi : (elemsDims N M wf).siIdx (ix1 e) ⟨List.idxOf (0 : Fin 1) (elemsDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Elems

end Cert.Lib

end
-- ==== Proof.LibScatterAddRows.lean ====
/-
  ROW-WISE ACCUMULATING SCATTER READ AT AN INDEX: a general fact about `stablehlo.scatter` with an `add` body.

  Adding update rows into the rows of a matrix `x : [N, D]`, with the row numbers given as an integer column
  `idx : [M, 1]` and the updates `upd : [M, D]` (what `x.at[idx].add(upd)` and a segment sum lower to), is a scatter
  with update_window_dims `[1]`, inserted_window_dims `[0]`, scatter_dims_to_operand_dims `[0]` and
  index_vector_dim `1` (`rowsScatterDims`).

  The operand index an update index `(e, j)` lands at is, per operand axis, `start + window coordinate`
  (`ScatterDims.resultIdx?`):

  * on operand axis 0, the start is the row number `idx[e, 0]`, read as a SIGNED integer and NOT clamped, and the
    window coordinate is `0` (axis 0 is an inserted window axis);
  * on operand axis 1, the start is `0` (the axis is not named by scatter_dims_to_operand_dims) and the window
    coordinate is `j` (axis 1 is the operand's one kept axis, read by the updates' one window axis).

  So update `(e, j)` lands at `(idx[e, 0], j)` when `0 ≤ idx[e, 0] < N`, and is dropped otherwise
  (`resultIdx?_rows`). Hence the scatter's value at `(n, k)` is the operand's entry plus the sum, over the update rows
  `e` whose row number is `n`, of `upd[e, k]` (`scatterAdd_rows_apply`): the sum over the two-dimensional update
  indices that land at `(n, k)` is re-indexed along `e ↦ (e, k)`.
-/
import Idealize.ShloMosaic.PureOps.Ideal
import Idealize.ShloMosaic.Lib.ValueIdx

noncomputable section

namespace Cert.Lib

open Idealize.ShloMosaic Idealize.ShloMosaic.ValueIdx

/-- The dimension numbers of a row-wise scatter: operand `[N, D]`, scatter indices `[M, 1]` (one row number per update
    row), updates `[M, D]`; update_window_dims `[1]`, inserted_window_dims `[0]`, scatter_dims_to_operand_dims `[0]`,
    index_vector_dim `1`. -/
abbrev rowsScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- In `Fin 2`, `1 ≠ 0`. -/
theorem scatter_fin2_one_ne_zero : (1 : Fin 2) ≠ 0 := by decide

section Summands
variable {N D M w : Nat} (wf : ScatterDims.WF ⟨2, ![N, D]⟩ ⟨2, ![M, 1]⟩ ⟨2, ![M, D]⟩ [1] [0] [0] 1)

/-- On operand axis 0 the window of update `(e, j)` starts at the row number `idx[e, 0]`, read signed. -/
theorem scatter_rows_start0 (idx : IVec ⟨2, ![M, 1]⟩ w) (e : Fin M) (j : Fin D) :
    (rowsScatterDims N D M wf).start (ix2 e j) idx 0 = (idx (ix2 e (0 : Fin 1))).toInt := by
  unfold ScatterDims.start
  rw [dif_pos (show (0 : Fin 2) ∈ (rowsScatterDims N D M wf).scatterDimsToOperandDims from
    List.mem_singleton.mpr rfl)]
  have hsi : (rowsScatterDims N D M wf).siIdx (ix2 e j)
      ⟨List.idxOf (0 : Fin 2) (rowsScatterDims N D M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter does not index, the window starts at `0`. -/
theorem scatter_rows_start1 (idx : IVec ⟨2, ![M, 1]⟩ w) (e : Fin M) (j : Fin D) :
    (rowsScatterDims N D M wf).start (ix2 e j) idx 1 = 0 := by
  unfold ScatterDims.start
  rw [dif_neg (fun h => scatter_fin2_one_ne_zero (List.mem_singleton.mp h))]

/-- Operand axis 0 is an inserted window axis: its window coordinate is `0`. -/
theorem scatter_rows_window0 (e : Fin M) (j : Fin D) :
    (rowsScatterDims N D M wf).window (ix2 e j) 0 = 0 := by
  unfold ScatterDims.window
  rw [dif_neg]
  intro h
  have := (List.mem_filter.mp h).2
  simp at this

/-- Operand axis 1 is the one kept axis: its window coordinate is the update's column `j`. -/
theorem scatter_rows_window1 (e : Fin M) (j : Fin D) :
    (rowsScatterDims N D M wf).window (ix2 e j) 1 = j.val := by
  have hk : (1 : Fin 2) ∈ (rowsScatterDims N D M wf).sKept := by
    refine List.mem_filter.mpr ⟨List.mem_finRange _, ?_⟩
    simpa using scatter_fin2_one_ne_zero
  unfold ScatterDims.window
  rw [dif_pos hk]
  rfl

end Summands

/-! ## Where an update lands -/

section Lands
variable {N D M w : Nat} (wf : ScatterDims.WF ⟨2, ![N, D]⟩ ⟨2, ![M, 1]⟩ ⟨2, ![M, D]⟩ [1] [0] [0] 1)

/-- Update `(e, j)` lands at operand index `(n, k)` exactly when its row number `idx[e, 0]`, read signed, is `n` and
    its column `j` is `k`; an update whose row number is outside `[0, N)` lands nowhere. -/
theorem resultIdx?_rows (idx : IVec ⟨2, ![M, 1]⟩ w) (e : Fin M) (j : Fin D) (n : Fin N) (k : Fin D) :
    (rowsScatterDims N D M wf).resultIdx? (ix2 e j) idx = some (ix2 n k)
      ↔ (idx (ix2 e (0 : Fin 1))).toInt = (n.val : Int) ∧ j = k := by
  have hs0 := scatter_rows_start0 (N := N) wf idx e j
  have hs1 := scatter_rows_start1 (N := N) wf idx e j
  have hw0 := scatter_rows_window0 (N := N) wf e j
  have hw1 := scatter_rows_window1 (N := N) wf e j
  unfold ScatterDims.resultIdx?
  split
  · rename_i h
    constructor
    · intro heq
      have hf := Option.some.inj heq
      have h0 := congrArg (fun f => (f 0).val) hf
      have h1 := congrArg (fun f => (f 1).val) hf
      simp only [hs0, hs1, hw0, hw1] at h0 h1
      have hh0 := (h 0).1
      rw [hs0, hw0] at hh0
      have e0 : ((ix2 n k : (⟨2, ![N, D]⟩ : Shape).Idx) 0).val = n.val := rfl
      have e1 : ((ix2 n k : (⟨2, ![N, D]⟩ : Shape).Idx) 1).val = k.val := rfl
      rw [e0] at h0
      rw [e1] at h1
      refine ⟨by omega, Fin.ext (by omega)⟩
    · rintro ⟨hn, rfl⟩
      congr 1
      funext a
      refine Fin.ext ?_
      match a with
      | ⟨0, _⟩ =>
        show ((rowsScatterDims N D M wf).start (ix2 e j) idx 0
          + ((rowsScatterDims N D M wf).window (ix2 e j) 0 : Int)).toNat = n.val
        rw [hs0, hw0, hn]; omega
      | ⟨1, _⟩ =>
        show ((rowsScatterDims N D M wf).start (ix2 e j) idx 1
          + ((rowsScatterDims N D M wf).window (ix2 e j) 1 : Int)).toNat = j.val
        rw [hs1, hw1]; omega
  · rename_i h
    constructor
    · intro heq; exact absurd heq (by simp)
    · rintro ⟨hn, rfl⟩
      exfalso
      apply h
      intro a
      match a with
      | ⟨0, _⟩ =>
        show 0 ≤ (rowsScatterDims N D M wf).start (ix2 e j) idx 0
            + ((rowsScatterDims N D M wf).window (ix2 e j) 0 : Int)
          ∧ (rowsScatterDims N D M wf).start (ix2 e j) idx 0
            + ((rowsScatterDims N D M wf).window (ix2 e j) 0 : Int) < (N : Int)
        rw [hs0, hw0, hn]
        have := n.isLt
        omega
      | ⟨1, _⟩ =>
        show 0 ≤ (rowsScatterDims N D M wf).start (ix2 e j) idx 1
            + ((rowsScatterDims N D M wf).window (ix2 e j) 1 : Int)
          ∧ (rowsScatterDims N D M wf).start (ix2 e j) idx 1
            + ((rowsScatterDims N D M wf).window (ix2 e j) 1 : Int) < (D : Int)
        rw [hs1, hw1]
        have := j.isLt
        omega

end Lands

/-! ## The scatter read at an index -/

/-- THE ACCUMULATING ROW SCATTER READ AT `(n, k)`: the operand's entry plus the sum, over the update rows `e` whose row
    number `idx[e, 0]` (read as a SIGNED integer, not clamped) is `n`, of the update's entry `(e, k)`. -/
theorem scatterAdd_rows_apply {N D M w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (k : Fin D) :
    Ideal.hostScatterAdd (rowsScatterDims N D M wf) x idx upd (ix2 n k)
      = x (ix2 n k) + ∑ e ∈ Finset.univ.filter (fun e : Fin M => (idx (ix2 e (0 : Fin 1))).toInt = (n.val : Int)), upd (ix2 e k) := by
  unfold Ideal.hostScatterAdd
  congr 1
  -- every update index is `(e, j)`; it lands at `(n, k)` iff `idx[e, 0] = n` and `j = k`
  have hland : ∀ J : (⟨2, ![M, D]⟩ : Shape).Idx,
      (rowsScatterDims N D M wf).resultIdx? J idx = some (ix2 n k)
        ↔ (idx (ix2 (J 0 : Fin M) (0 : Fin 1))).toInt = (n.val : Int) ∧ (J 1 : Fin D) = k := by
    intro J
    obtain ⟨a, b, rfl⟩ : ∃ (a : Fin M) (b : Fin D), J = ix2 a b := ⟨J 0, J 1, eq_ix2 J⟩
    exact resultIdx?_rows wf idx a b n k
  refine Finset.sum_nbij' (fun J => (J 0 : Fin M)) (fun e => ix2 e k) ?_ ?_ ?_ ?_ ?_
  · intro J hJ
    rw [Finset.mem_filter] at hJ
    exact Finset.mem_filter.mpr ⟨Finset.mem_univ _, ((hland J).mp hJ.2).1⟩
  · intro e he
    rw [Finset.mem_filter] at he
    exact Finset.mem_filter.mpr ⟨Finset.mem_univ _, (resultIdx?_rows wf idx e k n k).mpr ⟨he.2, rfl⟩⟩
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl
  · intro e _
    rfl
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl

end Cert.Lib

end
-- ==== Proof.LibScatterAddVec.lean ====
/-
  ACCUMULATING SCATTER INTO A VECTOR READ AT AN INDEX: a general fact about `stablehlo.scatter` with an `add` body.

  Adding scalar updates into the entries of a vector `x : [N]`, with the entry numbers given as an integer column
  `idx : [M, 1]` and the updates `upd : [M]` (what `x.at[idx].add(upd)` and a segment sum of scalars lower to), is a
  scatter with update_window_dims `[]`, inserted_window_dims `[0]`, scatter_dims_to_operand_dims `[0]` and
  index_vector_dim `1` (`vecScatterDims`).

  The operand index an update index `e` lands at is `start + window coordinate` on the operand's one axis
  (`ScatterDims.resultIdx?`): the start is the entry number `idx[e, 0]`, read as a SIGNED integer and NOT clamped, and
  the window coordinate is `0` (axis 0 is an inserted window axis; the updates have no window axis at all).

  So update `e` lands at `idx[e, 0]` when `0 ≤ idx[e, 0] < N`, and is dropped otherwise (`resultIdx?_vec`). Hence the
  scatter's value at `n` is the operand's entry plus the sum, over the updates `e` whose entry number is `n`, of
  `upd[e]` (`scatterAdd_vec_apply`): the sum over the rank-1 update indices is re-indexed along `e ↦ (e)`.
-/
import Idealize.ShloMosaic.PureOps.Ideal
import Idealize.ShloMosaic.Lib.ValueIdx

noncomputable section

namespace Cert.Lib

open Idealize.ShloMosaic Idealize.ShloMosaic.ValueIdx

/-- The dimension numbers of a scatter of scalars into a vector: operand `[N]`, scatter indices `[M, 1]` (one entry
    number per update), updates `[M]`; update_window_dims `[]`, inserted_window_dims `[0]`,
    scatter_dims_to_operand_dims `[0]`, index_vector_dim `1`. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Summands
variable {N M w : Nat} (wf : ScatterDims.WF ⟨1, ![N]⟩ ⟨2, ![M, 1]⟩ ⟨1, ![M]⟩ [] [0] [0] 1)

/-- On the operand's one axis the window of update `e` starts at the entry number `idx[e, 0]`, read signed. -/
theorem scatter_vec_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from
    List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: its window coordinate is `0`. -/
theorem scatter_vec_window0 (e : Fin M) :
    (vecScatterDims N M wf).window (ix1 e) 0 = 0 := by
  unfold ScatterDims.window
  rw [dif_neg]
  intro h
  have := (List.mem_filter.mp h).2
  simp at this

end Summands

/-! ## Where an update lands -/

section Lands
variable {N M w : Nat} (wf : ScatterDims.WF ⟨1, ![N]⟩ ⟨2, ![M, 1]⟩ ⟨1, ![M]⟩ [] [0] [0] 1)

/-- Update `e` lands at operand index `n` exactly when its entry number `idx[e, 0]`, read signed, is `n`; an update
    whose entry number is outside `[0, N)` lands nowhere. -/
theorem resultIdx?_vec (idx : IVec ⟨2, ![M, 1]⟩ w) (e : Fin M) (n : Fin N) :
    (vecScatterDims N M wf).resultIdx? (ix1 e) idx = some (ix1 n)
      ↔ (idx (ix2 e (0 : Fin 1))).toInt = (n.val : Int) := by
  have hs0 := scatter_vec_start0 (N := N) wf idx e
  have hw0 := scatter_vec_window0 (N := N) wf e
  unfold ScatterDims.resultIdx?
  split
  · rename_i h
    constructor
    · intro heq
      have hf := Option.some.inj heq
      have h0 := congrArg (fun f => (f 0).val) hf
      simp only [hs0, hw0] at h0
      have hh0 := (h 0).1
      rw [hs0, hw0] at hh0
      have e0 : ((ix1 n : (⟨1, ![N]⟩ : Shape).Idx) 0).val = n.val := rfl
      rw [e0] at h0
      omega
    · intro hn
      congr 1
      funext a
      refine Fin.ext ?_
      match a with
      | ⟨0, _⟩ =>
        show ((vecScatterDims N M wf).start (ix1 e) idx 0
          + ((vecScatterDims N M wf).window (ix1 e) 0 : Int)).toNat = n.val
        rw [hs0, hw0, hn]; omega
  · rename_i h
    constructor
    · intro heq; exact absurd heq (by simp)
    · intro hn
      exfalso
      apply h
      intro a
      match a with
      | ⟨0, _⟩ =>
        show 0 ≤ (vecScatterDims N M wf).start (ix1 e) idx 0
            + ((vecScatterDims N M wf).window (ix1 e) 0 : Int)
          ∧ (vecScatterDims N M wf).start (ix1 e) idx 0
            + ((vecScatterDims N M wf).window (ix1 e) 0 : Int) < (N : Int)
        rw [hs0, hw0, hn]
        have := n.isLt
        omega

end Lands

/-! ## The scatter read at an index -/

/-- THE ACCUMULATING VECTOR SCATTER READ AT `n`: the operand's entry plus the sum, over the updates `e` whose entry
    number `idx[e, 0]` (read as a SIGNED integer, not clamped) is `n`, of the update `upd[e]`. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  -- every update index is `(e)`; it lands at `n` iff `idx[e, 0] = n`
  have hland : ∀ J : (⟨1, ![M]⟩ : Shape).Idx,
      (vecScatterDims N M wf).resultIdx? J idx = some (ix1 n)
        ↔ (idx (ix2 (J 0 : Fin M) (0 : Fin 1))).toInt = (n.val : Int) := by
    intro J
    obtain ⟨a, rfl⟩ : ∃ (a : Fin M), J = ix1 a := ⟨J 0, eq_ix1 J⟩
    exact resultIdx?_vec wf idx a n
  refine Finset.sum_nbij' (fun J => (J 0 : Fin M)) (fun e => ix1 e) ?_ ?_ ?_ ?_ ?_
  · intro J hJ
    rw [Finset.mem_filter] at hJ
    exact Finset.mem_filter.mpr ⟨Finset.mem_univ _, (hland J).mp hJ.2⟩
  · intro e he
    rw [Finset.mem_filter] at he
    exact Finset.mem_filter.mpr ⟨Finset.mem_univ _, (resultIdx?_vec wf idx e n).mpr he.2⟩
  · intro J _
    exact (eq_ix1 J).symm
  · intro e _
    rfl
  · intro J _
    exact congrArg upd (eq_ix1 J)

end Cert.Lib

end
-- ==== Proof.AggRead.lean ====
/-
  The host operations around the dense layers, read at an index.

  Both programs compute, from the edge list, the per-node weights `(1 + number of incoming edges)^(-1/2)`, the
  per-edge weights (the product of the two end points' node weights, each looked up at the wrapped and clamped node
  number), and the aggregation of a feature matrix: every node receives the weighted rows of the sources of its incoming
  edges and its own row weighted by the square of its node weight. This file reads each of these terms at one index and
  identifies it with the specification's `dinv`, `nrm` and `agg`.

  The ingredients are: a scalar repeated to any shape reads the scalar; a vector turned into a column, and a column
  repeated along a second axis, read the vector's entry of the same row; a row lookup reads the row whose number is the
  start index, read signed and clamped; an accumulating scatter adds, at a row, the updates whose row number (read
  signed, not clamped) is that row.
-/
import proofs.«125731_j33835752358234_2_alg».proof.Proof.HostTerms
import proofs.«125731_j33835752358234_2_alg».proof.Proof.LibGatherRows
import proofs.«125731_j33835752358234_2_alg».proof.Proof.LibScatterAddRows
import proofs.«125731_j33835752358234_2_alg».proof.Proof.LibScatterAddVec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal
import Idealize.ShloMosaic.PureOps.Ideal.Laws

noncomputable section

open scoped BigOperators

namespace Cert.Gcn

open Idealize.ShloMosaic Idealize.ShloMosaic.ValueIdx Cert.KernelIdeal Cert.KernelIdeal.Facts₀

/-! ## Layout operations read at an index -/

section Layout
variable {α : Type}

/-- A vector turned into a column reads, at row `e`, the vector's entry `e`. -/
theorem col_apply {M : Nat} (hM : M ≠ 1)
    (h : (⟨1, ![M]⟩ : Shape).BroadcastsInDim ⟨2, ![M, 1]⟩ (![0] : Fin 1 → Fin 2))
    (y : (⟨1, ![M]⟩ : Shape).Idx → α) (e : Fin M) (z : Fin 1) :
    broadcastInDim ⟨2, ![M, 1]⟩ ![0] h y (ix2 e z) = y (ix1 e) :=
  broadcastInDim_apply _ h y (ix2 e z) (ix1 e) (fun a => match a with
    | ⟨0, _⟩ => by show e.val = if M = 1 then 0 else e.val; rw [if_neg hM])

/-- A column repeated along a second axis reads, at `(e, k)`, the column's entry of row `e`. -/
theorem colrep_apply {M D : Nat} (hM : M ≠ 1)
    (h : (⟨2, ![M, 1]⟩ : Shape).BroadcastsInDim ⟨2, ![M, D]⟩ (![0, 1] : Fin 2 → Fin 2))
    (y : (⟨2, ![M, 1]⟩ : Shape).Idx → α) (e : Fin M) (k : Fin D) :
    broadcastInDim ⟨2, ![M, D]⟩ ![0, 1] h y (ix2 e k) = y (ix2 e (0 : Fin 1)) :=
  broadcastInDim_apply _ h y (ix2 e k) (ix2 e (0 : Fin 1)) (fun a => match a with
    | ⟨0, _⟩ => by show e.val = if M = 1 then 0 else e.val; rw [if_neg hM]
    | ⟨1, _⟩ => by show 0 = if (1 : Nat) = 1 then 0 else k.val; rw [if_pos rfl])

end Layout

/-! ## The wrap of a negative node number -/

/-- A negative node number wrapped by the node count, on one word: a word that is negative when read signed has the
    node count added to it, any other word is kept. -/
def wrapI (v : BitVec 32) : BitVec 32 :=
  Scalar.select (IntOp.cmpi .slt v 0#32) (IntOp.addi v 100000#32) v

theorem normT_apply (v : IArr S3200000) (i : S3200000.Idx) : normT v i = wrapI (v i) := rfl

/-- The destination of edge `e` as a signed integer. -/
def sgnOf (dst : IArr S3200000) : Fin 3200000 → ℤ := fun e => (dst (ix1 e)).toInt

/-- The row that a lookup with node number `v e` reads: wrapped, read signed, clamped into `[0, 99999]`. -/
def rowOf (v : IArr S3200000) : Fin 3200000 → Fin 100000 :=
  fun e => ⟨min (wrapI (v (ix1 e))).toInt.toNat (100000 - 1), by omega⟩

/-! ## The node weights -/

/-- The inverse square root of a sum of two arrays, at an index. -/
theorem rsqrt_addf_apply {s : Shape} (a b : FArr s) (i : s.Idx) :
    Host.rsqrt (F := Ideal) (addf (F := Ideal) a b) i = Ideal.rsqrt (a i + b i) := rfl

/-- The accumulating scatter into a vector of nodes, along a column of node numbers: entry `n` gains the updates
    whose node number, read signed, is `n`. -/
theorem scatterVec_apply (x : FArr S100000) (idx : IVec S3200000x1 32) (upd : FArr S3200000) (n : Fin 100000) :
    Host.scatterAdd (F := Ideal) scatter_S100000_S3200000x1_S3200000_n_0_0_1 x idx upd (ix1 n)
      = x (ix1 n)
        + ∑ e ∈ Finset.univ.filter (fun e : Fin 3200000 => (idx (ix2 e (0 : Fin 1))).toInt = (n.val : ℤ)), upd (ix1 e) :=
  Cert.Lib.scatterAdd_vec_apply scatter_S100000_S3200000x1_S3200000_n_0_0_1.wf x idx upd n

/-- The count of incoming edges: the scatter of ones into zeros, along the destinations. -/
theorem deg_apply (dst : IArr S3200000) (n : Fin 100000) :
    Host.scatterAdd (F := Ideal) scatter_S100000_S3200000x1_S3200000_n_0_0_1
        (broadcastInDim S100000 ![] bcast_S_S100000 (constant (F := Ideal) S_ .f32 0x00000000#32))
        (broadcastInDim S3200000x1 ![0] bcast_S3200000_S3200000x1_0 dst)
        (broadcastInDim S3200000 ![] bcast_S_S3200000 (constant (F := Ideal) S_ .f32 0x3F800000#32)) (ix1 n)
      = 0 + ∑ _e ∈ Finset.univ.filter (fun e : Fin 3200000 => sgnOf dst e = (n.val : ℤ)), (1 : EReal) := by
  rw [scatterVec_apply, broadcastInDim_scalar_apply, constant_apply, Ideal.ofBits_zero_f32]
  refine congrArg (fun t : EReal => 0 + t) ?_
  refine Finset.sum_congr (Finset.filter_congr fun e _ => ?_) (fun e _ => ?_)
  · rw [col_apply (by decide)]; exact Iff.rfl
  · rw [broadcastInDim_scalar_apply, constant_apply, Ideal.ofBits_one_f32]

theorem dinvT_apply (dst : IArr S3200000) (n : Fin 100000) : dinvT dst (ix1 n) = dinv (sgnOf dst) n := by
  unfold dinvT dinv
  rw [rsqrt_addf_apply, deg_apply, broadcastInDim_scalar_apply, constant_apply, Ideal.ofBits_one_f32]

/-! ## Lookups along a wrapped column of node numbers -/

/-- The row number that a lookup reads along the wrapped column of the node numbers `v` is `rowOf v e`. -/
theorem rowOf_col (h : (⟨1, ![3200000]⟩ : Shape).BroadcastsInDim ⟨2, ![3200000, 1]⟩ (![0] : Fin 1 → Fin 2))
    (v : IArr S3200000) (e : Fin 3200000) :
    (⟨min (broadcastInDim ⟨2, ![3200000, 1]⟩ ![0] h (normT v) (ix2 e (0 : Fin 1))).toInt.toNat (100000 - 1), by omega⟩ :
      Fin 100000) = rowOf v e := by
  refine Fin.ext ?_
  show min (BitVec.toInt (broadcastInDim ⟨2, ![3200000, 1]⟩ ![0] h (normT v) (ix2 e (0 : Fin 1)))).toNat (100000 - 1)
    = min (wrapI (v (ix1 e))).toInt.toNat (100000 - 1)
  rw [col_apply (by decide), normT_apply]

/-- An entry lookup of a vector of nodes along the wrapped column of the node numbers `v` reads entry `rowOf v e`. -/
theorem gatherVec_wrap_apply (x : FArr S100000) (v : IArr S3200000) (e : Fin 3200000) :
    Host.gather gather_S100000_S3200000x1_S3200000_n_0_n_n_0_1_1 x
        (broadcastInDim S3200000x1 ![0] bcast_S3200000_S3200000x1_0 (normT v)) (ix1 e)
      = x (ix1 (rowOf v e)) :=
  (Cert.Lib.gather_elems_apply (by decide) gather_S100000_S3200000x1_S3200000_n_0_n_n_0_1_1.wf x _ e).trans
    (congrArg (fun r => x (ix1 r)) (rowOf_col bcast_S3200000_S3200000x1_0 v e))

/-- A row lookup of a matrix of nodes along the wrapped column of the node numbers `v` reads row `rowOf v e`. -/
theorem gatherRows_wrap_apply {D : Nat}
    (wf : GatherDims.WF ⟨2, ![100000, D]⟩ ⟨2, ![3200000, 1]⟩ ⟨2, ![3200000, D]⟩ [1] [0] [] [0] [] 1 ![1, D])
    (h : (⟨1, ![3200000]⟩ : Shape).BroadcastsInDim ⟨2, ![3200000, 1]⟩ (![0] : Fin 1 → Fin 2))
    (x : (⟨2, ![100000, D]⟩ : Shape).Idx → EReal) (v : IArr S3200000) (e : Fin 3200000) (k : Fin D) :
    Host.gather (Cert.Lib.rowsDims 100000 D 3200000 wf) x (broadcastInDim ⟨2, ![3200000, 1]⟩ ![0] h (normT v)) (ix2 e k)
      = x (ix2 (rowOf v e) k) :=
  (Cert.Lib.gather_rows_apply (by decide) wf x _ e k).trans (congrArg (fun r => x (ix2 r k)) (rowOf_col h v e))

/-! ## The edges' weights -/

theorem nrmT_apply (src dst : IArr S3200000) (e : Fin 3200000) :
    nrmT src dst (dinvT dst) (ix1 e) = nrm (sgnOf dst) (rowOf src) (rowOf dst) e := by
  unfold nrmT nrm
  rw [mulf_apply, gatherVec_wrap_apply, gatherVec_wrap_apply, dinvT_apply, dinvT_apply]

/-! ## The aggregation -/

/-- The accumulating scatter into a matrix of nodes, along a column of node numbers: entry `(n, k)` gains the entries
    `(e, k)` of the update rows `e` whose node number, read signed, is `n`. -/
theorem scatterRows_apply {D : Nat}
    (wfs : ScatterDims.WF ⟨2, ![100000, D]⟩ ⟨2, ![3200000, 1]⟩ ⟨2, ![3200000, D]⟩ [1] [0] [0] 1)
    (x : FArr ⟨2, ![100000, D]⟩) (idx : IVec S3200000x1 32) (upd : FArr ⟨2, ![3200000, D]⟩) (n : Fin 100000) (k : Fin D) :
    Host.scatterAdd (F := Ideal) (Cert.Lib.rowsScatterDims 100000 D 3200000 wfs) x idx upd (ix2 n k)
      = x (ix2 n k)
        + ∑ e ∈ Finset.univ.filter (fun e : Fin 3200000 => (idx (ix2 e (0 : Fin 1))).toInt = (n.val : ℤ)), upd (ix2 e k) :=
  Cert.Lib.scatterAdd_rows_apply wfs x idx upd n k

/-- The aggregation of a feature matrix of any width `D`, with the edges' weights `w` and the node weights `dv` as
    given arrays: node `n` receives, at feature `k`, the weighted entries `k` of the rows looked up for the sources of
    the edges whose destination, read signed, is `n`, and its own entry weighted by the square of its node weight. -/
theorem agg_core {D : Nat}
    (wfs : ScatterDims.WF ⟨2, ![100000, D]⟩ ⟨2, ![3200000, 1]⟩ ⟨2, ![3200000, D]⟩ [1] [0] [0] 1)
    (wfg : GatherDims.WF ⟨2, ![100000, D]⟩ ⟨2, ![3200000, 1]⟩ ⟨2, ![3200000, D]⟩ [1] [0] [] [0] [] 1 ![1, D])
    (hz : (⟨0, ![]⟩ : Shape).BroadcastsInDim ⟨2, ![100000, D]⟩ ![])
    (hc : (⟨1, ![3200000]⟩ : Shape).BroadcastsInDim ⟨2, ![3200000, 1]⟩ (![0] : Fin 1 → Fin 2))
    (hr : (⟨2, ![3200000, 1]⟩ : Shape).BroadcastsInDim ⟨2, ![3200000, D]⟩ (![0, 1] : Fin 2 → Fin 2))
    (hc' : (⟨1, ![100000]⟩ : Shape).BroadcastsInDim ⟨2, ![100000, 1]⟩ (![0] : Fin 1 → Fin 2))
    (hr' : (⟨2, ![100000, 1]⟩ : Shape).BroadcastsInDim ⟨2, ![100000, D]⟩ (![0, 1] : Fin 2 → Fin 2))
    (feat : FArr ⟨2, ![100000, D]⟩) (src dst : IArr S3200000) (w : FArr S3200000) (dv : FArr S100000)
    (n : Fin 100000) (k : Fin D) :
    addf (F := Ideal)
        (Host.scatterAdd (F := Ideal) (Cert.Lib.rowsScatterDims 100000 D 3200000 wfs)
          (broadcastInDim ⟨2, ![100000, D]⟩ ![] hz (constant (F := Ideal) S_ .f32 0x00000000#32))
          (broadcastInDim ⟨2, ![3200000, 1]⟩ ![0] hc dst)
          (mulf (F := Ideal)
            (Host.gather (Cert.Lib.rowsDims 100000 D 3200000 wfg) feat
              (broadcastInDim ⟨2, ![3200000, 1]⟩ ![0] hc (normT src)))
            (broadcastInDim ⟨2, ![3200000, D]⟩ ![0, 1] hr (broadcastInDim ⟨2, ![3200000, 1]⟩ ![0] hc w))))
        (mulf (F := Ideal) feat
          (broadcastInDim ⟨2, ![100000, D]⟩ ![0, 1] hr'
            (broadcastInDim ⟨2, ![100000, 1]⟩ ![0] hc' (mulf (F := Ideal) dv dv))))
        (ix2 n k)
      = (0 + ∑ e ∈ Finset.univ.filter (fun e : Fin 3200000 => sgnOf dst e = (n.val : ℤ)),
            feat (ix2 (rowOf src e) k) * w (ix1 e))
        + feat (ix2 n k) * (dv (ix1 n) * dv (ix1 n)) := by
  rw [addf_apply, scatterRows_apply, broadcastInDim_scalar_apply, constant_apply, Ideal.ofBits_zero_f32]
  refine congrArg₂ (fun a b : EReal => a + b) (congrArg (fun t : EReal => 0 + t) ?_) ?_
  · refine Finset.sum_congr (Finset.filter_congr fun e _ => ?_) (fun e _ => ?_)
    · rw [col_apply (by decide)]; exact Iff.rfl
    · rw [mulf_apply, gatherRows_wrap_apply, colrep_apply (by decide), col_apply (by decide)]
  · rw [mulf_apply, colrep_apply (by decide), col_apply (by decide), mulf_apply]

theorem agg16T_apply (feat : FArr S100000x16) (src dst : IArr S3200000) (n : Fin 100000) (k : Fin 16) :
    agg16T feat src dst (dinvT dst) (ix2 n k) = agg (sgnOf dst) (rowOf src) (rowOf dst) (curry2 feat) n k := by
  unfold agg16T agg curry2
  refine (agg_core scatter_S100000x16_S3200000x1_S3200000x16_1_0_0_1.wf
    gather_S100000x16_S3200000x1_S3200000x16_1_0_n_n_0_1_116.wf bcast_S_S100000x16 bcast_S3200000_S3200000x1_0
    bcast_S3200000x1_S3200000x16_0_1 bcast_S100000_S100000x1_0 bcast_S100000x1_S100000x16_0_1
    feat src dst (nrmT src dst (dinvT dst)) (dinvT dst) n k).trans ?_
  simp only [nrmT_apply, dinvT_apply]

theorem agg32T_apply (feat : FArr Cert.ReferenceIdeal.S100000x32) (src dst : IArr S3200000) (n : Fin 100000) (k : Fin 32) :
    agg32T feat src dst (dinvT dst) (ix2 n k) = agg (sgnOf dst) (rowOf src) (rowOf dst) (curry2 feat) n k := by
  unfold agg32T agg curry2
  refine (agg_core Cert.ReferenceIdeal.scatter_S100000x32_S3200000x1_S3200000x32_1_0_0_1.wf
    Cert.ReferenceIdeal.gather_S100000x32_S3200000x1_S3200000x32_1_0_n_n_0_1_132.wf
    Cert.ReferenceIdeal.Facts₀.bcast_S_S100000x32 Cert.ReferenceIdeal.Facts₀.bcast_S3200000_S3200000x1_0
    Cert.ReferenceIdeal.Facts₀.bcast_S3200000x1_S3200000x32_0_1 Cert.ReferenceIdeal.Facts₀.bcast_S100000_S100000x1_0
    Cert.ReferenceIdeal.Facts₀.bcast_S100000x1_S100000x32_0_1
    feat src dst (nrmT src dst (dinvT dst)) (dinvT dst) n k).trans ?_
  simp only [nrmT_apply, dinvT_apply]

end Cert.Gcn

end
-- ==== Proof.Bridge.lean ====
/-
  The two programs' results agree. First results: both are the two-layer graph convolution of the same arrays, the
  kernel program applying the second layer's weights after the aggregation and the reference before it; on real
  entries the two orders give the same numbers. Second results: both are the same three dense layers of the batch.
-/
import proofs.«125731_j33835752358234_2_alg».proof.Proof.Results
import proofs.«125731_j33835752358234_2_alg».proof.Proof.RowOfVector
import proofs.«125731_j33835752358234_2_alg».proof.Proof.RefLayers
import proofs.«125731_j33835752358234_2_alg».proof.Proof.RefDdi
import proofs.«125731_j33835752358234_2_alg».proof.Proof.Algebra
import proofs.«125731_j33835752358234_2_alg».proof.Proof.AggRead
import Idealize.ShloMosaic.Lib.ValueIdx

noncomputable section

namespace Cert.Gcn

open Idealize.ShloMosaic Idealize.ShloMosaic.ValueIdx Cert.KernelIdeal

/-! ## Each layer as a function of the two coordinates -/

theorem curry2_G0 (x : FArr S100000x512) (w : FArr S512x16) : curry2 (K0.G0 x w) = lin (curry2 x) (curry2 w) :=
  funext fun p => funext fun q => K0.G0_apply x w p q

theorem curry2_G1 (a : FArr S100000x16) (b : FArr S1x16) : curry2 (K1.G1 a b) = brelu (curry2 a) (row0 b) :=
  funext fun p => funext fun q => K1.G1_apply a b p q

theorem curry2_G2 (a : FArr S100000x16) (w : FArr S16x32) (b : FArr S1x32) :
    curry2 (K2.G2 a w b) = brelu (lin (curry2 a) (curry2 w)) (row0 b) :=
  funext fun p => funext fun q => K2.G2_apply a w b p q

theorem curry2_agg16T (feat : FArr S100000x16) (s d : IArr S3200000) :
    curry2 (agg16T feat s d (dinvT d)) = agg (sgnOf d) (rowOf s) (rowOf d) (curry2 feat) :=
  funext fun n => funext fun k => agg16T_apply feat s d n k

theorem curry2_agg32T (feat : FArr S100000x32) (s d : IArr S3200000) :
    curry2 (agg32T feat s d (dinvT d)) = agg (sgnOf d) (rowOf s) (rowOf d) (curry2 feat) :=
  funext fun n => funext fun k => agg32T_apply feat s d n k

theorem curry2_h1RefT (a0 : FArr S100000x512) (a3 : FArr S512x16) : curry2 (h1RefT a0 a3) = lin (curry2 a0) (curry2 a3) :=
  funext fun p => funext fun q => h1RefT_apply a0 a3 p q

theorem curry2_h2RefT (x : FArr S100000x16) (a5 : FArr S16x32) : curry2 (h2RefT x a5) = lin (curry2 x) (curry2 a5) :=
  funext fun p => funext fun q => h2RefT_apply x a5 p q

theorem curry2_brelu16RefT (a : FArr S100000x16) (b : FArr S16) : curry2 (brelu16RefT a b) = brelu (curry2 a) (curry1 b) :=
  funext fun p => funext fun q => brelu16RefT_apply a b p q

theorem curry2_brelu32RefT (a : FArr S100000x32) (b : FArr S32) : curry2 (brelu32RefT a b) = brelu (curry2 a) (curry1 b) :=
  funext fun p => funext fun q => brelu32RefT_apply a b p q

/-! ## The two first results as two-layer graph convolutions -/

set_option maxHeartbeats 400000 in
/-- The kernel program's first result: the second layer's weights applied after the aggregation. -/
theorem curry2_kernelPpi (a0 : FArr S100000x512) (a1 : IArr S2x3200000) (a3 : FArr S512x16) (a4 : FArr S16) (a5 : FArr S16x32) (a6 : FArr S32) :
    curry2 (kernelPpi a0 a1 a3 a4 a5 a6)
      = brelu (lin (agg (sgnOf (dstT a1)) (rowOf (srcT a1)) (rowOf (dstT a1))
          (brelu (agg (sgnOf (dstT a1)) (rowOf (srcT a1)) (rowOf (dstT a1)) (lin (curry2 a0) (curry2 a3))) (curry1 a4)))
          (curry2 a5)) (curry1 a6) := by
  unfold kernelPpi
  rw [curry2_G2, curry2_agg16T, curry2_G1, curry2_agg16T, curry2_G0, row0_shapeCast, row0_shapeCast]

set_option maxHeartbeats 400000 in
/-- The reference's first result: the second layer's weights applied before the aggregation. -/
theorem curry2_refPpi (a0 : FArr S100000x512) (a1 : IArr S2x3200000) (a3 : FArr S512x16) (a4 : FArr S16) (a5 : FArr S16x32) (a6 : FArr S32) :
    curry2 (refPpi a0 a1 a3 a4 a5 a6)
      = brelu (agg (sgnOf (dstT a1)) (rowOf (srcT a1)) (rowOf (dstT a1))
          (lin (brelu (agg (sgnOf (dstT a1)) (rowOf (srcT a1)) (rowOf (dstT a1)) (lin (curry2 a0) (curry2 a3))) (curry1 a4))
            (curry2 a5))) (curry1 a6) := by
  unfold refPpi
  rw [curry2_brelu32RefT, curry2_agg32T, curry2_h2RefT, curry2_brelu16RefT, curry2_agg16T, curry2_h1RefT]

set_option maxHeartbeats 400000 in
/-- The first results agree when the node features, the first layer's weights and bias and the second layer's weights
    are reals. -/
theorem ppi_bridge (a0 : FArr S100000x512) (a1 : IArr S2x3200000) (a3 : FArr S512x16) (a4 : FArr S16) (a5 : FArr S16x32) (a6 : FArr S32)
    (hX : ∀ i, IsReal (a0 i)) (hW1 : ∀ i, IsReal (a3 i)) (hb1 : ∀ i, IsReal (a4 i)) (hW2 : ∀ i, IsReal (a5 i)) :
    kernelPpi a0 a1 a3 a4 a5 a6 = refPpi a0 a1 a3 a4 a5 a6 := by
  funext i
  obtain ⟨n, k, rfl⟩ : ∃ (n : Fin 100000) (k : Fin 32), i = ix2 n k := ⟨i 0, i 1, eq_ix2 i⟩
  have h := (curry2_kernelPpi a0 a1 a3 a4 a5 a6).trans
    ((conv2_eq (sgnOf (dstT a1)) (rowOf (srcT a1)) (rowOf (dstT a1)) (curry2 a0) (curry2 a3) (curry1 a4) (curry2 a5) (curry1 a6)
      (fun n j => hX (ix2 n j)) (fun j k => hW1 (ix2 j k)) (fun k => hb1 (ix1 k)) (fun j k => hW2 (ix2 j k))).trans
      (curry2_refPpi a0 a1 a3 a4 a5 a6).symm)
  exact congrFun (congrFun h n) k

set_option maxHeartbeats 400000 in
/-- The second results agree, with no hypothesis. -/
theorem ddi_bridge (a2 : FArr S4096x1056) (a7 : FArr S1056x64) (a8 : FArr S64) (a9 : FArr S64x16) (a10 : FArr S16) (a11 : FArr S16x1) (a12 : FArr S1) :
    kernelDdi a2 a7 a8 a9 a10 a11 a12 = ddiRefT a2 a7 a8 a9 a10 a11 a12 := by
  funext i
  obtain ⟨p, q, rfl⟩ : ∃ (p : Fin 4096) (q : Fin 1), i = ix2 p q := ⟨i 0, i 1, eq_ix2 i⟩
  unfold kernelDdi
  rw [K3.G3_apply, ddiRefT_apply, row0_shapeCast, row0_shapeCast, row0_shapeCast]

end Cert.Gcn

end
-- ==== Proof.FiniteInputs.lean ====
/-
  Finite inputs are real numbers.

  The precondition tests every float argument array the same way: the absolute value of each entry is compared with
  plus infinity, the one-bit answers of an array are combined by "and" over all of its axes into a single bit, and the
  bits of the arrays are combined by "and" in argument order. The hypothesis says that the final bit is 1. A conjunction
  of bits that is 1 has every conjunct 1, and an "and" over a whole array that is 1 had a 1 at every index, so for every
  entry `x` of every tested array `|x| < +inf` holds over the extended reals, where `|x| = max x (-x)`. The only
  extended reals that fail this are the two infinities (`|-inf| = |+inf| = +inf`), so every such entry is a real number.
  Four of the arrays are needed downstream: the node features, the first layer's weights and bias, and the second
  layer's weights.
-/
import proofs.«125731_j33835752358234_2_alg».proof.Proof.Gen.Pre_finite_inputs
import proofs.«125731_j33835752358234_2_alg».proof.Proof.Spec
import Idealize.ShloMosaic.Lib.ReduceAll
import Idealize.ShloMosaic.Lib.ValueIdx
import Idealize.ShloMosaic.PureOps.Ideal.Laws

namespace Cert.Gcn
open Idealize.ShloMosaic Idealize.ShloMosaic.ValueIdx Cert.Pre_finite_inputs

/-- The scalar shape has exactly one index: an index is a function on the empty set of axes. -/
instance scalarIdx_subsingleton : Subsingleton S_.Idx := ⟨fun a b => funext fun d => d.elim0⟩

/-- The 32-bit word with exponent field all ones and significand zero denotes plus infinity. -/
theorem ofBits_posInf : Ideal.ofBits .f32 0x7F800000#32 = (⊤ : EReal) := by
  simp [Ideal.ofBits, Ideal.ieee]

/-- An extended real whose absolute value `max x (-x)` is strictly below plus infinity is a real number:
    for either infinity the absolute value is plus infinity itself, and the strict comparison fails. -/
theorem isReal_of_abs_lt_posInf (x : EReal)
    (h : Ideal.cmp .olt (max x (-x)) (Ideal.ofBits .f32 0x7F800000#32) = 1#1) : IsReal x := by
  rw [ofBits_posInf] at h
  induction x using EReal.rec with
  | bot => simp [Ideal.cmp] at h
  | coe r => exact ⟨r, rfl⟩
  | top => simp [Ideal.cmp] at h

/-- One array's test, for an array of any shape: if the "and" over all axes of the entrywise comparisons
    `|x i| < +inf` is 1, then every entry `x i` is a real number. At an index the comparison of the array of absolute
    values with the array that is plus infinity everywhere is the comparison of `max (x i) (-(x i))` with plus infinity. -/
theorem isReal_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : IsReal (x i) :=
  isReal_of_abs_lt_posInf (x i) (Host.reduce_andi_all _ _ hr hu ix0 e i)

/-- Under the precondition every entry of the node features, of the first layer's weights and bias and of the second
    layer's weights is a real number. The precondition's bit is the conjunction, nested to the left in argument order,
    of the twelve float arrays' tests; it is 1, so each test is 1, and the four wanted ones are read off. -/
theorem real_of_pre
    (a0 : FVec Ideal S100000x512 .f32) (a1 : IVec S2x3200000 32) (a2 : FVec Ideal S4096x1056 .f32) (a3 : FVec Ideal S512x16 .f32)
    (a4 : FVec Ideal S16 .f32) (a5 : FVec Ideal S16x32 .f32) (a6 : FVec Ideal S32 .f32) (a7 : FVec Ideal S1056x64 .f32) (a8 : FVec Ideal S64 .f32)
    (a9 : FVec Ideal S64x16 .f32) (a10 : FVec Ideal S16 .f32) (a11 : FVec Ideal S16x1 .f32) (a12 : FVec Ideal S1 .f32)
    (h : Cert.Pre_finite_inputs.fn (F := Ideal) a0 a1 a2 a3 a4 a5 a6 a7 a8 a9 a10 a11 a12 = (fun _ => 1#1)) :
    (∀ i, IsReal (a0 i)) ∧ (∀ i, IsReal (a3 i)) ∧ (∀ i, IsReal (a4 i)) ∧ (∀ i, IsReal (a5 i)) := by
  have e := congrFun h ix0
  dsimp only [Cert.Pre_finite_inputs.fn, fn_part1, fn_part2, fn_part3] at e
  simp only [andi, IntOp.andi_eq_one] at e
  obtain ⟨⟨⟨⟨⟨⟨⟨⟨⟨⟨⟨h0, -⟩, h3⟩, h4⟩, h5⟩, -⟩, -⟩, -⟩, -⟩, -⟩, -⟩, -⟩ := e
  exact ⟨isReal_of_all_finite a0 _ _ _ h0, isReal_of_all_finite a3 _ _ _ h3,
    isReal_of_all_finite a4 _ _ _ h4, isReal_of_all_finite a5 _ _ _ h5⟩

end Cert.Gcn
-- ==== Proof.lean ====
/-
  Two programs compute a two-layer graph convolution over 100000 nodes and 3200000 edges, and a three-layer dense network
  on a batch of 4096 rows; this file proves that they agree, and that each runs without a fault and leaves its
  arguments as launched.

  The kernel program runs its dense arithmetic in four tiled kernel regions (a matrix product; a bias with rectifier;
  a matrix product with bias and rectifier; the dense network) and the edge-list arithmetic — degrees, their inverse
  square roots, the edges' weights, the gather of source rows and the scatter-add into destination rows — on the host
  between them. The reference does everything on the host. Over the extended reals every float operation is the exact
  one and a matrix product is a plain finite sum, so the two programs differ in one place only: in the second layer
  the kernel aggregates the hidden features over the graph and then multiplies by the weights, while the reference
  multiplies first and aggregates after. Aggregation acts on the node axis and the weights on the feature axis, so the
  two orders give the same finite sum of products — for real numbers: distributing a factor over a sum is not valid at
  an infinity, and this is where the precondition is used. Finite inputs are reals; sums, products and maxima of reals
  are reals; and a node's degree is at least one, so its inverse square root is a real too. Hence the hidden features
  are reals and the two orders agree entry by entry. The dense network is the same expression on both sides.
-/
import proofs.«125731_j33835752358234_2_alg».proof.Defs
import proofs.«125731_j33835752358234_2_alg».proof.Proof.Gen.Kernel
import proofs.«125731_j33835752358234_2_alg».proof.Proof.Gen.Kernel.Frame
import proofs.«125731_j33835752358234_2_alg».proof.Proof.Gen.KernelIdeal
import proofs.«125731_j33835752358234_2_alg».proof.Proof.Gen.KernelIdeal.Frame
import proofs.«125731_j33835752358234_2_alg».proof.Proof.Gen.ReferenceIdeal
import proofs.«125731_j33835752358234_2_alg».proof.Proof.Gen.Pre_finite_inputs
import proofs.«125731_j33835752358234_2_alg».proof.Proof.Runs
import proofs.«125731_j33835752358234_2_alg».proof.Proof.Bridge
import proofs.«125731_j33835752358234_2_alg».proof.Proof.FiniteInputs

noncomputable section

namespace Cert.Proof

open Idealize.ShloMosaic Idealize.ShloMosaic.TcCoe Idealize.SL.Sem Cert.Gcn

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Runs.ref_run m ρ)

/-- The idealized kernel program is the printed program read over the extended reals: nothing was rewritten. -/
theorem preserves : Cert.preserves_Kernel_KernelIdeal := trivial

/-- From memories that agree on the arguments, the first of them finite, both idealized programs run and end with
    equal results: the kernel program's two results as functions of its arguments, which the reference's equal by
    the bridge (for the first result: the reals' distributivity; for the second: the same expression). -/
theorem algebraic : Cert.algebraic_KernelIdeal_ReferenceIdeal := by
  intro m ρ m' ρ' hpre hagree
  refine ⟨_, _, Runs.kernel_run m ρ, ?_⟩
  refine (θ_run Cert.ReferenceIdeal.defs _ _).mono (fun r h c => ?_) (Runs.ref_run m' ρ')
  obtain ⟨hX, hW1, hb1, hW2⟩ := real_of_pre _ _ _ _ _ _ _ _ _ _ _ _ _ (hpre c)
  refine ⟨(h c).1.trans ?_, (h c).2.1.trans ?_, (h c).2.2⟩
  · rw [(hagree c).1, (hagree c).2.1, (hagree c).2.2.2.1, (hagree c).2.2.2.2.1, (hagree c).2.2.2.2.2.1, (hagree c).2.2.2.2.2.2.1]
    exact (ppi_bridge _ _ _ _ _ _ hX hW1 hb1 hW2).symm
  · rw [(hagree c).2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (ddi_bridge _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
